-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x40 : Shape := ⟨2, ![200000, 40]⟩
abbrev S2x1000000 : Shape := ⟨2, ![2, 1000000]⟩
abbrev S128x40 : Shape := ⟨2, ![128, 40]⟩
abbrev S128 : Shape := ⟨1, ![128]⟩
abbrev S256x128 : Shape := ⟨2, ![256, 128]⟩
abbrev S256 : Shape := ⟨1, ![256]⟩
abbrev S128x256 : Shape := ⟨2, ![128, 256]⟩
abbrev S512x5120 : Shape := ⟨2, ![512, 5120]⟩
abbrev S512 : Shape := ⟨1, ![512]⟩
abbrev S128x512 : Shape := ⟨2, ![128, 512]⟩
abbrev S1x128 : Shape := ⟨2, ![1, 128]⟩
abbrev S1 : Shape := ⟨1, ![1]⟩
abbrev S_ : Shape := ⟨0, ![]⟩

class Facts : Prop where
  bcast_S_S200000x40 : S_.BroadcastsInDim S200000x40 (![] : Fin 0 → Fin S200000x40.rank)
  reducesTo_S200000x40_S_d0_1 : S200000x40.ReducesTo [0, 1] S_
  h_S_ : 0 < S_.numel
  bcast_S_S128x40 : S_.BroadcastsInDim S128x40 (![] : Fin 0 → Fin S128x40.rank)
  reducesTo_S128x40_S_d0_1 : S128x40.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S512x5120 : S_.BroadcastsInDim S512x5120 (![] : Fin 0 → Fin S512x5120.rank)
  reducesTo_S512x5120_S_d0_1 : S512x5120.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x128 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S512x5120 .f32) (main_arg9 : FVec F S512 .f32) (main_arg10 : FVec F S128x512 .f32) (main_arg11 : FVec F S128 .f32) (main_arg12 : FVec F S1x128 .f32) (main_arg13 : FVec F S1 .f32) (main_v33 : IVec S_ 1) : IVec S_ 1 :=
  let main_v34 : FVec F S512x5120 .f32 := Host.absf main_arg8
  let main_cst_12 : FVec F S_ .f32 := constant S_ .f32 0x7F800000#32
  let main_v35 : FVec F S512x5120 .f32 := broadcastInDim S512x5120 ![] bcast_S_S512x5120 main_cst_12
  let main_v36 : IVec S512x5120 1 := cmpf .olt main_v34 main_v35
  let main_c_13 : IVec S_ 1 := constantI S_ 1 1#1
  let main_v37 : IVec S_ 1 := (fun x v => Host.reduce IntOp.andi x v reducesTo_S512x5120_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x512 .f32 := Host.absf main_arg10
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S128x256 .f32) (main_arg7 : FVec F S128 .f32) (main_arg8 : FVec F S512x5120 .f32) (main_arg9 : FVec F S512 .f32) (main_arg10 : FVec F S128x512 .f32) (main_arg11 : FVec F S128 .f32) (main_arg12 : FVec F S1x128 .f32) (main_arg13 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S200000x40 .f32) (main_arg1 : IVec S2x1000000 32) (main_arg2 : FVec F S128x40 .f32) (main_arg3 : FVec F S128 .f32) (main_arg4 : FVec F S256x128 .f32) (main_arg5 : FVec F S256 .f32) (main_arg6 : FVec F S128x256 .f32) (main_arg7 : FVec F S128 .f32) (main_arg8 : FVec F S512x5120 .f32) (main_arg9 : FVec F S512 .f32) (main_arg10 : FVec F S128x512 .f32) (main_arg11 : FVec F S128 .f32) (main_arg12 : FVec F S1x128 .f32) (main_arg13 : FVec F S1 .f32) : IVec S_ 1 :=
  let main_v0 : FVec F S200000x40 .f32 := Host.absf main_arg0
  let main_cst : FVec F S_ .f32 := constant S_ .f32 0x7F800000#32
  let main_v1 : FVec F S200000x40 .f32 := broadcastInDim S200000x40 ![] bcast_S_S200000x40 main_cst
  let main_v2 : IVec S200000x40 1 := cmpf .olt main_v0 main_v1
  let main_c : IVec S_ 1 := constantI S_ 1 1#1
  let main_v3 : IVec S_ 1 := (fun x v => Host.reduce IntOp.andi x v reducesTo_S200000x40_S_d0_1 h_S_) main_v2 main_c
  let main_v4 : FVec F S128x40 .f32 := Host.absf main_arg2
  let main_cst_0 : FVec F S_ .f32 := constant S_ .f32 0x7F800000#32
  let main_v5 : FVec F S128x40 .f32 := broadcastInDim S128x40 ![] bcast_S_S128x40 main_cst_0
  let main_v6 : IVec S128x40 1 := cmpf .olt main_v4 main_v5
  let main_c_1 : IVec S_ 1 := constantI S_ 1 1#1
  let main_v7 : IVec S_ 1 := (fun x v => Host.reduce IntOp.andi x v reducesTo_S128x40_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S200000x40 : Shape := ⟨2, ![200000, 40]⟩
abbrev S2x1000000 : Shape := ⟨2, ![2, 1000000]⟩
abbrev S128x40 : Shape := ⟨2, ![128, 40]⟩
abbrev S128 : Shape := ⟨1, ![128]⟩
abbrev S256x128 : Shape := ⟨2, ![256, 128]⟩
abbrev S256 : Shape := ⟨1, ![256]⟩
abbrev S128x256 : Shape := ⟨2, ![128, 256]⟩
abbrev S512x5120 : Shape := ⟨2, ![512, 5120]⟩
abbrev S512 : Shape := ⟨1, ![512]⟩
abbrev S128x512 : Shape := ⟨2, ![128, 512]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S40x128 : Shape := ⟨2, ![40, 128]⟩
abbrev S200000x128 : Shape := ⟨2, ![200000, 128]⟩
abbrev S2000x40 : Shape := ⟨2, ![2000, 40]⟩
abbrev S2000x128 : Shape := ⟨2, ![2000, 128]⟩
abbrev S1000000x128 : Shape := ⟨2, ![1000000, 128]⟩
abbrev S200000x1 : Shape := ⟨2, ![200000, 1]⟩
abbrev S1x256 : Shape := ⟨2, ![1, 256]⟩
abbrev S200000x256 : Shape := ⟨2, ![200000, 256]⟩
abbrev S2000x256 : Shape := ⟨2, ![2000, 256]⟩
abbrev S1000000x256 : Shape := ⟨2, ![1000000, 256]⟩
abbrev S5000x5120 : Shape := ⟨2, ![5000, 5120]⟩
abbrev S5120x512 : Shape := ⟨2, ![5120, 512]⟩
abbrev S1x512 : Shape := ⟨2, ![1, 512]⟩
abbrev S5000x512 : Shape := ⟨2, ![5000, 512]⟩
abbrev S1000x5120 : Shape := ⟨2, ![1000, 5120]⟩
abbrev S1000x512 : Shape := ⟨2, ![1000, 512]⟩
abbrev S512x128 : Shape := ⟨2, ![512, 128]⟩
abbrev S5000x128 : Shape := ⟨2, ![5000, 128]⟩
abbrev S1000x128 : Shape := ⟨2, ![1000, 128]⟩
abbrev S128x1 : Shape := ⟨2, ![128, 1]⟩
abbrev S1x1 : Shape := ⟨2, ![1, 1]⟩
abbrev S5000x1 : Shape := ⟨2, ![5000, 1]⟩
abbrev S1000x1 : Shape := ⟨2, ![1000, 1]⟩

abbrev nBuf : Space → Nat
  | .hbm => 215
  | .vmem => 36
  | .smem => 0
  | _ => 0

abbrev hbmTy0_0 (i : Nat) : BufTy := match i % 128 with
  | 0 => ⟨S200000x40, .f32⟩
  | 1 => ⟨S2x1000000, .i32⟩
  | 2 => ⟨S128x40, .f32⟩
  | 3 => ⟨S128, .f32⟩
  | 4 => ⟨S256x128, .f32⟩
  | 5 => ⟨S256, .f32⟩
  | 6 => ⟨S128x256, .f32⟩
  | 7 => ⟨S128, .f32⟩
  | 8 => ⟨S512x5120, .f32⟩
  | 9 => ⟨S512, .f32⟩
  | 10 => ⟨S128x512, .f32⟩
  | 11 => ⟨S128, .f32⟩
  | 12 => ⟨S1x128, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S200000, .f32⟩
  | 22 => ⟨S1000000x1, .i32⟩
  | 23 => ⟨S200000, .f32⟩
  | 24 => ⟨S_, .f32⟩
  | 25 => ⟨S200000, .f32⟩
  | 26 => ⟨S200000, .f32⟩
  | 27 => ⟨S200000, .f32⟩
  | 28 => ⟨S200000x40, .bf16⟩
  | 29 => ⟨S40x128, .f32⟩
  | 30 => ⟨S40x128, .bf16⟩
  | 31 => ⟨S_, .f32⟩
  | 32 => ⟨S1x128, .f32⟩
  | 33 => ⟨S200000x128, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x128, .f32⟩
  | 62 => ⟨S1000000x1, .f32⟩
  | 63 => ⟨S1000000x128, .f32⟩
  | 64 => ⟨S1000000x128, .f32⟩
  | 65 => ⟨S_, .f32⟩
  | 66 => ⟨S200000x128, .f32⟩
  | 67 => ⟨S1000000x1, .i32⟩
  | 68 => ⟨S200000x128, .f32⟩
  | 69 => ⟨S200000, .f32⟩
  | 70 => ⟨S200000x1, .f32⟩
  | 71 => ⟨S200000x128, .f32⟩
  | 72 => ⟨S200000x128, .f32⟩
  | 73 => ⟨S200000x128, .f32⟩
  | 74 => ⟨S1x128, .f32⟩
  | 75 => ⟨S200000x128, .f32⟩
  | 76 => ⟨S200000x128, .f32⟩
  | 77 => ⟨S_, .f32⟩
  | 78 => ⟨S_, .f32⟩
  | 79 => ⟨S200000x128, .f32⟩
  | 80 => ⟨S200000x128, .i1⟩
  | 81 => ⟨S_, .f32⟩
  | 82 => ⟨S200000x128, .f32⟩
  | 83 => ⟨S200000x128, .f32⟩
  | 84 => ⟨S200000x128, .f32⟩
  | 85 => ⟨S200000x128, .bf16⟩
  | 86 => ⟨S128x256, .f32⟩
  | 87 => ⟨S128x256, .bf16⟩
  | 88 => ⟨S_, .f32⟩
  | 89 => ⟨S1x256, .f32⟩
  | 90 => ⟨S200000x256, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000, .f32⟩
  | 109 => ⟨S1000000, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x256, .f32⟩
  | 119 => ⟨S1000000x1, .f32⟩
  | 120 => ⟨S1000000x256, .f32⟩
  | 121 => ⟨S1000000x256, .f32⟩
  | 122 => ⟨S_, .f32⟩
  | 123 => ⟨S200000x256, .f32⟩
  | 124 => ⟨S1000000x1, .i32⟩
  | 125 => ⟨S200000x256, .f32⟩
  | 126 => ⟨S200000, .f32⟩
  | 127 => ⟨S200000x1, .f32⟩
  | _ => ⟨S200000x40, .f32⟩

abbrev hbmTy0_1 (i : Nat) : BufTy := match i % 128 with
  | 0 => ⟨S200000x256, .f32⟩
  | 1 => ⟨S200000x256, .f32⟩
  | 2 => ⟨S200000x256, .f32⟩
  | 3 => ⟨S1x256, .f32⟩
  | 4 => ⟨S200000x256, .f32⟩
  | 5 => ⟨S200000x256, .f32⟩
  | 6 => ⟨S_, .f32⟩
  | 7 => ⟨S_, .f32⟩
  | 8 => ⟨S200000x256, .f32⟩
  | 9 => ⟨S200000x256, .i1⟩
  | 10 => ⟨S_, .f32⟩
  | 11 => ⟨S200000x256, .f32⟩
  | 12 => ⟨S200000x256, .f32⟩
  | 13 => ⟨S200000x256, .f32⟩
  | 14 => ⟨S200000x256, .bf16⟩
  | 15 => ⟨S256x128, .f32⟩
  | 16 => ⟨S256x128, .bf16⟩
  | 17 => ⟨S_, .f32⟩
  | 18 => ⟨S1x128, .f32⟩
  | 19 => ⟨S200000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x128, .f32⟩
  | 48 => ⟨S1000000x1, .f32⟩
  | 49 => ⟨S1000000x128, .f32⟩
  | 50 => ⟨S1000000x128, .f32⟩
  | 51 => ⟨S_, .f32⟩
  | 52 => ⟨S200000x128, .f32⟩
  | 53 => ⟨S1000000x1, .i32⟩
  | 54 => ⟨S200000x128, .f32⟩
  | 55 => ⟨S200000, .f32⟩
  | 56 => ⟨S200000x1, .f32⟩
  | 57 => ⟨S200000x128, .f32⟩
  | 58 => ⟨S200000x128, .f32⟩
  | 59 => ⟨S200000x128, .f32⟩
  | 60 => ⟨S1x128, .f32⟩
  | 61 => ⟨S200000x128, .f32⟩
  | 62 => ⟨S200000x128, .f32⟩
  | 63 => ⟨S_, .f32⟩
  | 64 => ⟨S_, .f32⟩
  | 65 => ⟨S200000x128, .f32⟩
  | 66 => ⟨S200000x128, .i1⟩
  | 67 => ⟨S_, .f32⟩
  | 68 => ⟨S200000x128, .f32⟩
  | 69 => ⟨S200000x128, .f32⟩
  | 70 => ⟨S200000x128, .f32⟩
  | 71 => ⟨S5000x5120, .f32⟩
  | 72 => ⟨S5000x5120, .bf16⟩
  | 73 => ⟨S5120x512, .f32⟩
  | 74 => ⟨S5120x512, .bf16⟩
  | 75 => ⟨S1x512, .f32⟩
  | 76 => ⟨S5000x512, .f32⟩
  | 77 => ⟨S5000x512, .bf16⟩
  | 78 => ⟨S512x128, .f32⟩
  | 79 => ⟨S512x128, .bf16⟩
  | 80 => ⟨S1x128, .f32⟩
  | 81 => ⟨S5000x128, .f32⟩
  | 82 => ⟨S5000x128, .bf16⟩
  | 83 => ⟨S128x1, .f32⟩
  | 84 => ⟨S128x1, .bf16⟩
  | 85 => ⟨S1x1, .f32⟩
  | 86 => ⟨S5000x1, .f32⟩
  | _ => ⟨S200000x40, .f32⟩

abbrev hbmTy (i : Nat) : BufTy := match i / 128 with
  | 0 => hbmTy0_0 i
  | 1 => hbmTy0_1 i
  | _ => ⟨S200000x40, .f32⟩

abbrev bufTy : (tb : Table) → Fin (tcTables nBuf tb) → BufTy
  | .hbm, ⟨i, _⟩ => hbmTy i
  | .local _ .vmem, ⟨0, _⟩ => ⟨S2000x40, .bf16⟩
  | .local _ .vmem, ⟨1, _⟩ => ⟨S2000x40, .bf16⟩
  | .local _ .vmem, ⟨2, _⟩ => ⟨S40x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .bf16⟩
  | .local _ .vmem, ⟨7, _⟩ => ⟨S2000x128, .bf16⟩
  | .local _ .vmem, ⟨8, _⟩ => ⟨S128x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .bf16⟩
  | .local _ .vmem, ⟨13, _⟩ => ⟨S2000x256, .bf16⟩
  | .local _ .vmem, ⟨14, _⟩ => ⟨S256x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1000x5120, .bf16⟩
  | .local _ .vmem, ⟨19, _⟩ => ⟨S1000x5120, .bf16⟩
  | .local _ .vmem, ⟨20, _⟩ => ⟨S5120x512, .bf16⟩
  | .local _ .vmem, ⟨21, _⟩ => ⟨S1x512, .f32⟩
  | .local _ .vmem, ⟨22, _⟩ => ⟨S1000x512, .f32⟩
  | .local _ .vmem, ⟨23, _⟩ => ⟨S1000x512, .f32⟩
  | .local _ .vmem, ⟨24, _⟩ => ⟨S1000x512, .bf16⟩
  | .local _ .vmem, ⟨25, _⟩ => ⟨S1000x512, .bf16⟩
  | .local _ .vmem, ⟨26, _⟩ => ⟨S512x128, .bf16⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .bf16⟩
  | .local _ .vmem, ⟨31, _⟩ => ⟨S1000x128, .bf16⟩
  | .local _ .vmem, ⟨32, _⟩ => ⟨S128x1, .bf16⟩
  | .local _ .vmem, ⟨33, _⟩ => ⟨S1x1, .f32⟩
  | .local _ .vmem, ⟨34, _⟩ => ⟨S1000x1, .f32⟩
  | .local _ .vmem, ⟨35, _⟩ => ⟨S1000x1, .f32⟩
  | _, _ => ⟨S200000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_19 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_v100 : Ref sig .tc := ⟨.hbm, 149, rfl⟩
abbrev main_v101 : Ref sig .tc := ⟨.hbm, 150, rfl⟩
abbrev main_c_21 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_22 : Ref sig .tc := ⟨.hbm, 157, rfl⟩
abbrev main_v107 : Ref sig .tc := ⟨.hbm, 158, rfl⟩
abbrev main_v108 : Ref sig .tc := ⟨.hbm, 159, rfl⟩
abbrev main_c_23 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_24 : Ref sig .tc := ⟨.hbm, 167, rfl⟩
abbrev main_v115 : Ref sig .tc := ⟨.hbm, 168, rfl⟩
abbrev main_v116 : Ref sig .tc := ⟨.hbm, 169, rfl⟩
abbrev main_c_25 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_26 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_27 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x40 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x5120 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S5120x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bitsLt_bf16_f32 : FTy.bits .bf16 < FTy.bits .f32
  transposes_S128x40_S40x128_1_0 : S128x40.Transposes [1, 0] S40x128
  bcast_S_S1x128 : S_.BroadcastsInDim S1x128 (![] : Fin 0 → Fin S1x128.rank)
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1000000x1_S1000000x128_0_1 : S1000000x1.BroadcastsInDim S1000000x128 (![0, 1] : Fin 2 → Fin S1000000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S256x128_S128x256_1_0 : S256x128.Transposes [1, 0] S128x256
  bcast_S_S1x256 : S_.BroadcastsInDim S1x256 (![] : Fin 0 → Fin S1x256.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S1000000x1_S1000000x256_0_1 : S1000000x1.BroadcastsInDim S1000000x256 (![0, 1] : Fin 2 → Fin S1000000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  transposes_S128x256_S256x128_1_0 : S128x256.Transposes [1, 0] S256x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S200000x128_S5000x5120 : S200000x128.ShapeCasts S5000x5120
  transposes_S512x5120_S5120x512_1_0 : S512x5120.Transposes [1, 0] S5120x512
  shapeCasts_S512_S1x512 : S512.ShapeCasts S1x512
  inb_S1000x5120_S1000x5120_0_0 : ∀ a, (![0, 0] : Fin 2 → Nat) a + S1000x5120.size a ≤ S1000x5120.size a
  h_S1000x5120 : 0 < S1000x5120.numel
  shapeCasts_S1000x5120_S1000x5120 : S1000x5120.ShapeCasts S1000x5120
  inb_S5120x512_S5120x512_0_0 : ∀ a, (![0, 0] : Fin 2 → Nat) a + S5120x512.size a ≤ S5120x512.size a
  h_S5120x512 : 0 < S5120x512.numel
  shapeCasts_S5120x512_S5120x512 : S5120x512.ShapeCasts S5120x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  transposes_S128x512_S512x128_1_0 : S128x512.Transposes [1, 0] S512x128
  shapeCasts_S128_S1x128 : S128.ShapeCasts S1x128
  shapeCasts_S1000x512_S1000x512 : S1000x512.ShapeCasts S1000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  transposes_S1x128_S128x1_1_0 : S1x128.Transposes [1, 0] S128x1
  shapeCasts_S1_S1x1 : S1.ShapeCasts S1x1
  shapeCasts_S1000x128_S1000x128 : S1000x128.ShapeCasts S1000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S200000_S1000000x1_S1000000_n_0_0_1_wf : ScatterDims.WF S200000 S1000000x1 S1000000 [] [0] [0] 1
  dot_S2000x40_S40x128_S2000x128_1_0_0_1_n_n_wf : DotDims.WF S2000x40 S40x128 S2000x128 [1] [0] [0] [1] [] []
  gather_S200000_S1000000x1_S1000000_n_0_n_n_0_1_1_wf : GatherDims.WF S200000 S1000000x1 S1000000 [] [0] [] [0] [] 1 ![1]
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  dot_S2000x128_S128x256_S2000x256_1_0_0_1_n_n_wf : DotDims.WF S2000x128 S128x256 S2000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S2000x256_S256x128_S2000x128_1_0_0_1_n_n_wf : DotDims.WF S2000x256 S256x128 S2000x128 [1] [0] [0] [1] [] []
  dot_S1000x5120_S5120x512_S1000x512_1_0_0_1_n_n_wf : DotDims.WF S1000x5120 S5120x512 S1000x512 [1] [0] [0] [1] [] []
  dot_S1000x512_S512x128_S1000x128_1_0_0_1_n_n_wf : DotDims.WF S1000x512 S512x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x40.size a ≤ S200000x40.size a
  hwx0_0 : ∀ i : grid0.Coords, EltTy.bits .bf16 = 32 ∨ (Rect.block (s := S200000x40) S2000x40.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .bf16 = 32 ∨ (Rect.block (s := S40x128) S40x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .bf16 = 32 ∨ (Rect.block (s := S200000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S200000x256.size a
  hwx1_3 : ∀ i : grid1.Coords, EltTy.bits .f32 = 32 ∨ (Rect.block (s := S200000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .bf16 = 32 ∨ (Rect.block (s := S200000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x5120.size a ≤ S5000x5120.size a
  hwx3_0 : ∀ i : grid3.Coords, EltTy.bits .bf16 = 32 ∨ (Rect.block (s := S5000x5120) S1000x5120.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S5120x512.size a ≤ S5120x512.size a
  hwx3_1 : ∀ i : grid3.Coords, EltTy.bits .bf16 = 32 ∨ (Rect.block (s := S5120x512) S5120x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S5000x512.size a
  hwx3_3 : ∀ i : grid3.Coords, EltTy.bits .f32 = 32 ∨ (Rect.block (s := S5000x512) S1000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S5000x512.size a
  hwx4_0 : ∀ i : grid4.Coords, EltTy.bits .bf16 = 32 ∨ (Rect.block (s := S5000x512) S1000x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .bf16 = 32 ∨ (Rect.block (s := S512x128) S512x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S5000x128.size a
  hwx4_3 : ∀ i : grid4.Coords, EltTy.bits .f32 = 32 ∨ (Rect.block (s := S5000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S5000x128.size a
  hwx5_0 : ∀ i : grid5.Coords, EltTy.bits .bf16 = 32 ∨ (Rect.block (s := S5000x128) S1000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .bf16 = 32 ∨ (Rect.block (s := S128x1) S128x1.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x1.size a ≤ S5000x1.size a
  hwx5_3 : ∀ i : grid5.Coords, EltTy.bits .f32 = 32 ∨ (Rect.block (s := S5000x1) S1000x1.size (cc5_transform_3 i) (hinb5_3 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S2000x40_S40x128_S2000x128_1_0_0_1_n_n : DotDims S2000x40 S40x128 S2000x128 where
  lhsContracting := [1]
  rhsContracting := [0]
  lhsNonContracting := [0]
  rhsNonContracting := [1]
  lhsBatch := []
  rhsBatch := []
  wf := dot_S2000x40_S40x128_S2000x128_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1000x5120_S5120x512_S1000x512_1_0_0_1_n_n : DotDims S1000x5120 S5120x512 S1000x512 where
  lhsContracting := [1]
  rhsContracting := [0]
  lhsNonContracting := [0]
  rhsNonContracting := [1]
  lhsBatch := []
  rhsBatch := []
  wf := dot_S1000x5120_S5120x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_v11) S2000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v95) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v97) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v98) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v99) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v138) S1000x5120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v140) S5120x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v141) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v142) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v143) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v145) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v146) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v147) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v148) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v150) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v151) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v152) S1000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S200000x40 : Shape := ⟨2, ![200000, 40]⟩
abbrev S2x1000000 : Shape := ⟨2, ![2, 1000000]⟩
abbrev S128x40 : Shape := ⟨2, ![128, 40]⟩
abbrev S128 : Shape := ⟨1, ![128]⟩
abbrev S256x128 : Shape := ⟨2, ![256, 128]⟩
abbrev S256 : Shape := ⟨1, ![256]⟩
abbrev S128x256 : Shape := ⟨2, ![128, 256]⟩
abbrev S512x5120 : Shape := ⟨2, ![512, 5120]⟩
abbrev S512 : Shape := ⟨1, ![512]⟩
abbrev S128x512 : Shape := ⟨2, ![128, 512]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S40x128 : Shape := ⟨2, ![40, 128]⟩
abbrev S200000x128 : Shape := ⟨2, ![200000, 128]⟩
abbrev S1000000x128 : Shape := ⟨2, ![1000000, 128]⟩
abbrev S200000x1 : Shape := ⟨2, ![200000, 1]⟩
abbrev S200000x256 : Shape := ⟨2, ![200000, 256]⟩
abbrev S1000000x256 : Shape := ⟨2, ![1000000, 256]⟩
abbrev S1x256 : Shape := ⟨2, ![1, 256]⟩
abbrev S5000x5120 : Shape := ⟨2, ![5000, 5120]⟩
abbrev S5120x512 : Shape := ⟨2, ![5120, 512]⟩
abbrev S5000x512 : Shape := ⟨2, ![5000, 512]⟩
abbrev S1x512 : Shape := ⟨2, ![1, 512]⟩
abbrev S512x128 : Shape := ⟨2, ![512, 128]⟩
abbrev S5000x128 : Shape := ⟨2, ![5000, 128]⟩
abbrev S128x1 : Shape := ⟨2, ![128, 1]⟩
abbrev S5000x1 : Shape := ⟨2, ![5000, 1]⟩
abbrev S1x1 : Shape := ⟨2, ![1, 1]⟩

abbrev nBuf : Space → Nat
  | .hbm => 227
  | .vmem => 0
  | .smem => 0
  | _ => 0

abbrev hbmTy0_0 (i : Nat) : BufTy := match i % 128 with
  | 0 => ⟨S200000x40, .f32⟩
  | 1 => ⟨S2x1000000, .i32⟩
  | 2 => ⟨S128x40, .f32⟩
  | 3 => ⟨S128, .f32⟩
  | 4 => ⟨S256x128, .f32⟩
  | 5 => ⟨S256, .f32⟩
  | 6 => ⟨S128x256, .f32⟩
  | 7 => ⟨S128, .f32⟩
  | 8 => ⟨S512x5120, .f32⟩
  | 9 => ⟨S512, .f32⟩
  | 10 => ⟨S128x512, .f32⟩
  | 11 => ⟨S128, .f32⟩
  | 12 => ⟨S1x128, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S200000, .f32⟩
  | 22 => ⟨S1000000x1, .i32⟩
  | 23 => ⟨S200000, .f32⟩
  | 24 => ⟨S_, .f32⟩
  | 25 => ⟨S200000, .f32⟩
  | 26 => ⟨S200000, .f32⟩
  | 27 => ⟨S200000, .f32⟩
  | 28 => ⟨S40x128, .f32⟩
  | 29 => ⟨S200000x128, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000, .f32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x128, .f32⟩
  | 58 => ⟨S1000000x1, .f32⟩
  | 59 => ⟨S1000000x128, .f32⟩
  | 60 => ⟨S1000000x128, .f32⟩
  | 61 => ⟨S_, .f32⟩
  | 62 => ⟨S200000x128, .f32⟩
  | 63 => ⟨S1000000x1, .i32⟩
  | 64 => ⟨S200000x128, .f32⟩
  | 65 => ⟨S200000, .f32⟩
  | 66 => ⟨S200000x1, .f32⟩
  | 67 => ⟨S200000x128, .f32⟩
  | 68 => ⟨S200000x128, .f32⟩
  | 69 => ⟨S200000x128, .f32⟩
  | 70 => ⟨S1x128, .f32⟩
  | 71 => ⟨S200000x128, .f32⟩
  | 72 => ⟨S200000x128, .f32⟩
  | 73 => ⟨S_, .f32⟩
  | 74 => ⟨S_, .f32⟩
  | 75 => ⟨S200000x128, .f32⟩
  | 76 => ⟨S200000x128, .i1⟩
  | 77 => ⟨S_, .f32⟩
  | 78 => ⟨S200000x128, .f32⟩
  | 79 => ⟨S200000x128, .f32⟩
  | 80 => ⟨S200000x128, .f32⟩
  | 81 => ⟨S128x256, .f32⟩
  | 82 => ⟨S200000x256, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000, .f32⟩
  | 101 => ⟨S1000000, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x256, .f32⟩
  | 111 => ⟨S1000000x1, .f32⟩
  | 112 => ⟨S1000000x256, .f32⟩
  | 113 => ⟨S1000000x256, .f32⟩
  | 114 => ⟨S_, .f32⟩
  | 115 => ⟨S200000x256, .f32⟩
  | 116 => ⟨S1000000x1, .i32⟩
  | 117 => ⟨S200000x256, .f32⟩
  | 118 => ⟨S200000, .f32⟩
  | 119 => ⟨S200000x1, .f32⟩
  | 120 => ⟨S200000x256, .f32⟩
  | 121 => ⟨S200000x256, .f32⟩
  | 122 => ⟨S200000x256, .f32⟩
  | 123 => ⟨S1x256, .f32⟩
  | 124 => ⟨S200000x256, .f32⟩
  | 125 => ⟨S200000x256, .f32⟩
  | 126 => ⟨S_, .f32⟩
  | 127 => ⟨S_, .f32⟩
  | _ => ⟨S200000x40, .f32⟩

abbrev hbmTy0_1 (i : Nat) : BufTy := match i % 128 with
  | 0 => ⟨S200000x256, .f32⟩
  | 1 => ⟨S200000x256, .i1⟩
  | 2 => ⟨S_, .f32⟩
  | 3 => ⟨S200000x256, .f32⟩
  | 4 => ⟨S200000x256, .f32⟩
  | 5 => ⟨S200000x256, .f32⟩
  | 6 => ⟨S256x128, .f32⟩
  | 7 => ⟨S200000x128, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000, .f32⟩
  | 26 => ⟨S1000000, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x128, .f32⟩
  | 36 => ⟨S1000000x1, .f32⟩
  | 37 => ⟨S1000000x128, .f32⟩
  | 38 => ⟨S1000000x128, .f32⟩
  | 39 => ⟨S_, .f32⟩
  | 40 => ⟨S200000x128, .f32⟩
  | 41 => ⟨S1000000x1, .i32⟩
  | 42 => ⟨S200000x128, .f32⟩
  | 43 => ⟨S200000, .f32⟩
  | 44 => ⟨S200000x1, .f32⟩
  | 45 => ⟨S200000x128, .f32⟩
  | 46 => ⟨S200000x128, .f32⟩
  | 47 => ⟨S200000x128, .f32⟩
  | 48 => ⟨S1x128, .f32⟩
  | 49 => ⟨S200000x128, .f32⟩
  | 50 => ⟨S200000x128, .f32⟩
  | 51 => ⟨S_, .f32⟩
  | 52 => ⟨S_, .f32⟩
  | 53 => ⟨S200000x128, .f32⟩
  | 54 => ⟨S200000x128, .i1⟩
  | 55 => ⟨S_, .f32⟩
  | 56 => ⟨S200000x128, .f32⟩
  | 57 => ⟨S200000x128, .f32⟩
  | 58 => ⟨S200000x128, .f32⟩
  | 59 => ⟨S5000x5120, .f32⟩
  | 60 => ⟨S5120x512, .f32⟩
  | 61 => ⟨S5000x512, .f32⟩
  | 62 => ⟨S1x512, .f32⟩
  | 63 => ⟨S5000x512, .f32⟩
  | 64 => ⟨S5000x512, .f32⟩
  | 65 => ⟨S_, .f32⟩
  | 66 => ⟨S_, .f32⟩
  | 67 => ⟨S5000x512, .f32⟩
  | 68 => ⟨S5000x512, .i1⟩
  | 69 => ⟨S_, .f32⟩
  | 70 => ⟨S5000x512, .f32⟩
  | 71 => ⟨S5000x512, .f32⟩
  | 72 => ⟨S5000x512, .f32⟩
  | 73 => ⟨S512x128, .f32⟩
  | 74 => ⟨S5000x128, .f32⟩
  | 75 => ⟨S1x128, .f32⟩
  | 76 => ⟨S5000x128, .f32⟩
  | 77 => ⟨S5000x128, .f32⟩
  | 78 => ⟨S_, .f32⟩
  | 79 => ⟨S_, .f32⟩
  | 80 => ⟨S5000x128, .f32⟩
  | 81 => ⟨S5000x128, .i1⟩
  | 82 => ⟨S_, .f32⟩
  | 83 => ⟨S5000x128, .f32⟩
  | 84 => ⟨S5000x128, .f32⟩
  | 85 => ⟨S5000x128, .f32⟩
  | 86 => ⟨S128x1, .f32⟩
  | 87 => ⟨S5000x1, .f32⟩
  | 88 => ⟨S1x1, .f32⟩
  | 89 => ⟨S5000x1, .f32⟩
  | 90 => ⟨S5000x1, .f32⟩
  | 91 => ⟨S5000x1, .f32⟩
  | 92 => ⟨S5000x1, .f32⟩
  | 93 => ⟨S_, .f32⟩
  | 94 => ⟨S5000x1, .f32⟩
  | 95 => ⟨S5000x1, .f32⟩
  | 96 => ⟨S_, .f32⟩
  | 97 => ⟨S5000x1, .f32⟩
  | 98 => ⟨S5000x1, .f32⟩
  | _ => ⟨S200000x40, .f32⟩

abbrev hbmTy (i : Nat) : BufTy := match i / 128 with
  | 0 => hbmTy0_0 i
  | 1 => hbmTy0_1 i
  | _ => ⟨S200000x40, .f32⟩

abbrev bufTy : (tb : Table) → Fin (tcTables nBuf tb) → BufTy
  | .hbm, ⟨i, _⟩ => hbmTy i
  | _, _ => ⟨S200000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_17 : Ref sig .tc := ⟨.hbm, 136, rfl⟩
abbrev main_v91 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_19 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_21 : Ref sig .tc := ⟨.hbm, 155, rfl⟩
abbrev main_v106 : Ref sig .tc := ⟨.hbm, 156, rfl⟩
abbrev main_v107 : Ref sig .tc := ⟨.hbm, 157, rfl⟩
abbrev main_c_22 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_23 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_24 : Ref sig .tc := ⟨.hbm, 179, rfl⟩
abbrev main_call2_cst : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_25 : Ref sig .tc := ⟨.hbm, 193, rfl⟩
abbrev main_call3_cst : Ref sig .tc := ⟨.hbm, 194, rfl⟩
abbrev main_call3_v0 : Ref sig .tc := ⟨.hbm, 195, rfl⟩
abbrev main_call3_v1 : Ref sig .tc := ⟨.hbm, 196, rfl⟩
abbrev main_call3_v2 : Ref sig .tc := ⟨.hbm, 197, rfl⟩
abbrev main_call3_v3 : Ref sig .tc := ⟨.hbm, 198, rfl⟩
abbrev main_call3_v4 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_26 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_27 : Ref sig .tc := ⟨.hbm, 221, rfl⟩
abbrev main_v148 : Ref sig .tc := ⟨.hbm, 222, rfl⟩
abbrev main_v149 : Ref sig .tc := ⟨.hbm, 223, rfl⟩
abbrev main_cst_28 : Ref sig .tc := ⟨.hbm, 224, rfl⟩
abbrev main_v150 : Ref sig .tc := ⟨.hbm, 225, rfl⟩
abbrev main_v151 : Ref sig .tc := ⟨.hbm, 226, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  transposes_S128x40_S40x128_1_0 : S128x40.Transposes [1, 0] S40x128
  bcast_S1000000x1_S1000000x128_0_1 : S1000000x1.BroadcastsInDim S1000000x128 (![0, 1] : Fin 2 → Fin S1000000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S256x128_S128x256_1_0 : S256x128.Transposes [1, 0] S128x256
  bcast_S1000000x1_S1000000x256_0_1 : S1000000x1.BroadcastsInDim S1000000x256 (![0, 1] : Fin 2 → Fin S1000000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  transposes_S128x256_S256x128_1_0 : S128x256.Transposes [1, 0] S256x128
  shapeCasts_S200000x128_S5000x5120 : S200000x128.ShapeCasts S5000x5120
  transposes_S512x5120_S5120x512_1_0 : S512x5120.Transposes [1, 0] S5120x512
  bcast_S512_S1x512_1 : S512.BroadcastsInDim S1x512 (![1] : Fin 1 → Fin S1x512.rank)
  bcast_S1x512_S5000x512_0_1 : S1x512.BroadcastsInDim S5000x512 (![0, 1] : Fin 2 → Fin S5000x512.rank)
  bcast_S_S5000x512 : S_.BroadcastsInDim S5000x512 (![] : Fin 0 → Fin S5000x512.rank)
  transposes_S128x512_S512x128_1_0 : S128x512.Transposes [1, 0] S512x128
  bcast_S1x128_S5000x128_0_1 : S1x128.BroadcastsInDim S5000x128 (![0, 1] : Fin 2 → Fin S5000x128.rank)
  bcast_S_S5000x128 : S_.BroadcastsInDim S5000x128 (![] : Fin 0 → Fin S5000x128.rank)
  transposes_S1x128_S128x1_1_0 : S1x128.Transposes [1, 0] S128x1
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  bcast_S_S5000x1 : S_.BroadcastsInDim S5000x1 (![] : Fin 0 → Fin S5000x1.rank)
  scatter_S200000_S1000000x1_S1000000_n_0_0_1_wf : ScatterDims.WF S200000 S1000000x1 S1000000 [] [0] [0] 1
  dot_S200000x40_S40x128_S200000x128_1_0_0_1_n_n_wf : DotDims.WF S200000x40 S40x128 S200000x128 [1] [0] [0] [1] [] []
  gather_S200000_S1000000x1_S1000000_n_0_n_n_0_1_1_wf : GatherDims.WF S200000 S1000000x1 S1000000 [] [0] [] [0] [] 1 ![1]
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x128_S128x256_S200000x256_1_0_0_1_n_n_wf : DotDims.WF S200000x128 S128x256 S200000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S200000x256_S256x128_S200000x128_1_0_0_1_n_n_wf : DotDims.WF S200000x256 S256x128 S200000x128 [1] [0] [0] [1] [] []
  dot_S5000x5120_S5120x512_S5000x512_1_0_0_1_n_n_wf : DotDims.WF S5000x5120 S5120x512 S5000x512 [1] [0] [0] [1] [] []
  dot_S5000x512_S512x128_S5000x128_1_0_0_1_n_n_wf : DotDims.WF S5000x512 S512x128 S5000x128 [1] [0] [0] [1] [] []
  dot_S5000x128_S128x1_S5000x1_1_0_0_1_n_n_wf : DotDims.WF S5000x128 S128x1 S5000x1 [1] [0] [0] [1] [] []

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x40_S40x128_S200000x128_1_0_0_1_n_n : DotDims S200000x40 S40x128 S200000x128 where
  lhsContracting := [1]
  rhsContracting := [0]
  lhsNonContracting := [0]
  rhsNonContracting := [1]
  lhsBatch := []
  rhsBatch := []
  wf := dot_S200000x40_S40x128_S200000x128_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S5000x5120_S5120x512_S5000x512_1_0_0_1_n_n : DotDims S5000x5120 S5120x512 S5000x512 where
  lhsContracting := [1]
  rhsContracting := [0]
  lhsNonContracting := [0]
  rhsNonContracting := [1]
  lhsBatch := []
  rhsBatch := []
  wf := dot_S5000x5120_S5120x512_S5000x512_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

class Facts : Prop extends Facts₀ where

variable [Facts]
-- ==== Proof.KernelRun.lean ====
import proofs.«100723_j10694468567643_1_alg».proof.Proof.Gen.KernelIdeal.Frame
import proofs.«100723_j10694468567643_1_alg».proof.Proof.Gen.KernelIdeal.Launch
import proofs.«100723_j10694468567643_1_alg».proof.Proof.Gen.KernelIdeal.Skeleton
import proofs.«100723_j10694468567643_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel's run, with its result buffer

The run of the program from a launch memory `m`: every weakly fair execution terminates without a fault,
and in every final state the result buffer holds the last boundary valuation `Gen.W18 m ρ c` read at it,
while every argument buffer still holds its launch contents. The last thread state of the segment chain
holds every unscoped buffer at `W18`; the result buffer is one of them, and each argument's value at
`W18` walks back to the launch memory. -/

set_option backward.isDefEq.respectTransparency.types false in
/-- Every weakly fair execution of the program from `m` (all counters zero) terminates without a fault; its
    final memory has the result buffer at `Gen.W18 m ρ c` and the fourteen argument buffers as launched. -/
theorem run_val : θ_run defs (onTc (τ := τ) (main (F := F))) ⟨m, fun _ => 0, ρ⟩ (fun r => ∀ c : Dev nD,
      r.2.mem ((c.tc : Thread nD τ).loc main_v152) = Gen.W18 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v152 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.KRun

end
-- ==== Proof.RefRun.lean ====
/- The reference program's @main as a LIST of its host operations, cut into ten consecutive pieces — the glue before
   each matrix product and the product with its operand's transpose, then the dense layers — and its run read back:
   every weakly fair execution of @main terminates with each TensorCore buffer at the operations' fold (`after`) over
   the launch contents. The outlined functions `leaky_relu*` (and the `_where*` each calls) stand inlined at their
   call sites, over the buffers of the call's record. -/
import proofs.«100723_j10694468567643_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The ten pieces -/

/-- @main's operations in program order from `%0` up to and including `%10`: the edge table's two rows sliced and
    reshaped, the in-degree count scattered over the target row, one added, and its inverse square root (buffer `main_v10`). 14 operations. -/
abbrev rops0g : List (HloOp τ sig (Elt F)) :=
  ( StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v0 main_v1 rfl shapeCasts_S1x1000000_S1000000
  :: StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v2 main_v3 rfl shapeCasts_S1x1000000_S1000000
  :: StableHlo.nullary main_cst (constant S_ .f32 0x3F800000#32)
  :: StableHlo.unary main_cst main_v4 (broadcastInDim S1000000 ![] bcast_S_S1000000 : (⟨S_, .f32⟩ : BufTy).Contents (Elt F) → (⟨S1000000, .f32⟩ : BufTy).Contents (Elt F))
  :: StableHlo.nullary main_cst_0 (constant S_ .f32 0x00000000#32)
  :: StableHlo.unary main_cst_0 main_v5 (broadcastInDim S200000 ![] bcast_S_S200000 : (⟨S_, .f32⟩ : BufTy).Contents (Elt F) → (⟨S200000, .f32⟩ : BufTy).Contents (Elt F))
  :: StableHlo.unary main_v3 main_v6 (broadcastInDim S1000000x1 ![0] bcast_S1000000_S1000000x1_0 : (⟨S1000000, .i32⟩ : BufTy).Contents (Elt F) → (⟨S1000000x1, .i32⟩ : BufTy).Contents (Elt F))
  :: StableHlo.ternary main_v5 main_v6 main_v4 main_v7 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: StableHlo.nullary main_cst_1 (constant S_ .f32 0x3F800000#32)
  :: StableHlo.unary main_cst_1 main_v8 (broadcastInDim S200000 ![] bcast_S_S200000 : (⟨S_, .f32⟩ : BufTy).Contents (Elt F) → (⟨S200000, .f32⟩ : BufTy).Contents (Elt F))
  :: StableHlo.binary main_v7 main_v8 main_v9 (addf : (⟨S200000, .f32⟩ : BufTy).Contents (Elt F) → (⟨S200000, .f32⟩ : BufTy).Contents (Elt F) → (⟨S200000, .f32⟩ : BufTy).Contents (Elt F))
  :: StableHlo.unary main_v9 main_v10 (Host.rsqrt : (⟨S200000, .f32⟩ : BufTy).Contents (Elt F) → (⟨S200000, .f32⟩ : BufTy).Contents (Elt F))
  :: [] )
/-- Each operation of the piece touches TensorCore references only. -/
theorem rops0g_sub : (rops0g : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub ..⟩
/-- Each operation of the piece determines its results. -/
theorem rops0g_fresh : ∀ op ∈ (rops0g : List (HloOp τ sig (Elt F))), op.fresh = ∅ :=
  List.forall_iff_forall_mem.mp ⟨rfl, rfl, rfl, rfl, rfl, rfl, rfl, rfl, rfl, rfl, rfl, rfl, rfl, rfl⟩

/-- `%11`, the first weight transposed, and `%12`, the first `dot_general` `x · W₁ᵀ` (buffer `main_v12`). 2 operations. -/
abbrev rops0l : List (HloOp τ sig (Elt F)) :=
  ( StableHlo.unary main_arg2 main_v11 ((transpose S40x128 [1, 0] · transposes_S128x40_S40x128_1_0) : (⟨S128x40, .f32⟩ : BufTy).Contents (Elt F) → (⟨S40x128, .f32⟩ : BufTy).Contents (Elt F))
  :: StableHlo.binary main_arg0 main_v11 main_v12 ((fun l r => Host.dotGeneral dot_S200000x40_S40x128_S200000x128_1_0_0_1_n_n none l r) : (⟨S200000x40, .f32⟩ : BufTy).Contents (Elt F) → (⟨S40x128, .f32⟩ : BufTy).Contents (Elt F) → (⟨S200000x128, .f32⟩ : BufTy).Contents (Elt F))
  :: [] )
/-- Each operation of the piece touches TensorCore references only. -/
theorem rops0l_sub : (rops0l : List (HloOp τ sig (Elt F))).Forall fun op => op.bufs ⊆ tcRefs τ sig :=
  ⟨unary_bufs_sub .., binary_bufs_sub ..⟩
/-- Each operation of the piece determines its results. -/
theorem rops0l_fresh : ∀ op ∈ (rops0l : List (HloOp τ sig (Elt F))), op.fresh = ∅ :=
  List.forall_iff_forall_mem.mp ⟨rfl, rfl⟩

/-- From `%c`, the statement after `%12`, through the call `%49 = leaky_relu(%48, %cst_8)`: the first layer's
    normalized gather–scatter of `%12` over the edges, its self term and bias, then the callee's seven operations (the
    zero and its broadcast, the comparison, the slope converted and broadcast, the product, and the inner `_where`'s
    select into `main_v49`) over the buffers of the record `main_call0`. 51 operations. -/
abbrev rops1g : List (HloOp τ sig (Elt F)) :=
  ( StableHlo.nullary main_c (constantI S_ 32 0#32)
  :: StableHlo.unary main_c main_v13 (broadcastInDim S1000000 ![] bcast_S_S1000000 : (⟨S_, .i32⟩ : BufTy).Contents (Elt F) → (⟨S1000000, .i32⟩ : BufTy).Contents (Elt F))
  :: StableHlo.binary main_v1 main_v13 main_v14 (cmpi .slt : (⟨S1000000, .i32⟩ : BufTy).Contents (Elt F) → (⟨S1000000, .i32⟩ : BufTy).Contents (Elt F) → (⟨S1000000, .i1⟩ : BufTy).Contents (Elt F))
  :: StableHlo.nullary main_c_2 (constantI S_ 32 200000#32)
  :: StableHlo.unary main_c_2 main_v15 (broadcastInDim S1000000 ![] bcast_S_S1000000 : (⟨S_, .i32⟩ : BufTy).Contents (Elt F) → (⟨S1000000, .i32⟩ : BufTy).Contents (Elt F))
  :: StableHlo.binary main_v1 main_v15 main_v16 (addi : (⟨S1000000, .i32⟩ : BufTy).Contents (Elt F) → (⟨S1000000, .i32⟩ : BufTy).Contents (Elt F) → (⟨S1000000, .i32⟩ : BufTy).Contents (Elt F))
  :: StableHlo.ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v17 main_v18 (broadcastInDim S1000000x1 ![0] bcast_S1000000_S1000000x1_0 : (⟨S1000000, .i32⟩ : BufTy).Contents (Elt F) → (⟨S1000000x1, .i32⟩ : BufTy).Contents (Elt F))
  :: StableHlo.binary main_v10 main_v18 main_v19 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_3 (constantI S_ 32 0#32)
  :: StableHlo.unary main_c_3 main_v20 (broadcastInDim S1000000 ![] bcast_S_S1000000 : (⟨S_, .i32⟩ : BufTy).Contents (Elt F) → (⟨S1000000, .i32⟩ : BufTy).Contents (Elt F))
  :: StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F))
  :: StableHlo.nullary main_c_4 (constantI S_ 32 200000#32)
  :: StableHlo.unary main_c_4 main_v22 (broadcastInDim S1000000 ![] bcast_S_S1000000 : (⟨S_, .i32⟩ : BufTy).Contents (Elt F) → (⟨S1000000, .i32⟩ : BufTy).Contents (Elt F))
  :: StableHlo.binary main_v3 main_v22 main_v23 (addi : (⟨S1000000, .i32⟩ : BufTy).Contents (Elt F) → (⟨S1000000, .i32⟩ : BufTy).Contents (Elt F) → (⟨S1000000, .i32⟩ : BufTy).Contents (Elt F))
  :: StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v24 main_v25 (broadcastInDim S1000000x1 ![0] bcast_S1000000_S1000000x1_0 : (⟨S1000000, .i32⟩ : BufTy).Contents (Elt F) → (⟨S1000000x1, .i32⟩ : BufTy).Contents (Elt F))
  :: StableHlo.binary main_v10 main_v25 main_v26 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v19 main_v26 main_v27 (mulf : (⟨S1000000, .f32⟩ : BufTy).Contents (Elt F) → (⟨S1000000, .f32⟩ : BufTy).Contents (Elt F) → (⟨S1000000, .f32⟩ : BufTy).Contents (Elt F))
  :: StableHlo.nullary main_c_5 (constantI S_ 32 0#32)
  :: StableHlo.unary main_c_5 main_v28 (broadcastInDim S1000000 ![] bcast_S_S1000000 : (⟨S_, .i32⟩ : BufTy).Contents (Elt F) → (⟨S1000000, .i32⟩ : BufTy).Contents (Elt F))
  :: StableHlo.binary main_v1 main_v28 main_v29 (cmpi .slt : (⟨S1000000, .i32⟩ : BufTy).Contents (Elt F) → (⟨S1000000, .i32⟩ : BufTy).Contents (Elt F) → (⟨S1000000, .i1⟩ : BufTy).Contents (Elt F))
  :: StableHlo.nullary main_c_6 (constantI S_ 32 200000#32)
  :: StableHlo.unary main_c_6 main_v30 (broadcastInDim S1000000 ![] bcast_S_S1000000 : (⟨S_, .i32⟩ : BufTy).Contents (Elt F) → (⟨S1000000, .i32⟩ : BufTy).Contents (Elt F))
  :: StableHlo.binary main_v1 main_v30 main_v31 (addi : (⟨S1000000, .i32⟩ : BufTy).Contents (Elt F) → (⟨S1000000, .i32⟩ : BufTy).Contents (Elt F) → (⟨S1000000, .i32⟩ : BufTy).Contents (Elt F))
  :: StableHlo.ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v32 main_v33 (broadcastInDim S1000000x1 ![0] bcast_S1000000_S1000000x1_0 : (⟨S1000000, .i32⟩ : BufTy).Contents (Elt F) → (⟨S1000000x1, .i32⟩ : BufTy).Contents (Elt F))
  :: StableHlo.binary main_v12 main_v33 main_v34 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v27 main_v35 (broadcastInDim S1000000x1 ![0] bcast_S1000000_S1000000x1_0 : (⟨S1000000, .f32⟩ : BufTy).Contents (Elt F) → (⟨S1000000x1, .f32⟩ : BufTy).Contents (Elt F))
  :: StableHlo.unary main_v35 main_v36 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v34 main_v36 main_v37 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_7 (constant S_ .f32 0x00000000#32)
  :: StableHlo.unary main_cst_7 main_v38 (broadcastInDim S200000x128 ![] bcast_S_S200000x128 : (⟨S_, .f32⟩ : BufTy).Contents (Elt F) → (⟨S200000x128, .f32⟩ : BufTy).Contents (Elt F))
  :: StableHlo.unary main_v3 main_v39 (broadcastInDim S1000000x1 ![0] bcast_S1000000_S1000000x1_0 : (⟨S1000000, .i32⟩ : BufTy).Contents (Elt F) → (⟨S1000000x1, .i32⟩ : BufTy).Contents (Elt F))
  :: StableHlo.ternary main_v38 main_v39 main_v37 main_v40 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v41 (mulf : (⟨S200000, .f32⟩ : BufTy).Contents (Elt F) → (⟨S200000, .f32⟩ : BufTy).Contents (Elt F) → (⟨S200000, .f32⟩ : BufTy).Contents (Elt F))
  :: StableHlo.unary main_v41 main_v42 (broadcastInDim S200000x1 ![0] bcast_S200000_S200000x1_0 : (⟨S200000, .f32⟩ : BufTy).Contents (Elt F) → (⟨S200000x1, .f32⟩ : BufTy).Contents (Elt F))
  :: StableHlo.unary main_v42 main_v43 (broadcastInDim S200000x128 ![0, 1] bcast_S200000x1_S200000x128_0_1 : (⟨S200000x1, .f32⟩ : BufTy).Contents (Elt F) → (⟨S200000x128, .f32⟩ : BufTy).Contents (Elt F))
  :: StableHlo.binary main_v12 main_v43 main_v44 (mulf : (⟨S200000x128, .f32⟩ : BufTy).Contents (Elt F) → (⟨S200000x128, .f32⟩ : BufTy).Contents (Elt F) → (⟨S200000x128, .f32⟩ : BufTy).Contents (Elt F))
  :: StableHlo.binary main_v40 main_v44 main_v45 (addf : (⟨S200000x128, .f32⟩ : BufTy).Contents (Elt F) → (⟨S200000x128, .f32⟩ : BufTy).Contents (Elt F) → (⟨S200000x128, .f32⟩ : BufTy).Contents (Elt F))
  :: StableHlo.unary main_arg3 main_v46 (broadcastInDim S1x128 ![1] bcast_S128_S1x128_1 : (⟨S128, .f32⟩ : BufTy).Contents (Elt F) → (⟨S1x128, .f32⟩ : BufTy).Contents (Elt F))
  :: StableHlo.unary main_v46 main_v47 (broadcastInDim S200000x128 ![0, 1] bcast_S1x128_S200000x128_0_1 : (⟨S1x128, .f32⟩ : BufTy).Contents (Elt F) → (⟨S200000x128, .f32⟩ : BufTy).Contents (Elt F))
  :: StableHlo.binary main_v45 main_v47 main_v48 (addf : (⟨S200000x128, .f32⟩ : BufTy).Contents (Elt F) → (⟨S200000x128, .f32⟩ : BufTy).Contents (Elt F) → (⟨S200000x128, .f32⟩ : BufTy).Contents (Elt F))
  :: StableHlo.nullary main_cst_8 (constant S_ .f32 0x3DCCCCCD#32)
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S200000x128, .f32⟩) (broadcastInDim S200000x128 ![] bcast_S_S200000x128)
  :: StableHlo.TRef.binary (.of main_v48 : StableHlo.TRef sig ⟨S200000x128, .f32⟩) (.of main_call0_v0 : StableHlo.TRef sig ⟨S200000x128, .f32⟩) (.of main_call0_v1 : StableHlo.TRef sig ⟨S200000x128, .i1⟩) (cmpf .oge)
  :: StableHlo.TRef.unary (.of main_cst_8 : StableHlo.TRef sig ⟨S_, .f32⟩) (.of main_call0_v2 : StableHlo.TRef sig ⟨S_, .f32⟩) id
  :: StableHlo.TRef.unary (.of main_call0_v2 : StableHlo.TRef sig ⟨S_, .f32⟩) (.of main_call0_v3 : StableHlo.TRef sig ⟨S200000x128, .f32⟩) (broadcastInDim S200000x128 ![] bcast_S_S200000x128)
  :: StableHlo.TRef.binary (.of main_call0_v3 : StableHlo.TRef sig ⟨S200000x128, .f32⟩) (.of main_v48 : StableHlo.TRef sig ⟨S200000x128, .f32⟩) (.of main_call0_v4 : StableHlo.TRef sig ⟨S200000x128, .f32⟩) mulf
  :: StableHlo.TRef.ternary (.of main_call0_v1 : StableHlo.TRef sig ⟨S200000x128, .i1⟩) (.of main_v48 : StableHlo.TRef sig ⟨S200000x128, .f32⟩) (.of main_call0_v4 : StableHlo.TRef sig ⟨S200000x128, .f32⟩) (.of main_v49 : StableHlo.TRef sig ⟨S200000x128, .f32⟩) select
  :: [] )
/-- Each operation of the piece touches TensorCore references only. -/
theorem rops1g_sub : (rops1g : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩
/-- Each operation of the piece determines its results. -/
theorem rops1g_fresh : ∀ op ∈ (rops1g : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- `%50`, the second weight transposed, and `%51`, the second `dot_general` (buffer `main_v51`). 2 operations. -/
abbrev rops1l : List (HloOp τ sig (Elt F)) :=
  ( StableHlo.unary main_arg4 main_v50 ((transpose S128x256 [1, 0] · transposes_S256x128_S128x256_1_0) : (⟨S256x128, .f32⟩ : BufTy).Contents (Elt F) → (⟨S128x256, .f32⟩ : BufTy).Contents (Elt F))
  :: StableHlo.binary main_v49 main_v50 main_v51 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F))
  :: [] )
/-- Each operation of the piece touches TensorCore references only. -/
theorem rops1l_sub : (rops1l : List (HloOp τ sig (Elt F))).Forall fun op => op.bufs ⊆ tcRefs τ sig :=
  ⟨unary_bufs_sub .., binary_bufs_sub ..⟩
/-- Each operation of the piece determines its results. -/
theorem rops1l_fresh : ∀ op ∈ (rops1l : List (HloOp τ sig (Elt F))), op.fresh = ∅ :=
  List.forall_iff_forall_mem.mp ⟨rfl, rfl⟩

/-- From the statement after `%51` through the call `%88 = leaky_relu_0(%87, %cst_16)`: the second layer's
    gather–scatter, self term and bias, and the call inlined over `main_call1` (result `main_v88`). 51 operations. -/
abbrev rops2g : List (HloOp τ sig (Elt F)) :=
  ( StableHlo.nullary main_c_9 (constantI S_ 32 0#32)
  :: StableHlo.unary main_c_9 main_v52 (broadcastInDim S1000000 ![] bcast_S_S1000000 : (⟨S_, .i32⟩ : BufTy).Contents (Elt F) → (⟨S1000000, .i32⟩ : BufTy).Contents (Elt F))
  :: StableHlo.binary main_v1 main_v52 main_v53 (cmpi .slt : (⟨S1000000, .i32⟩ : BufTy).Contents (Elt F) → (⟨S1000000, .i32⟩ : BufTy).Contents (Elt F) → (⟨S1000000, .i1⟩ : BufTy).Contents (Elt F))
  :: StableHlo.nullary main_c_10 (constantI S_ 32 200000#32)
  :: StableHlo.unary main_c_10 main_v54 (broadcastInDim S1000000 ![] bcast_S_S1000000 : (⟨S_, .i32⟩ : BufTy).Contents (Elt F) → (⟨S1000000, .i32⟩ : BufTy).Contents (Elt F))
  :: StableHlo.binary main_v1 main_v54 main_v55 (addi : (⟨S1000000, .i32⟩ : BufTy).Contents (Elt F) → (⟨S1000000, .i32⟩ : BufTy).Contents (Elt F) → (⟨S1000000, .i32⟩ : BufTy).Contents (Elt F))
  :: StableHlo.ternary main_v53 main_v55 main_v1 main_v56 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v56 main_v57 (broadcastInDim S1000000x1 ![0] bcast_S1000000_S1000000x1_0 : (⟨S1000000, .i32⟩ : BufTy).Contents (Elt F) → (⟨S1000000x1, .i32⟩ : BufTy).Contents (Elt F))
  :: StableHlo.binary main_v10 main_v57 main_v58 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_11 (constantI S_ 32 0#32)
  :: StableHlo.unary main_c_11 main_v59 (broadcastInDim S1000000 ![] bcast_S_S1000000 : (⟨S_, .i32⟩ : BufTy).Contents (Elt F) → (⟨S1000000, .i32⟩ : BufTy).Contents (Elt F))
  :: StableHlo.binary main_v3 main_v59 main_v60 (cmpi .slt : (⟨S1000000, .i32⟩ : BufTy).Contents (Elt F) → (⟨S1000000, .i32⟩ : BufTy).Contents (Elt F) → (⟨S1000000, .i1⟩ : BufTy).Contents (Elt F))
  :: StableHlo.nullary main_c_12 (constantI S_ 32 200000#32)
  :: StableHlo.unary main_c_12 main_v61 (broadcastInDim S1000000 ![] bcast_S_S1000000 : (⟨S_, .i32⟩ : BufTy).Contents (Elt F) → (⟨S1000000, .i32⟩ : BufTy).Contents (Elt F))
  :: StableHlo.binary main_v3 main_v61 main_v62 (addi : (⟨S1000000, .i32⟩ : BufTy).Contents (Elt F) → (⟨S1000000, .i32⟩ : BufTy).Contents (Elt F) → (⟨S1000000, .i32⟩ : BufTy).Contents (Elt F))
  :: StableHlo.ternary main_v60 main_v62 main_v3 main_v63 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v63 main_v64 (broadcastInDim S1000000x1 ![0] bcast_S1000000_S1000000x1_0 : (⟨S1000000, .i32⟩ : BufTy).Contents (Elt F) → (⟨S1000000x1, .i32⟩ : BufTy).Contents (Elt F))
  :: StableHlo.binary main_v10 main_v64 main_v65 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v58 main_v65 main_v66 (mulf : (⟨S1000000, .f32⟩ : BufTy).Contents (Elt F) → (⟨S1000000, .f32⟩ : BufTy).Contents (Elt F) → (⟨S1000000, .f32⟩ : BufTy).Contents (Elt F))
  :: StableHlo.nullary main_c_13 (constantI S_ 32 0#32)
  :: StableHlo.unary main_c_13 main_v67 (broadcastInDim S1000000 ![] bcast_S_S1000000 : (⟨S_, .i32⟩ : BufTy).Contents (Elt F) → (⟨S1000000, .i32⟩ : BufTy).Contents (Elt F))
  :: StableHlo.binary main_v1 main_v67 main_v68 (cmpi .slt : (⟨S1000000, .i32⟩ : BufTy).Contents (Elt F) → (⟨S1000000, .i32⟩ : BufTy).Contents (Elt F) → (⟨S1000000, .i1⟩ : BufTy).Contents (Elt F))
  :: StableHlo.nullary main_c_14 (constantI S_ 32 200000#32)
  :: StableHlo.unary main_c_14 main_v69 (broadcastInDim S1000000 ![] bcast_S_S1000000 : (⟨S_, .i32⟩ : BufTy).Contents (Elt F) → (⟨S1000000, .i32⟩ : BufTy).Contents (Elt F))
  :: StableHlo.binary main_v1 main_v69 main_v70 (addi : (⟨S1000000, .i32⟩ : BufTy).Contents (Elt F) → (⟨S1000000, .i32⟩ : BufTy).Contents (Elt F) → (⟨S1000000, .i32⟩ : BufTy).Contents (Elt F))
  :: StableHlo.ternary main_v68 main_v70 main_v1 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v71 main_v72 (broadcastInDim S1000000x1 ![0] bcast_S1000000_S1000000x1_0 : (⟨S1000000, .i32⟩ : BufTy).Contents (Elt F) → (⟨S1000000x1, .i32⟩ : BufTy).Contents (Elt F))
  :: StableHlo.binary main_v51 main_v72 main_v73 ((fun x i => Host.gather gather_S200000x256_S1000000x1_S1000000x256_1_0_n_n_0_1_1256 x i) : (⟨S200000x256, .f32⟩ : BufTy).Contents (Elt F) → (⟨S1000000x1, .i32⟩ : BufTy).Contents (Elt F) → (⟨S1000000x256, .f32⟩ : BufTy).Contents (Elt F))
  :: StableHlo.unary main_v66 main_v74 (broadcastInDim S1000000x1 ![0] bcast_S1000000_S1000000x1_0 : (⟨S1000000, .f32⟩ : BufTy).Contents (Elt F) → (⟨S1000000x1, .f32⟩ : BufTy).Contents (Elt F))
  :: StableHlo.unary main_v74 main_v75 (broadcastInDim S1000000x256 ![0, 1] bcast_S1000000x1_S1000000x256_0_1 : (⟨S1000000x1, .f32⟩ : BufTy).Contents (Elt F) → (⟨S1000000x256, .f32⟩ : BufTy).Contents (Elt F))
  :: StableHlo.binary main_v73 main_v75 main_v76 (mulf : (⟨S1000000x256, .f32⟩ : BufTy).Contents (Elt F) → (⟨S1000000x256, .f32⟩ : BufTy).Contents (Elt F) → (⟨S1000000x256, .f32⟩ : BufTy).Contents (Elt F))
  :: StableHlo.nullary main_cst_15 (constant S_ .f32 0x00000000#32)
  :: StableHlo.unary main_cst_15 main_v77 (broadcastInDim S200000x256 ![] bcast_S_S200000x256 : (⟨S_, .f32⟩ : BufTy).Contents (Elt F) → (⟨S200000x256, .f32⟩ : BufTy).Contents (Elt F))
  :: StableHlo.unary main_v3 main_v78 (broadcastInDim S1000000x1 ![0] bcast_S1000000_S1000000x1_0 : (⟨S1000000, .i32⟩ : BufTy).Contents (Elt F) → (⟨S1000000x1, .i32⟩ : BufTy).Contents (Elt F))
  :: StableHlo.ternary main_v77 main_v78 main_v76 main_v79 ((fun x i u => Host.scatterAdd scatter_S200000x256_S1000000x1_S1000000x256_1_0_0_1 x i u) : (⟨S200000x256, .f32⟩ : BufTy).Contents (Elt F) → (⟨S1000000x1, .i32⟩ : BufTy).Contents (Elt F) → (⟨S1000000x256, .f32⟩ : BufTy).Contents (Elt F) → (⟨S200000x256, .f32⟩ : BufTy).Contents (Elt F))
  :: StableHlo.binary main_v10 main_v10 main_v80 (mulf : (⟨S200000, .f32⟩ : BufTy).Contents (Elt F) → (⟨S200000, .f32⟩ : BufTy).Contents (Elt F) → (⟨S200000, .f32⟩ : BufTy).Contents (Elt F))
  :: StableHlo.unary main_v80 main_v81 (broadcastInDim S200000x1 ![0] bcast_S200000_S200000x1_0 : (⟨S200000, .f32⟩ : BufTy).Contents (Elt F) → (⟨S200000x1, .f32⟩ : BufTy).Contents (Elt F))
  :: StableHlo.unary main_v81 main_v82 (broadcastInDim S200000x256 ![0, 1] bcast_S200000x1_S200000x256_0_1 : (⟨S200000x1, .f32⟩ : BufTy).Contents (Elt F) → (⟨S200000x256, .f32⟩ : BufTy).Contents (Elt F))
  :: StableHlo.binary main_v51 main_v82 main_v83 (mulf : (⟨S200000x256, .f32⟩ : BufTy).Contents (Elt F) → (⟨S200000x256, .f32⟩ : BufTy).Contents (Elt F) → (⟨S200000x256, .f32⟩ : BufTy).Contents (Elt F))
  :: StableHlo.binary main_v79 main_v83 main_v84 (addf : (⟨S200000x256, .f32⟩ : BufTy).Contents (Elt F) → (⟨S200000x256, .f32⟩ : BufTy).Contents (Elt F) → (⟨S200000x256, .f32⟩ : BufTy).Contents (Elt F))
  :: StableHlo.unary main_arg5 main_v85 (broadcastInDim S1x256 ![1] bcast_S256_S1x256_1 : (⟨S256, .f32⟩ : BufTy).Contents (Elt F) → (⟨S1x256, .f32⟩ : BufTy).Contents (Elt F))
  :: StableHlo.unary main_v85 main_v86 (broadcastInDim S200000x256 ![0, 1] bcast_S1x256_S200000x256_0_1 : (⟨S1x256, .f32⟩ : BufTy).Contents (Elt F) → (⟨S200000x256, .f32⟩ : BufTy).Contents (Elt F))
  :: StableHlo.binary main_v84 main_v86 main_v87 (addf : (⟨S200000x256, .f32⟩ : BufTy).Contents (Elt F) → (⟨S200000x256, .f32⟩ : BufTy).Contents (Elt F) → (⟨S200000x256, .f32⟩ : BufTy).Contents (Elt F))
  :: StableHlo.nullary main_cst_16 (constant S_ .f32 0x3DCCCCCD#32)
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S200000x256, .f32⟩) (broadcastInDim S200000x256 ![] bcast_S_S200000x256)
  :: StableHlo.TRef.binary (.of main_v87 : StableHlo.TRef sig ⟨S200000x256, .f32⟩) (.of main_call1_v0 : StableHlo.TRef sig ⟨S200000x256, .f32⟩) (.of main_call1_v1 : StableHlo.TRef sig ⟨S200000x256, .i1⟩) (cmpf .oge)
  :: StableHlo.TRef.unary (.of main_cst_16 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S200000x256, .f32⟩) (broadcastInDim S200000x256 ![] bcast_S_S200000x256)
  :: StableHlo.TRef.binary (.of main_call1_v3 : StableHlo.TRef sig ⟨S200000x256, .f32⟩) (.of main_v87 : StableHlo.TRef sig ⟨S200000x256, .f32⟩) (.of main_call1_v4 : StableHlo.TRef sig ⟨S200000x256, .f32⟩) mulf
  :: StableHlo.TRef.ternary (.of main_call1_v1 : StableHlo.TRef sig ⟨S200000x256, .i1⟩) (.of main_v87 : StableHlo.TRef sig ⟨S200000x256, .f32⟩) (.of main_call1_v4 : StableHlo.TRef sig ⟨S200000x256, .f32⟩) (.of main_v88 : StableHlo.TRef sig ⟨S200000x256, .f32⟩) select
  :: [] )
/-- Each operation of the piece touches TensorCore references only. -/
theorem rops2g_sub : (rops2g : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩
/-- Each operation of the piece determines its results. -/
theorem rops2g_fresh : ∀ op ∈ (rops2g : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- `%89`, the third weight transposed, and `%90`, the third `dot_general` (buffer `main_v90`). 2 operations. -/
abbrev rops2l : List (HloOp τ sig (Elt F)) :=
  ( StableHlo.unary main_arg6 main_v89 ((transpose S256x128 [1, 0] · transposes_S128x256_S256x128_1_0) : (⟨S128x256, .f32⟩ : BufTy).Contents (Elt F) → (⟨S256x128, .f32⟩ : BufTy).Contents (Elt F))
  :: StableHlo.binary main_v88 main_v89 main_v90 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F))
  :: [] )
/-- Each operation of the piece touches TensorCore references only. -/
theorem rops2l_sub : (rops2l : List (HloOp τ sig (Elt F))).Forall fun op => op.bufs ⊆ tcRefs τ sig :=
  ⟨unary_bufs_sub .., binary_bufs_sub ..⟩
/-- Each operation of the piece determines its results. -/
theorem rops2l_fresh : ∀ op ∈ (rops2l : List (HloOp τ sig (Elt F))), op.fresh = ∅ :=
  List.forall_iff_forall_mem.mp ⟨rfl, rfl⟩

/-- From the statement after `%90` through the call `%127 = leaky_relu(%126, %cst_24)`: the third layer's
    gather–scatter, self term and bias, and the call inlined over `main_call2` (result `main_v127`). 51 operations. -/
abbrev rops3g : List (HloOp τ sig (Elt F)) :=
  ( StableHlo.nullary main_c_17 (constantI S_ 32 0#32)
  :: StableHlo.unary main_c_17 main_v91 (broadcastInDim S1000000 ![] bcast_S_S1000000 : (⟨S_, .i32⟩ : BufTy).Contents (Elt F) → (⟨S1000000, .i32⟩ : BufTy).Contents (Elt F))
  :: StableHlo.binary main_v1 main_v91 main_v92 (cmpi .slt : (⟨S1000000, .i32⟩ : BufTy).Contents (Elt F) → (⟨S1000000, .i32⟩ : BufTy).Contents (Elt F) → (⟨S1000000, .i1⟩ : BufTy).Contents (Elt F))
  :: StableHlo.nullary main_c_18 (constantI S_ 32 200000#32)
  :: StableHlo.unary main_c_18 main_v93 (broadcastInDim S1000000 ![] bcast_S_S1000000 : (⟨S_, .i32⟩ : BufTy).Contents (Elt F) → (⟨S1000000, .i32⟩ : BufTy).Contents (Elt F))
  :: StableHlo.binary main_v1 main_v93 main_v94 (addi : (⟨S1000000, .i32⟩ : BufTy).Contents (Elt F) → (⟨S1000000, .i32⟩ : BufTy).Contents (Elt F) → (⟨S1000000, .i32⟩ : BufTy).Contents (Elt F))
  :: StableHlo.ternary main_v92 main_v94 main_v1 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v95 main_v96 (broadcastInDim S1000000x1 ![0] bcast_S1000000_S1000000x1_0 : (⟨S1000000, .i32⟩ : BufTy).Contents (Elt F) → (⟨S1000000x1, .i32⟩ : BufTy).Contents (Elt F))
  :: StableHlo.binary main_v10 main_v96 main_v97 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_19 (constantI S_ 32 0#32)
  :: StableHlo.unary main_c_19 main_v98 (broadcastInDim S1000000 ![] bcast_S_S1000000 : (⟨S_, .i32⟩ : BufTy).Contents (Elt F) → (⟨S1000000, .i32⟩ : BufTy).Contents (Elt F))
  :: StableHlo.binary main_v3 main_v98 main_v99 (cmpi .slt : (⟨S1000000, .i32⟩ : BufTy).Contents (Elt F) → (⟨S1000000, .i32⟩ : BufTy).Contents (Elt F) → (⟨S1000000, .i1⟩ : BufTy).Contents (Elt F))
  :: StableHlo.nullary main_c_20 (constantI S_ 32 200000#32)
  :: StableHlo.unary main_c_20 main_v100 (broadcastInDim S1000000 ![] bcast_S_S1000000 : (⟨S_, .i32⟩ : BufTy).Contents (Elt F) → (⟨S1000000, .i32⟩ : BufTy).Contents (Elt F))
  :: StableHlo.binary main_v3 main_v100 main_v101 (addi : (⟨S1000000, .i32⟩ : BufTy).Contents (Elt F) → (⟨S1000000, .i32⟩ : BufTy).Contents (Elt F) → (⟨S1000000, .i32⟩ : BufTy).Contents (Elt F))
  :: StableHlo.ternary main_v99 main_v101 main_v3 main_v102 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v102 main_v103 (broadcastInDim S1000000x1 ![0] bcast_S1000000_S1000000x1_0 : (⟨S1000000, .i32⟩ : BufTy).Contents (Elt F) → (⟨S1000000x1, .i32⟩ : BufTy).Contents (Elt F))
  :: StableHlo.binary main_v10 main_v103 main_v104 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v97 main_v104 main_v105 (mulf : (⟨S1000000, .f32⟩ : BufTy).Contents (Elt F) → (⟨S1000000, .f32⟩ : BufTy).Contents (Elt F) → (⟨S1000000, .f32⟩ : BufTy).Contents (Elt F))
  :: StableHlo.nullary main_c_21 (constantI S_ 32 0#32)
  :: StableHlo.unary main_c_21 main_v106 (broadcastInDim S1000000 ![] bcast_S_S1000000 : (⟨S_, .i32⟩ : BufTy).Contents (Elt F) → (⟨S1000000, .i32⟩ : BufTy).Contents (Elt F))
  :: StableHlo.binary main_v1 main_v106 main_v107 (cmpi .slt : (⟨S1000000, .i32⟩ : BufTy).Contents (Elt F) → (⟨S1000000, .i32⟩ : BufTy).Contents (Elt F) → (⟨S1000000, .i1⟩ : BufTy).Contents (Elt F))
  :: StableHlo.nullary main_c_22 (constantI S_ 32 200000#32)
  :: StableHlo.unary main_c_22 main_v108 (broadcastInDim S1000000 ![] bcast_S_S1000000 : (⟨S_, .i32⟩ : BufTy).Contents (Elt F) → (⟨S1000000, .i32⟩ : BufTy).Contents (Elt F))
  :: StableHlo.binary main_v1 main_v108 main_v109 (addi : (⟨S1000000, .i32⟩ : BufTy).Contents (Elt F) → (⟨S1000000, .i32⟩ : BufTy).Contents (Elt F) → (⟨S1000000, .i32⟩ : BufTy).Contents (Elt F))
  :: StableHlo.ternary main_v107 main_v109 main_v1 main_v110 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v110 main_v111 (broadcastInDim S1000000x1 ![0] bcast_S1000000_S1000000x1_0 : (⟨S1000000, .i32⟩ : BufTy).Contents (Elt F) → (⟨S1000000x1, .i32⟩ : BufTy).Contents (Elt F))
  :: StableHlo.binary main_v90 main_v111 main_v112 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v105 main_v113 (broadcastInDim S1000000x1 ![0] bcast_S1000000_S1000000x1_0 : (⟨S1000000, .f32⟩ : BufTy).Contents (Elt F) → (⟨S1000000x1, .f32⟩ : BufTy).Contents (Elt F))
  :: StableHlo.unary main_v113 main_v114 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v112 main_v114 main_v115 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_23 (constant S_ .f32 0x00000000#32)
  :: StableHlo.unary main_cst_23 main_v116 (broadcastInDim S200000x128 ![] bcast_S_S200000x128 : (⟨S_, .f32⟩ : BufTy).Contents (Elt F) → (⟨S200000x128, .f32⟩ : BufTy).Contents (Elt F))
  :: StableHlo.unary main_v3 main_v117 (broadcastInDim S1000000x1 ![0] bcast_S1000000_S1000000x1_0 : (⟨S1000000, .i32⟩ : BufTy).Contents (Elt F) → (⟨S1000000x1, .i32⟩ : BufTy).Contents (Elt F))
  :: StableHlo.ternary main_v116 main_v117 main_v115 main_v118 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v119 (mulf : (⟨S200000, .f32⟩ : BufTy).Contents (Elt F) → (⟨S200000, .f32⟩ : BufTy).Contents (Elt F) → (⟨S200000, .f32⟩ : BufTy).Contents (Elt F))
  :: StableHlo.unary main_v119 main_v120 (broadcastInDim S200000x1 ![0] bcast_S200000_S200000x1_0 : (⟨S200000, .f32⟩ : BufTy).Contents (Elt F) → (⟨S200000x1, .f32⟩ : BufTy).Contents (Elt F))
  :: StableHlo.unary main_v120 main_v121 (broadcastInDim S200000x128 ![0, 1] bcast_S200000x1_S200000x128_0_1 : (⟨S200000x1, .f32⟩ : BufTy).Contents (Elt F) → (⟨S200000x128, .f32⟩ : BufTy).Contents (Elt F))
  :: StableHlo.binary main_v90 main_v121 main_v122 (mulf : (⟨S200000x128, .f32⟩ : BufTy).Contents (Elt F) → (⟨S200000x128, .f32⟩ : BufTy).Contents (Elt F) → (⟨S200000x128, .f32⟩ : BufTy).Contents (Elt F))
  :: StableHlo.binary main_v118 main_v122 main_v123 (addf : (⟨S200000x128, .f32⟩ : BufTy).Contents (Elt F) → (⟨S200000x128, .f32⟩ : BufTy).Contents (Elt F) → (⟨S200000x128, .f32⟩ : BufTy).Contents (Elt F))
  :: StableHlo.unary main_arg7 main_v124 (broadcastInDim S1x128 ![1] bcast_S128_S1x128_1 : (⟨S128, .f32⟩ : BufTy).Contents (Elt F) → (⟨S1x128, .f32⟩ : BufTy).Contents (Elt F))
  :: StableHlo.unary main_v124 main_v125 (broadcastInDim S200000x128 ![0, 1] bcast_S1x128_S200000x128_0_1 : (⟨S1x128, .f32⟩ : BufTy).Contents (Elt F) → (⟨S200000x128, .f32⟩ : BufTy).Contents (Elt F))
  :: StableHlo.binary main_v123 main_v125 main_v126 (addf : (⟨S200000x128, .f32⟩ : BufTy).Contents (Elt F) → (⟨S200000x128, .f32⟩ : BufTy).Contents (Elt F) → (⟨S200000x128, .f32⟩ : BufTy).Contents (Elt F))
  :: StableHlo.nullary main_cst_24 (constant S_ .f32 0x3DCCCCCD#32)
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S200000x128, .f32⟩) (broadcastInDim S200000x128 ![] bcast_S_S200000x128)
  :: StableHlo.TRef.binary (.of main_v126 : StableHlo.TRef sig ⟨S200000x128, .f32⟩) (.of main_call2_v0 : StableHlo.TRef sig ⟨S200000x128, .f32⟩) (.of main_call2_v1 : StableHlo.TRef sig ⟨S200000x128, .i1⟩) (cmpf .oge)
  :: StableHlo.TRef.unary (.of main_cst_24 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S200000x128, .f32⟩) (broadcastInDim S200000x128 ![] bcast_S_S200000x128)
  :: StableHlo.TRef.binary (.of main_call2_v3 : StableHlo.TRef sig ⟨S200000x128, .f32⟩) (.of main_v126 : StableHlo.TRef sig ⟨S200000x128, .f32⟩) (.of main_call2_v4 : StableHlo.TRef sig ⟨S200000x128, .f32⟩) mulf
  :: StableHlo.TRef.ternary (.of main_call2_v1 : StableHlo.TRef sig ⟨S200000x128, .i1⟩) (.of main_v126 : StableHlo.TRef sig ⟨S200000x128, .f32⟩) (.of main_call2_v4 : StableHlo.TRef sig ⟨S200000x128, .f32⟩) (.of main_v127 : StableHlo.TRef sig ⟨S200000x128, .f32⟩) select
  :: [] )
/-- Each operation of the piece touches TensorCore references only. -/
theorem rops3g_sub : (rops3g : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩
/-- Each operation of the piece determines its results. -/
theorem rops3g_fresh : ∀ op ∈ (rops3g : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- The first dense layer: the reshape `%128` to one row per graph, the weight transposed (`%129`), the product
    `%130`, the bias broadcast twice (`%131`, `%132`) and added (`%133`), the slope `%cst_25`, and the call
    `%134 = leaky_relu_2(%133, %cst_25)` inlined over `main_call3` (result `main_v134`). 14 operations. -/
abbrev rops3l : List (HloOp τ sig (Elt F)) :=
  ( StableHlo.reshape main_v127 main_v128 rfl shapeCasts_S200000x128_S5000x5120
  :: StableHlo.unary main_arg8 main_v129 ((transpose S5120x512 [1, 0] · transposes_S512x5120_S5120x512_1_0) : (⟨S512x5120, .f32⟩ : BufTy).Contents (Elt F) → (⟨S5120x512, .f32⟩ : BufTy).Contents (Elt F))
  :: StableHlo.binary main_v128 main_v129 main_v130 ((fun l r => Host.dotGeneral dot_S5000x5120_S5120x512_S5000x512_1_0_0_1_n_n none l r) : (⟨S5000x5120, .f32⟩ : BufTy).Contents (Elt F) → (⟨S5120x512, .f32⟩ : BufTy).Contents (Elt F) → (⟨S5000x512, .f32⟩ : BufTy).Contents (Elt F))
  :: StableHlo.unary main_arg9 main_v131 (broadcastInDim S1x512 ![1] bcast_S512_S1x512_1 : (⟨S512, .f32⟩ : BufTy).Contents (Elt F) → (⟨S1x512, .f32⟩ : BufTy).Contents (Elt F))
  :: StableHlo.unary main_v131 main_v132 (broadcastInDim S5000x512 ![0, 1] bcast_S1x512_S5000x512_0_1 : (⟨S1x512, .f32⟩ : BufTy).Contents (Elt F) → (⟨S5000x512, .f32⟩ : BufTy).Contents (Elt F))
  :: StableHlo.binary main_v130 main_v132 main_v133 (addf : (⟨S5000x512, .f32⟩ : BufTy).Contents (Elt F) → (⟨S5000x512, .f32⟩ : BufTy).Contents (Elt F) → (⟨S5000x512, .f32⟩ : BufTy).Contents (Elt F))
  :: StableHlo.nullary main_cst_25 (constant S_ .f32 0x3DCCCCCD#32)
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S5000x512, .f32⟩) (broadcastInDim S5000x512 ![] bcast_S_S5000x512)
  :: StableHlo.TRef.binary (.of main_v133 : StableHlo.TRef sig ⟨S5000x512, .f32⟩) (.of main_call3_v0 : StableHlo.TRef sig ⟨S5000x512, .f32⟩) (.of main_call3_v1 : StableHlo.TRef sig ⟨S5000x512, .i1⟩) (cmpf .oge)
  :: StableHlo.TRef.unary (.of main_cst_25 : StableHlo.TRef sig ⟨S_, .f32⟩) (.of main_call3_v2 : StableHlo.TRef sig ⟨S_, .f32⟩) id
  :: StableHlo.TRef.unary (.of main_call3_v2 : StableHlo.TRef sig ⟨S_, .f32⟩) (.of main_call3_v3 : StableHlo.TRef sig ⟨S5000x512, .f32⟩) (broadcastInDim S5000x512 ![] bcast_S_S5000x512)
  :: StableHlo.TRef.binary (.of main_call3_v3 : StableHlo.TRef sig ⟨S5000x512, .f32⟩) (.of main_v133 : StableHlo.TRef sig ⟨S5000x512, .f32⟩) (.of main_call3_v4 : StableHlo.TRef sig ⟨S5000x512, .f32⟩) mulf
  :: StableHlo.TRef.ternary (.of main_call3_v1 : StableHlo.TRef sig ⟨S5000x512, .i1⟩) (.of main_v133 : StableHlo.TRef sig ⟨S5000x512, .f32⟩) (.of main_call3_v4 : StableHlo.TRef sig ⟨S5000x512, .f32⟩) (.of main_v134 : StableHlo.TRef sig ⟨S5000x512, .f32⟩) select
  :: [] )
/-- Each operation of the piece touches TensorCore references only. -/
theorem rops3l_sub : (rops3l : List (HloOp τ sig (Elt F))).Forall fun op => op.bufs ⊆ tcRefs τ sig :=
  ⟨reshape_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩
/-- Each operation of the piece determines its results. -/
theorem rops3l_fresh : ∀ op ∈ (rops3l : List (HloOp τ sig (Elt F))), op.fresh = ∅ :=
  List.forall_iff_forall_mem.mp ⟨rfl, rfl, rfl, rfl, rfl, rfl, rfl, rfl, rfl, rfl, rfl, rfl, rfl, rfl⟩

/-- The second dense layer: the weight transposed (`%135`), the product `%136`, the bias broadcast (`%137`, `%138`)
    and added (`%139`), the slope `%cst_26`, and the call `%140 = leaky_relu_4(%139, %cst_26)` inlined over `main_call4`
    (result `main_v140`). 13 operations. -/
abbrev rops4 : List (HloOp τ sig (Elt F)) :=
  ( StableHlo.unary main_arg10 main_v135 ((transpose S512x128 [1, 0] · transposes_S128x512_S512x128_1_0) : (⟨S128x512, .f32⟩ : BufTy).Contents (Elt F) → (⟨S512x128, .f32⟩ : BufTy).Contents (Elt F))
  :: StableHlo.binary main_v134 main_v135 main_v136 ((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F))
  :: StableHlo.unary main_arg11 main_v137 (broadcastInDim S1x128 ![1] bcast_S128_S1x128_1 : (⟨S128, .f32⟩ : BufTy).Contents (Elt F) → (⟨S1x128, .f32⟩ : BufTy).Contents (Elt F))
  :: StableHlo.unary main_v137 main_v138 (broadcastInDim S5000x128 ![0, 1] bcast_S1x128_S5000x128_0_1 : (⟨S1x128, .f32⟩ : BufTy).Contents (Elt F) → (⟨S5000x128, .f32⟩ : BufTy).Contents (Elt F))
  :: StableHlo.binary main_v136 main_v138 main_v139 (addf : (⟨S5000x128, .f32⟩ : BufTy).Contents (Elt F) → (⟨S5000x128, .f32⟩ : BufTy).Contents (Elt F) → (⟨S5000x128, .f32⟩ : BufTy).Contents (Elt F))
  :: StableHlo.nullary main_cst_26 (constant S_ .f32 0x3DCCCCCD#32)
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S5000x128, .f32⟩) (broadcastInDim S5000x128 ![] bcast_S_S5000x128)
  :: StableHlo.TRef.binary (.of main_v139 : StableHlo.TRef sig ⟨S5000x128, .f32⟩) (.of main_call4_v0 : StableHlo.TRef sig ⟨S5000x128, .f32⟩) (.of main_call4_v1 : StableHlo.TRef sig ⟨S5000x128, .i1⟩) (cmpf .oge)
  :: StableHlo.TRef.unary (.of main_cst_26 : StableHlo.TRef sig ⟨S_, .f32⟩) (.of main_call4_v2 : StableHlo.TRef sig ⟨S_, .f32⟩) id
  :: StableHlo.TRef.unary (.of main_call4_v2 : StableHlo.TRef sig ⟨S_, .f32⟩) (.of main_call4_v3 : StableHlo.TRef sig ⟨S5000x128, .f32⟩) (broadcastInDim S5000x128 ![] bcast_S_S5000x128)
  :: StableHlo.TRef.binary (.of main_call4_v3 : StableHlo.TRef sig ⟨S5000x128, .f32⟩) (.of main_v139 : StableHlo.TRef sig ⟨S5000x128, .f32⟩) (.of main_call4_v4 : StableHlo.TRef sig ⟨S5000x128, .f32⟩) mulf
  :: StableHlo.TRef.ternary (.of main_call4_v1 : StableHlo.TRef sig ⟨S5000x128, .i1⟩) (.of main_v139 : StableHlo.TRef sig ⟨S5000x128, .f32⟩) (.of main_call4_v4 : StableHlo.TRef sig ⟨S5000x128, .f32⟩) (.of main_v140 : StableHlo.TRef sig ⟨S5000x128, .f32⟩) select
  :: [] )
/-- Each operation of the piece touches TensorCore references only. -/
theorem rops4_sub : (rops4 : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩
/-- Each operation of the piece determines its results. -/
theorem rops4_fresh : ∀ op ∈ (rops4 : List (HloOp τ sig (Elt F))), op.fresh = ∅ :=
  List.forall_iff_forall_mem.mp ⟨rfl, rfl, rfl, rfl, rfl, rfl, rfl, rfl, rfl, rfl, rfl, rfl, rfl⟩

/-- From `%141` to `%151`, the result: the last weight transposed, the product, its bias, and the logistic
    function `1 / (1 + exp (-z))` spelt as StableHLO spells it. 13 operations. -/
abbrev rops5 : List (HloOp τ sig (Elt F)) :=
  ( StableHlo.unary main_arg12 main_v141 ((transpose S128x1 [1, 0] · transposes_S1x128_S128x1_1_0) : (⟨S1x128, .f32⟩ : BufTy).Contents (Elt F) → (⟨S128x1, .f32⟩ : BufTy).Contents (Elt F))
  :: StableHlo.binary main_v140 main_v141 main_v142 ((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F))
  :: StableHlo.unary main_arg13 main_v143 (broadcastInDim S1x1 ![1] bcast_S1_S1x1_1 : (⟨S1, .f32⟩ : BufTy).Contents (Elt F) → (⟨S1x1, .f32⟩ : BufTy).Contents (Elt F))
  :: StableHlo.unary main_v143 main_v144 (broadcastInDim S5000x1 ![0, 1] bcast_S1x1_S5000x1_0_1 : (⟨S1x1, .f32⟩ : BufTy).Contents (Elt F) → (⟨S5000x1, .f32⟩ : BufTy).Contents (Elt F))
  :: StableHlo.binary main_v142 main_v144 main_v145 (addf : (⟨S5000x1, .f32⟩ : BufTy).Contents (Elt F) → (⟨S5000x1, .f32⟩ : BufTy).Contents (Elt F) → (⟨S5000x1, .f32⟩ : BufTy).Contents (Elt F))
  :: StableHlo.unary main_v145 main_v146 (Host.negf : (⟨S5000x1, .f32⟩ : BufTy).Contents (Elt F) → (⟨S5000x1, .f32⟩ : BufTy).Contents (Elt F))
  :: StableHlo.unary main_v146 main_v147 (Host.exp : (⟨S5000x1, .f32⟩ : BufTy).Contents (Elt F) → (⟨S5000x1, .f32⟩ : BufTy).Contents (Elt F))
  :: StableHlo.nullary main_cst_27 (constant S_ .f32 0x3F800000#32)
  :: StableHlo.unary main_cst_27 main_v148 (broadcastInDim S5000x1 ![] bcast_S_S5000x1 : (⟨S_, .f32⟩ : BufTy).Contents (Elt F) → (⟨S5000x1, .f32⟩ : BufTy).Contents (Elt F))
  :: StableHlo.binary main_v148 main_v147 main_v149 (addf : (⟨S5000x1, .f32⟩ : BufTy).Contents (Elt F) → (⟨S5000x1, .f32⟩ : BufTy).Contents (Elt F) → (⟨S5000x1, .f32⟩ : BufTy).Contents (Elt F))
  :: StableHlo.nullary main_cst_28 (constant S_ .f32 0x3F800000#32)
  :: StableHlo.unary main_cst_28 main_v150 (broadcastInDim S5000x1 ![] bcast_S_S5000x1 : (⟨S_, .f32⟩ : BufTy).Contents (Elt F) → (⟨S5000x1, .f32⟩ : BufTy).Contents (Elt F))
  :: StableHlo.binary main_v150 main_v149 main_v151 (Host.divf : (⟨S5000x1, .f32⟩ : BufTy).Contents (Elt F) → (⟨S5000x1, .f32⟩ : BufTy).Contents (Elt F) → (⟨S5000x1, .f32⟩ : BufTy).Contents (Elt F))
  :: [] )
/-- Each operation of the piece touches TensorCore references only. -/
theorem rops5_sub : (rops5 : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩
/-- Each operation of the piece determines its results. -/
theorem rops5_fresh : ∀ op ∈ (rops5 : List (HloOp τ sig (Elt F))), op.fresh = ∅ :=
  List.forall_iff_forall_mem.mp ⟨rfl, rfl, rfl, rfl, rfl, rfl, rfl, rfl, rfl, rfl, rfl, rfl, rfl⟩

/-- @main's 213 operations in order, the calls unfolded: the ten pieces one after the other. -/
abbrev ops : List (HloOp τ sig (Elt F)) := rops0g ++ rops0l ++ rops1g ++ rops1l ++ rops2g ++ rops2l ++ rops3g ++ rops3l ++ rops4 ++ rops5

/-! ## @main is that straight line

The printed @main runs four windows `main_part0 … main_part3` of its statements, cut by count; the same operations
listed window by window, each window's program is the line of its list, and the four lists one after the other are
the ten pieces one after the other. -/

/-- The operations of @main's window 0, in order, the calls unfolded. -/
abbrev win0 : List (HloOp τ sig (Elt F)) :=
  ( StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v0 main_v1 rfl shapeCasts_S1x1000000_S1000000
  :: StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v2 main_v3 rfl shapeCasts_S1x1000000_S1000000
  :: StableHlo.nullary main_cst (constant S_ .f32 0x3F800000#32)
  :: StableHlo.unary main_cst main_v4 (broadcastInDim S1000000 ![] bcast_S_S1000000 : (⟨S_, .f32⟩ : BufTy).Contents (Elt F) → (⟨S1000000, .f32⟩ : BufTy).Contents (Elt F))
  :: StableHlo.nullary main_cst_0 (constant S_ .f32 0x00000000#32)
  :: StableHlo.unary main_cst_0 main_v5 (broadcastInDim S200000 ![] bcast_S_S200000 : (⟨S_, .f32⟩ : BufTy).Contents (Elt F) → (⟨S200000, .f32⟩ : BufTy).Contents (Elt F))
  :: StableHlo.unary main_v3 main_v6 (broadcastInDim S1000000x1 ![0] bcast_S1000000_S1000000x1_0 : (⟨S1000000, .i32⟩ : BufTy).Contents (Elt F) → (⟨S1000000x1, .i32⟩ : BufTy).Contents (Elt F))
  :: StableHlo.ternary main_v5 main_v6 main_v4 main_v7 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F))
  :: StableHlo.nullary main_cst_1 (constant S_ .f32 0x3F800000#32)
  :: StableHlo.unary main_cst_1 main_v8 (broadcastInDim S200000 ![] bcast_S_S200000 : (⟨S_, .f32⟩ : BufTy).Contents (Elt F) → (⟨S200000, .f32⟩ : BufTy).Contents (Elt F))
  :: StableHlo.binary main_v7 main_v8 main_v9 (addf : (⟨S200000, .f32⟩ : BufTy).Contents (Elt F) → (⟨S200000, .f32⟩ : BufTy).Contents (Elt F) → (⟨S200000, .f32⟩ : BufTy).Contents (Elt F))
  :: StableHlo.unary main_v9 main_v10 (Host.rsqrt : (⟨S200000, .f32⟩ : BufTy).Contents (Elt F) → (⟨S200000, .f32⟩ : BufTy).Contents (Elt F))
  :: StableHlo.unary main_arg2 main_v11 ((transpose S40x128 [1, 0] · transposes_S128x40_S40x128_1_0) : (⟨S128x40, .f32⟩ : BufTy).Contents (Elt F) → (⟨S40x128, .f32⟩ : BufTy).Contents (Elt F))
  :: StableHlo.binary main_arg0 main_v11 main_v12 ((fun l r => Host.dotGeneral dot_S200000x40_S40x128_S200000x128_1_0_0_1_n_n none l r) : (⟨S200000x40, .f32⟩ : BufTy).Contents (Elt F) → (⟨S40x128, .f32⟩ : BufTy).Contents (Elt F) → (⟨S200000x128, .f32⟩ : BufTy).Contents (Elt F))
  :: StableHlo.nullary main_c (constantI S_ 32 0#32)
  :: StableHlo.unary main_c main_v13 (broadcastInDim S1000000 ![] bcast_S_S1000000 : (⟨S_, .i32⟩ : BufTy).Contents (Elt F) → (⟨S1000000, .i32⟩ : BufTy).Contents (Elt F))
  :: StableHlo.binary main_v1 main_v13 main_v14 (cmpi .slt : (⟨S1000000, .i32⟩ : BufTy).Contents (Elt F) → (⟨S1000000, .i32⟩ : BufTy).Contents (Elt F) → (⟨S1000000, .i1⟩ : BufTy).Contents (Elt F))
  :: StableHlo.nullary main_c_2 (constantI S_ 32 200000#32)
  :: StableHlo.unary main_c_2 main_v15 (broadcastInDim S1000000 ![] bcast_S_S1000000 : (⟨S_, .i32⟩ : BufTy).Contents (Elt F) → (⟨S1000000, .i32⟩ : BufTy).Contents (Elt F))
  :: StableHlo.binary main_v1 main_v15 main_v16 (addi : (⟨S1000000, .i32⟩ : BufTy).Contents (Elt F) → (⟨S1000000, .i32⟩ : BufTy).Contents (Elt F) → (⟨S1000000, .i32⟩ : BufTy).Contents (Elt F))
  :: StableHlo.ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v17 main_v18 (broadcastInDim S1000000x1 ![0] bcast_S1000000_S1000000x1_0 : (⟨S1000000, .i32⟩ : BufTy).Contents (Elt F) → (⟨S1000000x1, .i32⟩ : BufTy).Contents (Elt F))
  :: StableHlo.binary main_v10 main_v18 main_v19 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_3 (constantI S_ 32 0#32)
  :: StableHlo.unary main_c_3 main_v20 (broadcastInDim S1000000 ![] bcast_S_S1000000 : (⟨S_, .i32⟩ : BufTy).Contents (Elt F) → (⟨S1000000, .i32⟩ : BufTy).Contents (Elt F))
  :: StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F))
  :: StableHlo.nullary main_c_4 (constantI S_ 32 200000#32)
  :: StableHlo.unary main_c_4 main_v22 (broadcastInDim S1000000 ![] bcast_S_S1000000 : (⟨S_, .i32⟩ : BufTy).Contents (Elt F) → (⟨S1000000, .i32⟩ : BufTy).Contents (Elt F))
  :: StableHlo.binary main_v3 main_v22 main_v23 (addi : (⟨S1000000, .i32⟩ : BufTy).Contents (Elt F) → (⟨S1000000, .i32⟩ : BufTy).Contents (Elt F) → (⟨S1000000, .i32⟩ : BufTy).Contents (Elt F))
  :: StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v24 main_v25 (broadcastInDim S1000000x1 ![0] bcast_S1000000_S1000000x1_0 : (⟨S1000000, .i32⟩ : BufTy).Contents (Elt F) → (⟨S1000000x1, .i32⟩ : BufTy).Contents (Elt F))
  :: StableHlo.binary main_v10 main_v25 main_v26 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v19 main_v26 main_v27 (mulf : (⟨S1000000, .f32⟩ : BufTy).Contents (Elt F) → (⟨S1000000, .f32⟩ : BufTy).Contents (Elt F) → (⟨S1000000, .f32⟩ : BufTy).Contents (Elt F))
  :: StableHlo.nullary main_c_5 (constantI S_ 32 0#32)
  :: StableHlo.unary main_c_5 main_v28 (broadcastInDim S1000000 ![] bcast_S_S1000000 : (⟨S_, .i32⟩ : BufTy).Contents (Elt F) → (⟨S1000000, .i32⟩ : BufTy).Contents (Elt F))
  :: StableHlo.binary main_v1 main_v28 main_v29 (cmpi .slt : (⟨S1000000, .i32⟩ : BufTy).Contents (Elt F) → (⟨S1000000, .i32⟩ : BufTy).Contents (Elt F) → (⟨S1000000, .i1⟩ : BufTy).Contents (Elt F))
  :: StableHlo.nullary main_c_6 (constantI S_ 32 200000#32)
  :: StableHlo.unary main_c_6 main_v30 (broadcastInDim S1000000 ![] bcast_S_S1000000 : (⟨S_, .i32⟩ : BufTy).Contents (Elt F) → (⟨S1000000, .i32⟩ : BufTy).Contents (Elt F))
  :: StableHlo.binary main_v1 main_v30 main_v31 (addi : (⟨S1000000, .i32⟩ : BufTy).Contents (Elt F) → (⟨S1000000, .i32⟩ : BufTy).Contents (Elt F) → (⟨S1000000, .i32⟩ : BufTy).Contents (Elt F))
  :: StableHlo.ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v32 main_v33 (broadcastInDim S1000000x1 ![0] bcast_S1000000_S1000000x1_0 : (⟨S1000000, .i32⟩ : BufTy).Contents (Elt F) → (⟨S1000000x1, .i32⟩ : BufTy).Contents (Elt F))
  :: StableHlo.binary main_v12 main_v33 main_v34 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v27 main_v35 (broadcastInDim S1000000x1 ![0] bcast_S1000000_S1000000x1_0 : (⟨S1000000, .f32⟩ : BufTy).Contents (Elt F) → (⟨S1000000x1, .f32⟩ : BufTy).Contents (Elt F))
  :: StableHlo.unary main_v35 main_v36 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v34 main_v36 main_v37 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_7 (constant S_ .f32 0x00000000#32)
  :: StableHlo.unary main_cst_7 main_v38 (broadcastInDim S200000x128 ![] bcast_S_S200000x128 : (⟨S_, .f32⟩ : BufTy).Contents (Elt F) → (⟨S200000x128, .f32⟩ : BufTy).Contents (Elt F))
  :: StableHlo.unary main_v3 main_v39 (broadcastInDim S1000000x1 ![0] bcast_S1000000_S1000000x1_0 : (⟨S1000000, .i32⟩ : BufTy).Contents (Elt F) → (⟨S1000000x1, .i32⟩ : BufTy).Contents (Elt F))
  :: StableHlo.ternary main_v38 main_v39 main_v37 main_v40 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v41 (mulf : (⟨S200000, .f32⟩ : BufTy).Contents (Elt F) → (⟨S200000, .f32⟩ : BufTy).Contents (Elt F) → (⟨S200000, .f32⟩ : BufTy).Contents (Elt F))
  :: StableHlo.unary main_v41 main_v42 (broadcastInDim S200000x1 ![0] bcast_S200000_S200000x1_0 : (⟨S200000, .f32⟩ : BufTy).Contents (Elt F) → (⟨S200000x1, .f32⟩ : BufTy).Contents (Elt F))
  :: StableHlo.unary main_v42 main_v43 (broadcastInDim S200000x128 ![0, 1] bcast_S200000x1_S200000x128_0_1 : (⟨S200000x1, .f32⟩ : BufTy).Contents (Elt F) → (⟨S200000x128, .f32⟩ : BufTy).Contents (Elt F))
  :: StableHlo.binary main_v12 main_v43 main_v44 (mulf : (⟨S200000x128, .f32⟩ : BufTy).Contents (Elt F) → (⟨S200000x128, .f32⟩ : BufTy).Contents (Elt F) → (⟨S200000x128, .f32⟩ : BufTy).Contents (Elt F))
  :: StableHlo.binary main_v40 main_v44 main_v45 (addf : (⟨S200000x128, .f32⟩ : BufTy).Contents (Elt F) → (⟨S200000x128, .f32⟩ : BufTy).Contents (Elt F) → (⟨S200000x128, .f32⟩ : BufTy).Contents (Elt F))
  :: StableHlo.unary main_arg3 main_v46 (broadcastInDim S1x128 ![1] bcast_S128_S1x128_1 : (⟨S128, .f32⟩ : BufTy).Contents (Elt F) → (⟨S1x128, .f32⟩ : BufTy).Contents (Elt F))
  :: StableHlo.unary main_v46 main_v47 (broadcastInDim S200000x128 ![0, 1] bcast_S1x128_S200000x128_0_1 : (⟨S1x128, .f32⟩ : BufTy).Contents (Elt F) → (⟨S200000x128, .f32⟩ : BufTy).Contents (Elt F))
  :: StableHlo.binary main_v45 main_v47 main_v48 (addf : (⟨S200000x128, .f32⟩ : BufTy).Contents (Elt F) → (⟨S200000x128, .f32⟩ : BufTy).Contents (Elt F) → (⟨S200000x128, .f32⟩ : BufTy).Contents (Elt F))
  :: StableHlo.nullary main_cst_8 (constant S_ .f32 0x3DCCCCCD#32)
  :: [] )

/-- The operations of @main's window 1, in order, the calls unfolded. -/
abbrev win1 : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S200000x128, .f32⟩) (broadcastInDim S200000x128 ![] bcast_S_S200000x128)
  :: StableHlo.TRef.binary (.of main_v48 : StableHlo.TRef sig ⟨S200000x128, .f32⟩) (.of main_call0_v0 : StableHlo.TRef sig ⟨S200000x128, .f32⟩) (.of main_call0_v1 : StableHlo.TRef sig ⟨S200000x128, .i1⟩) (cmpf .oge)
  :: StableHlo.TRef.unary (.of main_cst_8 : StableHlo.TRef sig ⟨S_, .f32⟩) (.of main_call0_v2 : StableHlo.TRef sig ⟨S_, .f32⟩) id
  :: StableHlo.TRef.unary (.of main_call0_v2 : StableHlo.TRef sig ⟨S_, .f32⟩) (.of main_call0_v3 : StableHlo.TRef sig ⟨S200000x128, .f32⟩) (broadcastInDim S200000x128 ![] bcast_S_S200000x128)
  :: StableHlo.TRef.binary (.of main_call0_v3 : StableHlo.TRef sig ⟨S200000x128, .f32⟩) (.of main_v48 : StableHlo.TRef sig ⟨S200000x128, .f32⟩) (.of main_call0_v4 : StableHlo.TRef sig ⟨S200000x128, .f32⟩) mulf
  :: StableHlo.TRef.ternary (.of main_call0_v1 : StableHlo.TRef sig ⟨S200000x128, .i1⟩) (.of main_v48 : StableHlo.TRef sig ⟨S200000x128, .f32⟩) (.of main_call0_v4 : StableHlo.TRef sig ⟨S200000x128, .f32⟩) (.of main_v49 : StableHlo.TRef sig ⟨S200000x128, .f32⟩) select
  :: StableHlo.unary main_arg4 main_v50 ((transpose S128x256 [1, 0] · transposes_S256x128_S128x256_1_0) : (⟨S256x128, .f32⟩ : BufTy).Contents (Elt F) → (⟨S128x256, .f32⟩ : BufTy).Contents (Elt F))
  :: StableHlo.binary main_v49 main_v50 main_v51 ((fun l r => Host.dotGeneral dot_S200000x128_S128x256_S200000x256_1_0_0_1_n_n none l r) : (⟨S200000x128, .f32⟩ : BufTy).Contents (Elt F) → (⟨S128x256, .f32⟩ : BufTy).Contents (Elt F) → (⟨S200000x256, .f32⟩ : BufTy).Contents (Elt F))
  :: StableHlo.nullary main_c_9 (constantI S_ 32 0#32)
  :: StableHlo.unary main_c_9 main_v52 (broadcastInDim S1000000 ![] bcast_S_S1000000 : (⟨S_, .i32⟩ : BufTy).Contents (Elt F) → (⟨S1000000, .i32⟩ : BufTy).Contents (Elt F))
  :: StableHlo.binary main_v1 main_v52 main_v53 (cmpi .slt : (⟨S1000000, .i32⟩ : BufTy).Contents (Elt F) → (⟨S1000000, .i32⟩ : BufTy).Contents (Elt F) → (⟨S1000000, .i1⟩ : BufTy).Contents (Elt F))
  :: StableHlo.nullary main_c_10 (constantI S_ 32 200000#32)
  :: StableHlo.unary main_c_10 main_v54 (broadcastInDim S1000000 ![] bcast_S_S1000000 : (⟨S_, .i32⟩ : BufTy).Contents (Elt F) → (⟨S1000000, .i32⟩ : BufTy).Contents (Elt F))
  :: StableHlo.binary main_v1 main_v54 main_v55 (addi : (⟨S1000000, .i32⟩ : BufTy).Contents (Elt F) → (⟨S1000000, .i32⟩ : BufTy).Contents (Elt F) → (⟨S1000000, .i32⟩ : BufTy).Contents (Elt F))
  :: StableHlo.ternary main_v53 main_v55 main_v1 main_v56 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v56 main_v57 (broadcastInDim S1000000x1 ![0] bcast_S1000000_S1000000x1_0 : (⟨S1000000, .i32⟩ : BufTy).Contents (Elt F) → (⟨S1000000x1, .i32⟩ : BufTy).Contents (Elt F))
  :: StableHlo.binary main_v10 main_v57 main_v58 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_11 (constantI S_ 32 0#32)
  :: StableHlo.unary main_c_11 main_v59 (broadcastInDim S1000000 ![] bcast_S_S1000000 : (⟨S_, .i32⟩ : BufTy).Contents (Elt F) → (⟨S1000000, .i32⟩ : BufTy).Contents (Elt F))
  :: StableHlo.binary main_v3 main_v59 main_v60 (cmpi .slt : (⟨S1000000, .i32⟩ : BufTy).Contents (Elt F) → (⟨S1000000, .i32⟩ : BufTy).Contents (Elt F) → (⟨S1000000, .i1⟩ : BufTy).Contents (Elt F))
  :: StableHlo.nullary main_c_12 (constantI S_ 32 200000#32)
  :: StableHlo.unary main_c_12 main_v61 (broadcastInDim S1000000 ![] bcast_S_S1000000 : (⟨S_, .i32⟩ : BufTy).Contents (Elt F) → (⟨S1000000, .i32⟩ : BufTy).Contents (Elt F))
  :: StableHlo.binary main_v3 main_v61 main_v62 (addi : (⟨S1000000, .i32⟩ : BufTy).Contents (Elt F) → (⟨S1000000, .i32⟩ : BufTy).Contents (Elt F) → (⟨S1000000, .i32⟩ : BufTy).Contents (Elt F))
  :: StableHlo.ternary main_v60 main_v62 main_v3 main_v63 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v63 main_v64 (broadcastInDim S1000000x1 ![0] bcast_S1000000_S1000000x1_0 : (⟨S1000000, .i32⟩ : BufTy).Contents (Elt F) → (⟨S1000000x1, .i32⟩ : BufTy).Contents (Elt F))
  :: StableHlo.binary main_v10 main_v64 main_v65 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v58 main_v65 main_v66 (mulf : (⟨S1000000, .f32⟩ : BufTy).Contents (Elt F) → (⟨S1000000, .f32⟩ : BufTy).Contents (Elt F) → (⟨S1000000, .f32⟩ : BufTy).Contents (Elt F))
  :: StableHlo.nullary main_c_13 (constantI S_ 32 0#32)
  :: StableHlo.unary main_c_13 main_v67 (broadcastInDim S1000000 ![] bcast_S_S1000000 : (⟨S_, .i32⟩ : BufTy).Contents (Elt F) → (⟨S1000000, .i32⟩ : BufTy).Contents (Elt F))
  :: StableHlo.binary main_v1 main_v67 main_v68 (cmpi .slt : (⟨S1000000, .i32⟩ : BufTy).Contents (Elt F) → (⟨S1000000, .i32⟩ : BufTy).Contents (Elt F) → (⟨S1000000, .i1⟩ : BufTy).Contents (Elt F))
  :: StableHlo.nullary main_c_14 (constantI S_ 32 200000#32)
  :: StableHlo.unary main_c_14 main_v69 (broadcastInDim S1000000 ![] bcast_S_S1000000 : (⟨S_, .i32⟩ : BufTy).Contents (Elt F) → (⟨S1000000, .i32⟩ : BufTy).Contents (Elt F))
  :: StableHlo.binary main_v1 main_v69 main_v70 (addi : (⟨S1000000, .i32⟩ : BufTy).Contents (Elt F) → (⟨S1000000, .i32⟩ : BufTy).Contents (Elt F) → (⟨S1000000, .i32⟩ : BufTy).Contents (Elt F))
  :: StableHlo.ternary main_v68 main_v70 main_v1 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v71 main_v72 (broadcastInDim S1000000x1 ![0] bcast_S1000000_S1000000x1_0 : (⟨S1000000, .i32⟩ : BufTy).Contents (Elt F) → (⟨S1000000x1, .i32⟩ : BufTy).Contents (Elt F))
  :: StableHlo.binary main_v51 main_v72 main_v73 ((fun x i => Host.gather gather_S200000x256_S1000000x1_S1000000x256_1_0_n_n_0_1_1256 x i) : (⟨S200000x256, .f32⟩ : BufTy).Contents (Elt F) → (⟨S1000000x1, .i32⟩ : BufTy).Contents (Elt F) → (⟨S1000000x256, .f32⟩ : BufTy).Contents (Elt F))
  :: StableHlo.unary main_v66 main_v74 (broadcastInDim S1000000x1 ![0] bcast_S1000000_S1000000x1_0 : (⟨S1000000, .f32⟩ : BufTy).Contents (Elt F) → (⟨S1000000x1, .f32⟩ : BufTy).Contents (Elt F))
  :: StableHlo.unary main_v74 main_v75 (broadcastInDim S1000000x256 ![0, 1] bcast_S1000000x1_S1000000x256_0_1 : (⟨S1000000x1, .f32⟩ : BufTy).Contents (Elt F) → (⟨S1000000x256, .f32⟩ : BufTy).Contents (Elt F))
  :: StableHlo.binary main_v73 main_v75 main_v76 (mulf : (⟨S1000000x256, .f32⟩ : BufTy).Contents (Elt F) → (⟨S1000000x256, .f32⟩ : BufTy).Contents (Elt F) → (⟨S1000000x256, .f32⟩ : BufTy).Contents (Elt F))
  :: StableHlo.nullary main_cst_15 (constant S_ .f32 0x00000000#32)
  :: StableHlo.unary main_cst_15 main_v77 (broadcastInDim S200000x256 ![] bcast_S_S200000x256 : (⟨S_, .f32⟩ : BufTy).Contents (Elt F) → (⟨S200000x256, .f32⟩ : BufTy).Contents (Elt F))
  :: StableHlo.unary main_v3 main_v78 (broadcastInDim S1000000x1 ![0] bcast_S1000000_S1000000x1_0 : (⟨S1000000, .i32⟩ : BufTy).Contents (Elt F) → (⟨S1000000x1, .i32⟩ : BufTy).Contents (Elt F))
  :: StableHlo.ternary main_v77 main_v78 main_v76 main_v79 ((fun x i u => Host.scatterAdd scatter_S200000x256_S1000000x1_S1000000x256_1_0_0_1 x i u) : (⟨S200000x256, .f32⟩ : BufTy).Contents (Elt F) → (⟨S1000000x1, .i32⟩ : BufTy).Contents (Elt F) → (⟨S1000000x256, .f32⟩ : BufTy).Contents (Elt F) → (⟨S200000x256, .f32⟩ : BufTy).Contents (Elt F))
  :: StableHlo.binary main_v10 main_v10 main_v80 (mulf : (⟨S200000, .f32⟩ : BufTy).Contents (Elt F) → (⟨S200000, .f32⟩ : BufTy).Contents (Elt F) → (⟨S200000, .f32⟩ : BufTy).Contents (Elt F))
  :: StableHlo.unary main_v80 main_v81 (broadcastInDim S200000x1 ![0] bcast_S200000_S200000x1_0 : (⟨S200000, .f32⟩ : BufTy).Contents (Elt F) → (⟨S200000x1, .f32⟩ : BufTy).Contents (Elt F))
  :: StableHlo.unary main_v81 main_v82 (broadcastInDim S200000x256 ![0, 1] bcast_S200000x1_S200000x256_0_1 : (⟨S200000x1, .f32⟩ : BufTy).Contents (Elt F) → (⟨S200000x256, .f32⟩ : BufTy).Contents (Elt F))
  :: StableHlo.binary main_v51 main_v82 main_v83 (mulf : (⟨S200000x256, .f32⟩ : BufTy).Contents (Elt F) → (⟨S200000x256, .f32⟩ : BufTy).Contents (Elt F) → (⟨S200000x256, .f32⟩ : BufTy).Contents (Elt F))
  :: StableHlo.binary main_v79 main_v83 main_v84 (addf : (⟨S200000x256, .f32⟩ : BufTy).Contents (Elt F) → (⟨S200000x256, .f32⟩ : BufTy).Contents (Elt F) → (⟨S200000x256, .f32⟩ : BufTy).Contents (Elt F))
  :: StableHlo.unary main_arg5 main_v85 (broadcastInDim S1x256 ![1] bcast_S256_S1x256_1 : (⟨S256, .f32⟩ : BufTy).Contents (Elt F) → (⟨S1x256, .f32⟩ : BufTy).Contents (Elt F))
  :: StableHlo.unary main_v85 main_v86 (broadcastInDim S200000x256 ![0, 1] bcast_S1x256_S200000x256_0_1 : (⟨S1x256, .f32⟩ : BufTy).Contents (Elt F) → (⟨S200000x256, .f32⟩ : BufTy).Contents (Elt F))
  :: StableHlo.binary main_v84 main_v86 main_v87 (addf : (⟨S200000x256, .f32⟩ : BufTy).Contents (Elt F) → (⟨S200000x256, .f32⟩ : BufTy).Contents (Elt F) → (⟨S200000x256, .f32⟩ : BufTy).Contents (Elt F))
  :: StableHlo.nullary main_cst_16 (constant S_ .f32 0x3DCCCCCD#32)
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S200000x256, .f32⟩) (broadcastInDim S200000x256 ![] bcast_S_S200000x256)
  :: StableHlo.TRef.binary (.of main_v87 : StableHlo.TRef sig ⟨S200000x256, .f32⟩) (.of main_call1_v0 : StableHlo.TRef sig ⟨S200000x256, .f32⟩) (.of main_call1_v1 : StableHlo.TRef sig ⟨S200000x256, .i1⟩) (cmpf .oge)
  :: StableHlo.TRef.unary (.of main_cst_16 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S200000x256, .f32⟩) (broadcastInDim S200000x256 ![] bcast_S_S200000x256)
  :: StableHlo.TRef.binary (.of main_call1_v3 : StableHlo.TRef sig ⟨S200000x256, .f32⟩) (.of main_v87 : StableHlo.TRef sig ⟨S200000x256, .f32⟩) (.of main_call1_v4 : StableHlo.TRef sig ⟨S200000x256, .f32⟩) mulf
  :: StableHlo.TRef.ternary (.of main_call1_v1 : StableHlo.TRef sig ⟨S200000x256, .i1⟩) (.of main_v87 : StableHlo.TRef sig ⟨S200000x256, .f32⟩) (.of main_call1_v4 : StableHlo.TRef sig ⟨S200000x256, .f32⟩) (.of main_v88 : StableHlo.TRef sig ⟨S200000x256, .f32⟩) select
  :: StableHlo.unary main_arg6 main_v89 ((transpose S256x128 [1, 0] · transposes_S128x256_S256x128_1_0) : (⟨S128x256, .f32⟩ : BufTy).Contents (Elt F) → (⟨S256x128, .f32⟩ : BufTy).Contents (Elt F))
  :: StableHlo.binary main_v88 main_v89 main_v90 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F))
  :: StableHlo.nullary main_c_17 (constantI S_ 32 0#32)
  :: StableHlo.unary main_c_17 main_v91 (broadcastInDim S1000000 ![] bcast_S_S1000000 : (⟨S_, .i32⟩ : BufTy).Contents (Elt F) → (⟨S1000000, .i32⟩ : BufTy).Contents (Elt F))
  :: StableHlo.binary main_v1 main_v91 main_v92 (cmpi .slt : (⟨S1000000, .i32⟩ : BufTy).Contents (Elt F) → (⟨S1000000, .i32⟩ : BufTy).Contents (Elt F) → (⟨S1000000, .i1⟩ : BufTy).Contents (Elt F))
  :: StableHlo.nullary main_c_18 (constantI S_ 32 200000#32)
  :: StableHlo.unary main_c_18 main_v93 (broadcastInDim S1000000 ![] bcast_S_S1000000 : (⟨S_, .i32⟩ : BufTy).Contents (Elt F) → (⟨S1000000, .i32⟩ : BufTy).Contents (Elt F))
  :: StableHlo.binary main_v1 main_v93 main_v94 (addi : (⟨S1000000, .i32⟩ : BufTy).Contents (Elt F) → (⟨S1000000, .i32⟩ : BufTy).Contents (Elt F) → (⟨S1000000, .i32⟩ : BufTy).Contents (Elt F))
  :: StableHlo.ternary main_v92 main_v94 main_v1 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v95 main_v96 (broadcastInDim S1000000x1 ![0] bcast_S1000000_S1000000x1_0 : (⟨S1000000, .i32⟩ : BufTy).Contents (Elt F) → (⟨S1000000x1, .i32⟩ : BufTy).Contents (Elt F))
  :: StableHlo.binary main_v10 main_v96 main_v97 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_19 (constantI S_ 32 0#32)
  :: [] )

/-- The operations of @main's window 2, in order, the calls unfolded. -/
abbrev win2 : List (HloOp τ sig (Elt F)) :=
  ( StableHlo.unary main_c_19 main_v98 (broadcastInDim S1000000 ![] bcast_S_S1000000 : (⟨S_, .i32⟩ : BufTy).Contents (Elt F) → (⟨S1000000, .i32⟩ : BufTy).Contents (Elt F))
  :: StableHlo.binary main_v3 main_v98 main_v99 (cmpi .slt : (⟨S1000000, .i32⟩ : BufTy).Contents (Elt F) → (⟨S1000000, .i32⟩ : BufTy).Contents (Elt F) → (⟨S1000000, .i1⟩ : BufTy).Contents (Elt F))
  :: StableHlo.nullary main_c_20 (constantI S_ 32 200000#32)
  :: StableHlo.unary main_c_20 main_v100 (broadcastInDim S1000000 ![] bcast_S_S1000000 : (⟨S_, .i32⟩ : BufTy).Contents (Elt F) → (⟨S1000000, .i32⟩ : BufTy).Contents (Elt F))
  :: StableHlo.binary main_v3 main_v100 main_v101 (addi : (⟨S1000000, .i32⟩ : BufTy).Contents (Elt F) → (⟨S1000000, .i32⟩ : BufTy).Contents (Elt F) → (⟨S1000000, .i32⟩ : BufTy).Contents (Elt F))
  :: StableHlo.ternary main_v99 main_v101 main_v3 main_v102 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v102 main_v103 (broadcastInDim S1000000x1 ![0] bcast_S1000000_S1000000x1_0 : (⟨S1000000, .i32⟩ : BufTy).Contents (Elt F) → (⟨S1000000x1, .i32⟩ : BufTy).Contents (Elt F))
  :: StableHlo.binary main_v10 main_v103 main_v104 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v97 main_v104 main_v105 (mulf : (⟨S1000000, .f32⟩ : BufTy).Contents (Elt F) → (⟨S1000000, .f32⟩ : BufTy).Contents (Elt F) → (⟨S1000000, .f32⟩ : BufTy).Contents (Elt F))
  :: StableHlo.nullary main_c_21 (constantI S_ 32 0#32)
  :: StableHlo.unary main_c_21 main_v106 (broadcastInDim S1000000 ![] bcast_S_S1000000 : (⟨S_, .i32⟩ : BufTy).Contents (Elt F) → (⟨S1000000, .i32⟩ : BufTy).Contents (Elt F))
  :: StableHlo.binary main_v1 main_v106 main_v107 (cmpi .slt : (⟨S1000000, .i32⟩ : BufTy).Contents (Elt F) → (⟨S1000000, .i32⟩ : BufTy).Contents (Elt F) → (⟨S1000000, .i1⟩ : BufTy).Contents (Elt F))
  :: StableHlo.nullary main_c_22 (constantI S_ 32 200000#32)
  :: StableHlo.unary main_c_22 main_v108 (broadcastInDim S1000000 ![] bcast_S_S1000000 : (⟨S_, .i32⟩ : BufTy).Contents (Elt F) → (⟨S1000000, .i32⟩ : BufTy).Contents (Elt F))
  :: StableHlo.binary main_v1 main_v108 main_v109 (addi : (⟨S1000000, .i32⟩ : BufTy).Contents (Elt F) → (⟨S1000000, .i32⟩ : BufTy).Contents (Elt F) → (⟨S1000000, .i32⟩ : BufTy).Contents (Elt F))
  :: StableHlo.ternary main_v107 main_v109 main_v1 main_v110 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v110 main_v111 (broadcastInDim S1000000x1 ![0] bcast_S1000000_S1000000x1_0 : (⟨S1000000, .i32⟩ : BufTy).Contents (Elt F) → (⟨S1000000x1, .i32⟩ : BufTy).Contents (Elt F))
  :: StableHlo.binary main_v90 main_v111 main_v112 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v105 main_v113 (broadcastInDim S1000000x1 ![0] bcast_S1000000_S1000000x1_0 : (⟨S1000000, .f32⟩ : BufTy).Contents (Elt F) → (⟨S1000000x1, .f32⟩ : BufTy).Contents (Elt F))
  :: StableHlo.unary main_v113 main_v114 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v112 main_v114 main_v115 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_23 (constant S_ .f32 0x00000000#32)
  :: StableHlo.unary main_cst_23 main_v116 (broadcastInDim S200000x128 ![] bcast_S_S200000x128 : (⟨S_, .f32⟩ : BufTy).Contents (Elt F) → (⟨S200000x128, .f32⟩ : BufTy).Contents (Elt F))
  :: StableHlo.unary main_v3 main_v117 (broadcastInDim S1000000x1 ![0] bcast_S1000000_S1000000x1_0 : (⟨S1000000, .i32⟩ : BufTy).Contents (Elt F) → (⟨S1000000x1, .i32⟩ : BufTy).Contents (Elt F))
  :: StableHlo.ternary main_v116 main_v117 main_v115 main_v118 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v119 (mulf : (⟨S200000, .f32⟩ : BufTy).Contents (Elt F) → (⟨S200000, .f32⟩ : BufTy).Contents (Elt F) → (⟨S200000, .f32⟩ : BufTy).Contents (Elt F))
  :: StableHlo.unary main_v119 main_v120 (broadcastInDim S200000x1 ![0] bcast_S200000_S200000x1_0 : (⟨S200000, .f32⟩ : BufTy).Contents (Elt F) → (⟨S200000x1, .f32⟩ : BufTy).Contents (Elt F))
  :: StableHlo.unary main_v120 main_v121 (broadcastInDim S200000x128 ![0, 1] bcast_S200000x1_S200000x128_0_1 : (⟨S200000x1, .f32⟩ : BufTy).Contents (Elt F) → (⟨S200000x128, .f32⟩ : BufTy).Contents (Elt F))
  :: StableHlo.binary main_v90 main_v121 main_v122 (mulf : (⟨S200000x128, .f32⟩ : BufTy).Contents (Elt F) → (⟨S200000x128, .f32⟩ : BufTy).Contents (Elt F) → (⟨S200000x128, .f32⟩ : BufTy).Contents (Elt F))
  :: StableHlo.binary main_v118 main_v122 main_v123 (addf : (⟨S200000x128, .f32⟩ : BufTy).Contents (Elt F) → (⟨S200000x128, .f32⟩ : BufTy).Contents (Elt F) → (⟨S200000x128, .f32⟩ : BufTy).Contents (Elt F))
  :: StableHlo.unary main_arg7 main_v124 (broadcastInDim S1x128 ![1] bcast_S128_S1x128_1 : (⟨S128, .f32⟩ : BufTy).Contents (Elt F) → (⟨S1x128, .f32⟩ : BufTy).Contents (Elt F))
  :: StableHlo.unary main_v124 main_v125 (broadcastInDim S200000x128 ![0, 1] bcast_S1x128_S200000x128_0_1 : (⟨S1x128, .f32⟩ : BufTy).Contents (Elt F) → (⟨S200000x128, .f32⟩ : BufTy).Contents (Elt F))
  :: StableHlo.binary main_v123 main_v125 main_v126 (addf : (⟨S200000x128, .f32⟩ : BufTy).Contents (Elt F) → (⟨S200000x128, .f32⟩ : BufTy).Contents (Elt F) → (⟨S200000x128, .f32⟩ : BufTy).Contents (Elt F))
  :: StableHlo.nullary main_cst_24 (constant S_ .f32 0x3DCCCCCD#32)
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S200000x128, .f32⟩) (broadcastInDim S200000x128 ![] bcast_S_S200000x128)
  :: StableHlo.TRef.binary (.of main_v126 : StableHlo.TRef sig ⟨S200000x128, .f32⟩) (.of main_call2_v0 : StableHlo.TRef sig ⟨S200000x128, .f32⟩) (.of main_call2_v1 : StableHlo.TRef sig ⟨S200000x128, .i1⟩) (cmpf .oge)
  :: StableHlo.TRef.unary (.of main_cst_24 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S200000x128, .f32⟩) (broadcastInDim S200000x128 ![] bcast_S_S200000x128)
  :: StableHlo.TRef.binary (.of main_call2_v3 : StableHlo.TRef sig ⟨S200000x128, .f32⟩) (.of main_v126 : StableHlo.TRef sig ⟨S200000x128, .f32⟩) (.of main_call2_v4 : StableHlo.TRef sig ⟨S200000x128, .f32⟩) mulf
  :: StableHlo.TRef.ternary (.of main_call2_v1 : StableHlo.TRef sig ⟨S200000x128, .i1⟩) (.of main_v126 : StableHlo.TRef sig ⟨S200000x128, .f32⟩) (.of main_call2_v4 : StableHlo.TRef sig ⟨S200000x128, .f32⟩) (.of main_v127 : StableHlo.TRef sig ⟨S200000x128, .f32⟩) select
  :: StableHlo.reshape main_v127 main_v128 rfl shapeCasts_S200000x128_S5000x5120
  :: StableHlo.unary main_arg8 main_v129 ((transpose S5120x512 [1, 0] · transposes_S512x5120_S5120x512_1_0) : (⟨S512x5120, .f32⟩ : BufTy).Contents (Elt F) → (⟨S5120x512, .f32⟩ : BufTy).Contents (Elt F))
  :: StableHlo.binary main_v128 main_v129 main_v130 ((fun l r => Host.dotGeneral dot_S5000x5120_S5120x512_S5000x512_1_0_0_1_n_n none l r) : (⟨S5000x5120, .f32⟩ : BufTy).Contents (Elt F) → (⟨S5120x512, .f32⟩ : BufTy).Contents (Elt F) → (⟨S5000x512, .f32⟩ : BufTy).Contents (Elt F))
  :: StableHlo.unary main_arg9 main_v131 (broadcastInDim S1x512 ![1] bcast_S512_S1x512_1 : (⟨S512, .f32⟩ : BufTy).Contents (Elt F) → (⟨S1x512, .f32⟩ : BufTy).Contents (Elt F))
  :: StableHlo.unary main_v131 main_v132 (broadcastInDim S5000x512 ![0, 1] bcast_S1x512_S5000x512_0_1 : (⟨S1x512, .f32⟩ : BufTy).Contents (Elt F) → (⟨S5000x512, .f32⟩ : BufTy).Contents (Elt F))
  :: StableHlo.binary main_v130 main_v132 main_v133 (addf : (⟨S5000x512, .f32⟩ : BufTy).Contents (Elt F) → (⟨S5000x512, .f32⟩ : BufTy).Contents (Elt F) → (⟨S5000x512, .f32⟩ : BufTy).Contents (Elt F))
  :: StableHlo.nullary main_cst_25 (constant S_ .f32 0x3DCCCCCD#32)
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S5000x512, .f32⟩) (broadcastInDim S5000x512 ![] bcast_S_S5000x512)
  :: StableHlo.TRef.binary (.of main_v133 : StableHlo.TRef sig ⟨S5000x512, .f32⟩) (.of main_call3_v0 : StableHlo.TRef sig ⟨S5000x512, .f32⟩) (.of main_call3_v1 : StableHlo.TRef sig ⟨S5000x512, .i1⟩) (cmpf .oge)
  :: StableHlo.TRef.unary (.of main_cst_25 : StableHlo.TRef sig ⟨S_, .f32⟩) (.of main_call3_v2 : StableHlo.TRef sig ⟨S_, .f32⟩) id
  :: StableHlo.TRef.unary (.of main_call3_v2 : StableHlo.TRef sig ⟨S_, .f32⟩) (.of main_call3_v3 : StableHlo.TRef sig ⟨S5000x512, .f32⟩) (broadcastInDim S5000x512 ![] bcast_S_S5000x512)
  :: StableHlo.TRef.binary (.of main_call3_v3 : StableHlo.TRef sig ⟨S5000x512, .f32⟩) (.of main_v133 : StableHlo.TRef sig ⟨S5000x512, .f32⟩) (.of main_call3_v4 : StableHlo.TRef sig ⟨S5000x512, .f32⟩) mulf
  :: StableHlo.TRef.ternary (.of main_call3_v1 : StableHlo.TRef sig ⟨S5000x512, .i1⟩) (.of main_v133 : StableHlo.TRef sig ⟨S5000x512, .f32⟩) (.of main_call3_v4 : StableHlo.TRef sig ⟨S5000x512, .f32⟩) (.of main_v134 : StableHlo.TRef sig ⟨S5000x512, .f32⟩) select
  :: StableHlo.unary main_arg10 main_v135 ((transpose S512x128 [1, 0] · transposes_S128x512_S512x128_1_0) : (⟨S128x512, .f32⟩ : BufTy).Contents (Elt F) → (⟨S512x128, .f32⟩ : BufTy).Contents (Elt F))
  :: StableHlo.binary main_v134 main_v135 main_v136 ((fun l r => Host.dotGeneral dot_S5000x512_S512x128_S5000x128_1_0_0_1_n_n none l r) : (⟨S5000x512, .f32⟩ : BufTy).Contents (Elt F) → (⟨S512x128, .f32⟩ : BufTy).Contents (Elt F) → (⟨S5000x128, .f32⟩ : BufTy).Contents (Elt F))
  :: StableHlo.unary main_arg11 main_v137 (broadcastInDim S1x128 ![1] bcast_S128_S1x128_1 : (⟨S128, .f32⟩ : BufTy).Contents (Elt F) → (⟨S1x128, .f32⟩ : BufTy).Contents (Elt F))
  :: StableHlo.unary main_v137 main_v138 (broadcastInDim S5000x128 ![0, 1] bcast_S1x128_S5000x128_0_1 : (⟨S1x128, .f32⟩ : BufTy).Contents (Elt F) → (⟨S5000x128, .f32⟩ : BufTy).Contents (Elt F))
  :: StableHlo.binary main_v136 main_v138 main_v139 (addf : (⟨S5000x128, .f32⟩ : BufTy).Contents (Elt F) → (⟨S5000x128, .f32⟩ : BufTy).Contents (Elt F) → (⟨S5000x128, .f32⟩ : BufTy).Contents (Elt F))
  :: StableHlo.nullary main_cst_26 (constant S_ .f32 0x3DCCCCCD#32)
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S5000x128, .f32⟩) (broadcastInDim S5000x128 ![] bcast_S_S5000x128)
  :: StableHlo.TRef.binary (.of main_v139 : StableHlo.TRef sig ⟨S5000x128, .f32⟩) (.of main_call4_v0 : StableHlo.TRef sig ⟨S5000x128, .f32⟩) (.of main_call4_v1 : StableHlo.TRef sig ⟨S5000x128, .i1⟩) (cmpf .oge)
  :: StableHlo.TRef.unary (.of main_cst_26 : StableHlo.TRef sig ⟨S_, .f32⟩) (.of main_call4_v2 : StableHlo.TRef sig ⟨S_, .f32⟩) id
  :: StableHlo.TRef.unary (.of main_call4_v2 : StableHlo.TRef sig ⟨S_, .f32⟩) (.of main_call4_v3 : StableHlo.TRef sig ⟨S5000x128, .f32⟩) (broadcastInDim S5000x128 ![] bcast_S_S5000x128)
  :: StableHlo.TRef.binary (.of main_call4_v3 : StableHlo.TRef sig ⟨S5000x128, .f32⟩) (.of main_v139 : StableHlo.TRef sig ⟨S5000x128, .f32⟩) (.of main_call4_v4 : StableHlo.TRef sig ⟨S5000x128, .f32⟩) mulf
  :: StableHlo.TRef.ternary (.of main_call4_v1 : StableHlo.TRef sig ⟨S5000x128, .i1⟩) (.of main_v139 : StableHlo.TRef sig ⟨S5000x128, .f32⟩) (.of main_call4_v4 : StableHlo.TRef sig ⟨S5000x128, .f32⟩) (.of main_v140 : StableHlo.TRef sig ⟨S5000x128, .f32⟩) select
  :: StableHlo.unary main_arg12 main_v141 ((transpose S128x1 [1, 0] · transposes_S1x128_S128x1_1_0) : (⟨S1x128, .f32⟩ : BufTy).Contents (Elt F) → (⟨S128x1, .f32⟩ : BufTy).Contents (Elt F))
  :: StableHlo.binary main_v140 main_v141 main_v142 ((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F))
  :: StableHlo.unary main_arg13 main_v143 (broadcastInDim S1x1 ![1] bcast_S1_S1x1_1 : (⟨S1, .f32⟩ : BufTy).Contents (Elt F) → (⟨S1x1, .f32⟩ : BufTy).Contents (Elt F))
  :: StableHlo.unary main_v143 main_v144 (broadcastInDim S5000x1 ![0, 1] bcast_S1x1_S5000x1_0_1 : (⟨S1x1, .f32⟩ : BufTy).Contents (Elt F) → (⟨S5000x1, .f32⟩ : BufTy).Contents (Elt F))
  :: StableHlo.binary main_v142 main_v144 main_v145 (addf : (⟨S5000x1, .f32⟩ : BufTy).Contents (Elt F) → (⟨S5000x1, .f32⟩ : BufTy).Contents (Elt F) → (⟨S5000x1, .f32⟩ : BufTy).Contents (Elt F))
  :: StableHlo.unary main_v145 main_v146 (Host.negf : (⟨S5000x1, .f32⟩ : BufTy).Contents (Elt F) → (⟨S5000x1, .f32⟩ : BufTy).Contents (Elt F))
  :: StableHlo.unary main_v146 main_v147 (Host.exp : (⟨S5000x1, .f32⟩ : BufTy).Contents (Elt F) → (⟨S5000x1, .f32⟩ : BufTy).Contents (Elt F))
  :: StableHlo.nullary main_cst_27 (constant S_ .f32 0x3F800000#32)
  :: StableHlo.unary main_cst_27 main_v148 (broadcastInDim S5000x1 ![] bcast_S_S5000x1 : (⟨S_, .f32⟩ : BufTy).Contents (Elt F) → (⟨S5000x1, .f32⟩ : BufTy).Contents (Elt F))
  :: StableHlo.binary main_v148 main_v147 main_v149 (addf : (⟨S5000x1, .f32⟩ : BufTy).Contents (Elt F) → (⟨S5000x1, .f32⟩ : BufTy).Contents (Elt F) → (⟨S5000x1, .f32⟩ : BufTy).Contents (Elt F))
  :: [] )

/-- The operations of @main's window 3, in order, the calls unfolded. -/
abbrev win3 : List (HloOp τ sig (Elt F)) :=
  ( StableHlo.nullary main_cst_28 (constant S_ .f32 0x3F800000#32)
  :: StableHlo.unary main_cst_28 main_v150 (broadcastInDim S5000x1 ![] bcast_S_S5000x1 : (⟨S_, .f32⟩ : BufTy).Contents (Elt F) → (⟨S5000x1, .f32⟩ : BufTy).Contents (Elt F))
  :: StableHlo.binary main_v150 main_v149 main_v151 (Host.divf : (⟨S5000x1, .f32⟩ : BufTy).Contents (Elt F) → (⟨S5000x1, .f32⟩ : BufTy).Contents (Elt F) → (⟨S5000x1, .f32⟩ : BufTy).Contents (Elt F))
  :: [] )

set_option maxRecDepth 8192 in
/-- The same 213 operations, cut at the windows instead. -/
theorem ops_eq_wins : (ops : List (HloOp τ sig (Elt F))) = win0 ++ (win1 ++ (win2 ++ win3)) := rfl

set_option maxRecDepth 8192 in
theorem main_part0_eq (c : Dev nD) : main_part0 (F := F) c = seq win0 := rfl

-- the binds of a window with calls are re-associated: the rewrite under the chain recurses once per statement
set_option maxRecDepth 8192 in
set_option maxHeartbeats 4000000 in
/-- The functions' definitions unfolded at their calls and the records at their fields, both sides are one chain of
    `hlo` steps once sequencing is reassociated. -/
theorem main_part1_eq (c : Dev nD) : main_part1 (F := F) c = seq win1 := by
  simp only [main_part1, fn_leaky_relu.body, fn_where.body, fn_leaky_relu_0.body, fn_where_1.body, fn_leaky_relu_2.body, fn_where_3.body, fn_leaky_relu_4.body, fn_where_5.body, seq, bind_assoc, pure_bind] <;> rfl

set_option maxRecDepth 8192 in
set_option maxHeartbeats 4000000 in
theorem main_part2_eq (c : Dev nD) : main_part2 (F := F) c = seq win2 := by
  simp only [main_part2, fn_leaky_relu.body, fn_where.body, fn_leaky_relu_0.body, fn_where_1.body, fn_leaky_relu_2.body, fn_where_3.body, fn_leaky_relu_4.body, fn_where_5.body, seq, bind_assoc, pure_bind] <;> rfl

theorem main_part3_eq (c : Dev nD) : main_part3 (F := F) c = seq win3 := rfl

/-- @main is the straight line of `ops`: window by window, joined by `seq_append`. -/
theorem main_eq (c : Dev nD) : main (F := F) c = seq ops := by
  rw [ops_eq_wins, seq_append, seq_append, seq_append, ← main_part0_eq c, ← main_part1_eq c, ← main_part2_eq c,
    ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    have h' : op ∈ rops0g ++ rops0l ++ rops1g ++ rops1l ++ rops2g ++ rops2l ++ rops3g ++ rops3l ++ rops4 ++ rops5 := h
    simp only [List.mem_append] at h'
    rcases h' with ((((((((h' | h') | h') | h') | h') | h') | h') | h') | h') | h'
    exacts [List.forall_iff_forall_mem.mp rops0g_sub op h',
      List.forall_iff_forall_mem.mp rops0l_sub op h',
      List.forall_iff_forall_mem.mp rops1g_sub op h',
      List.forall_iff_forall_mem.mp rops1l_sub op h',
      List.forall_iff_forall_mem.mp rops2g_sub op h',
      List.forall_iff_forall_mem.mp rops2l_sub op h',
      List.forall_iff_forall_mem.mp rops3g_sub op h',
      List.forall_iff_forall_mem.mp rops3l_sub op h',
      List.forall_iff_forall_mem.mp rops4_sub op h',
      List.forall_iff_forall_mem.mp rops5_sub op h']

theorem ops_fresh : ∀ op ∈ (ops : List (HloOp τ sig (Elt F))), op.fresh = ∅ := fun op h => by
  have h' : op ∈ rops0g ++ rops0l ++ rops1g ++ rops1l ++ rops2g ++ rops2l ++ rops3g ++ rops3l ++ rops4 ++ rops5 := h
  simp only [List.mem_append] at h'
  rcases h' with ((((((((h' | h') | h') | h') | h') | h') | h') | h') | h') | h'
  exacts [rops0g_fresh op h', rops0l_fresh op h', rops1g_fresh op h', rops1l_fresh op h', rops2g_fresh op h', rops2l_fresh op h', rops3g_fresh op h', rops3l_fresh op h', rops4_fresh op h', rops5_fresh op h']

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«100723_j10694468567643_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Region0.lean ====
/-
  Region 0 of the kernel, one dense layer  y = x * w + b  on row blocks of 2000 rows: what its output array
  [200000, 128] holds after the region, entry by entry, as a function of the three arrays the region reads (the rows x
  [200000, 40], the weight [40, 128] and the bias row [1, 128]) as the region finds them.  Entry (p, q) is
  sum over k < 40 of x(p, k) * w(k, q), plus b(0, q).

  The steps: the body's stored value at entry (p', q) of a block, from the three loaded blocks (the product into a zero
  accumulator is the sum over k; the bias row is broadcast down the rows); each loaded block read back
  to its array (row p' of the row block at grid point t is row t * 2000 + p' of x; the weight and the bias are whole);
  what point t writes back is block t of the whole-array function; the 100 row blocks cover the array (row r lies in
  block r / 2000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr0_0 : Pipeline.arrRef spec0 0 = main_v11 := rfl
theorem arr0_1 : Pipeline.arrRef spec0 1 = main_v13 := rfl
theorem arr0_2 : Pipeline.arrRef spec0 2 = main_v14 := rfl
theorem arr0_3 : Pipeline.arrRef spec0 3 = main_v15 := rfl

theorem hz0 : (![0, 0] : Fin 2 → Nat) = fun _ => 0 := funext fun a => by fin_cases a <;> rfl

/-! ## The layer as one function of the three arrays -/

/-- Entry (p, q) of the layer's result. -/
def val0 (A0 : S200000x40.Idx → EReal) (A1 : S40x128.Idx → EReal) (A2 : S1x128.Idx → EReal) (p : Fin 200000) (q : Fin 128) : EReal :=
  (∑ k : Fin 40, A0 (ix2 p k) * A1 (ix2 k q)) + A2 (ix2 (0 : Fin 1) q)

/-- The layer's whole result array. -/
def res0 (A0 : S200000x40.Idx → EReal) (A1 : S40x128.Idx → EReal) (A2 : S1x128.Idx → EReal) : S200000x128.Idx → EReal :=
  fun i => val0 A0 A1 A2 (i 0) (i 1)

theorem val0_def (A0 : S200000x40.Idx → EReal) (A1 : S40x128.Idx → EReal) (A2 : S1x128.Idx → EReal) (p : Fin 200000) (q : Fin 128) :
    val0 A0 A1 A2 p q = (∑ k : Fin 40, A0 (ix2 p k) * A1 (ix2 k q)) + A2 (ix2 (0 : Fin 1) q) := rfl

/-! ## The body's stored value at an entry of a block -/

/-- The stored value at entry (p, q) of a block: the product into the zero accumulator is the sum over k, the bias row is
    broadcast down the rows. -/
theorem pay0_at (x0 : Vec Ideal S2000x40 .bf16) (x1 : Vec Ideal S40x128 .bf16) (x2 : Vec Ideal S1x128 .f32)
    (y : S2000x128.Idx) (p : Fin 2000) (q : Fin 128) (hp : (y 0).val = p.val) (hq : (y 1).val = q.val) :
    k0_pay1 x0 x1 x2 y = (∑ k : Fin 40, x0 (ix2 p k) * x1 (ix2 k q)) + x2 (ix2 (0 : Fin 1) q) := by
  obtain rfl : y = ix2 p q := funext fun a => Fin.ext (by
    match a with
    | ⟨0, _⟩ => exact hp
    | ⟨1, _⟩ => exact hq)
  unfold k0_pay1
  simp only [shapeCast_self]
  refine (addf_apply _ _ _).trans ?_
  refine congrArg₂ (· + ·) ?_ ?_
  · exact Cert.LibMatmulSum.matmul_zero_at (Cert.LibMatmulSum.Plain.of_lists dot_S2000x40_S40x128_S2000x128_1_0_0_1_n_n rfl rfl rfl rfl rfl rfl)
      (φ₁ := .bf16) (φ₂ := .bf16) none x0 x1 p q
  · exact broadcastTo_1b_ab_apply x2 broadcasts_S1x128_S2000x128 p q

/-! ## The loaded blocks, read back to their arrays -/

/-- The printed index maps over the grid: the row blocks of x and of the result move with the point, the weight and the
    bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Row p' of the row block of x at point t is row t * 2000 + p' of x. -/
theorem blk0_0_apply (c : Dev nD) (t : Fin cfg0.N) (p' : Fin 2000) (k : Fin 40) (P : Fin 200000) (h : P.val = t.val * 2000 + p'.val) :
    (iblk0 V c 0 t : Vec Ideal S2000x40 .bf16) (ix2 p' k) = (V c (Pipeline.arrRef spec0 0) : S200000x40.Idx → EReal) (ix2 P k) := by
  obtain ⟨e0, e1, -⟩ := idx_facts0 t
  unfold iblk0
  rw [View.read_apply]
  show V c main_v11 _ = V c main_v11 _
  congr 1
  funext a
  apply Fin.ext
  match a with
  | ⟨0, _⟩ => show win0_0.index t (0 : Fin 2) * 2000 + 1 * p'.val = P.val; rw [e0, h]; omega
  | ⟨1, _⟩ => show win0_0.index t (1 : Fin 2) * 40 + 1 * k.val = k.val; rw [e1]; omega

/-- The weight's block is the weight. -/
theorem blk0_1_apply (c : Dev nD) (t : Fin cfg0.N) (k : Fin 40) (q Q : Fin 128) (h : Q.val = q.val) :
    (iblk0 V c 1 t : Vec Ideal S40x128 .bf16) (ix2 k q) = (V c (Pipeline.arrRef spec0 1) : S40x128.Idx → EReal) (ix2 k Q) := by
  obtain rfl : Q = q := Fin.ext h
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 40 + 1 * k.val = k.val; rw [e0]; omega
  | ⟨1, _⟩ => show win0_1.index t (1 : Fin 2) * 128 + 1 * Q.val = Q.val; rw [e1]; omega

/-- The bias row's block is the bias row. -/
theorem blk0_2_apply (c : Dev nD) (t : Fin cfg0.N) (q Q : Fin 128) (h : Q.val = q.val) :
    (iblk0 V c 2 t : Vec Ideal S1x128 .f32) (ix2 (0 : Fin 1) q) = (V c (Pipeline.arrRef spec0 2) : S1x128.Idx → EReal) (ix2 (0 : Fin 1) Q) := by
  obtain rfl : Q = q := Fin.ext h
  obtain ⟨-, -, -, -, e0, e1, -⟩ := idx_facts0 t
  unfold iblk0
  rw [View.read_apply]
  show V c main_v14 _ = V c main_v14 _
  congr 1
  funext a
  apply Fin.ext
  match a with
  | ⟨0, _⟩ => show win0_2.index t (0 : Fin 2) * 1 + 1 * (0 : Fin 1).val = (0 : Fin 1).val; rw [e0]; omega
  | ⟨1, _⟩ => show win0_2.index t (1 : Fin 2) * 128 + 1 * Q.val = Q.val; rw [e1]; omega

/-! ## What a point writes back, and the array after the region -/

/-- What point t writes back is block t of the layer's result on the arrays as the region finds them. -/
theorem flushed0_eq (c : Dev nD) (t : Fin cfg0.N) :
    (dat0 V c).flushed 3 t = ((cfg0.win 3).blk t).view.read (Elt Ideal)
      (res0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S2000x40) hz0, View.ld_unit_zero (S := S40x128) hz0, View.ld_unit_zero (S := S1x128) hz0]
  obtain ⟨-, -, -, -, -, -, e30, e31⟩ := idx_facts0 t
  funext j
  have hj0 : (j 0).val < 2000 := (j 0).isLt
  have hj1 : (j 1).val < 128 := (j 1).isLt
  have hP : ((((cfg0.win 3).blk t).view.emb j) 0).val = t.val * 2000 + (j 0).val := by
    show win0_3.index t (0 : Fin 2) * 2000 + 1 * (j 0).val = _; rw [e30]; omega
  have hQ : ((((cfg0.win 3).blk t).view.emb j) 1).val = (j 1).val := by
    show win0_3.index t (1 : Fin 2) * 128 + 1 * (j 1).val = _; rw [e31]; omega
  refine (pay0_at (iblk0 V c 0 t) (iblk0 V c 1 t) (iblk0 V c 2 t) ((cfg0.win 3).xinj (grid0.coords t) j)
    ⟨(j 0).val, hj0⟩ ⟨(j 1).val, hj1⟩ rfl rfl).trans ?_
  show _ = val0 (V c (Pipeline.arrRef spec0 0)) (V c (Pipeline.arrRef spec0 1)) (V c (Pipeline.arrRef spec0 2))
    ((((cfg0.win 3).blk t).view.emb j) 0) ((((cfg0.win 3).blk t).view.emb j) 1)
  unfold val0
  refine congrArg₂ (· + ·) (Finset.sum_congr rfl fun k _ => congrArg₂ (· * ·) ?_ ?_) ?_
  · exact blk0_0_apply V c t ⟨(j 0).val, hj0⟩ k _ hP
  · exact blk0_1_apply V c t k ⟨(j 1).val, hj1⟩ _ hQ
  · exact blk0_2_apply V c t ⟨(j 1).val, hj1⟩ _ hQ

/-- An index of the result array is in point t's block iff each coordinate is in the block's range on its axis. -/
theorem mem_blk0 (t : Fin cfg0.N) (i : S200000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- The row blocks cover the result array: row r lies in block r / 2000. -/
theorem cover0 (i : S200000x128.Idx) : ∃ t : Fin cfg0.N, (cfg0.win 3).flush t = true ∧ i ∈ ((cfg0.win 3).blk t).view.set := by
  have hi0 : (i 0).val < 200000 := idx2_lt0 i
  have hi1 : (i 1).val < 128 := idx2_lt1 i
  have hN : cfg0.N = 100 := N_0
  obtain ⟨t, ht⟩ : ∃ t : Fin cfg0.N, t.val = (i 0).val / 2000 := ⟨⟨(i 0).val / 2000, by rw [hN]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-- The result array after the region is the layer's result on the arrays as the region finds them. -/
theorem final0_arr (c : Dev nD) :
    (dat0 V c).arrAt 3 cfg0.N
      = res0 (V c (Pipeline.arrRef spec0 0)) (V c (Pipeline.arrRef spec0 1)) (V c (Pipeline.arrRef spec0 2)) :=
  (dat0 V c).arrAt_eq_of_cover 3 _ (fun t _ => flushed0_eq V c t) cover0

end

/-- Entry (p, q) of the result array after the region. -/
theorem final0 (V : (c : Dev nD) → (b : Ref sig .tc) → Buf (Elt Ideal) ((c : Thread nD τ).loc b)) (c : Dev nD) (p : Fin 200000) (q : Fin 128) :
    (Gen.dat0 (F := Ideal) V c).arrAt 3 cfg0.N (ix2 p q)
      = val0 (V c (Pipeline.arrRef spec0 0)) (V c (Pipeline.arrRef spec0 1)) (V c (Pipeline.arrRef spec0 2)) p q :=
  (congrFun (final0_arr V c) (ix2 p q)).trans rfl

/-- The same, the three arrays named by their buffers. -/
theorem final0_v (V : (c : Dev nD) → (b : Ref sig .tc) → Buf (Elt Ideal) ((c : Thread nD τ).loc b)) (c : Dev nD) (p : Fin 200000) (q : Fin 128) :
    (Gen.dat0 (F := Ideal) V c).arrAt 3 cfg0.N (ix2 p q) = val0 (V c main_v11) (V c main_v13) (V c main_v14) p q :=
  final0 V c p q

end Cert.KernelIdeal.RegVal

end
-- ==== Proof.Spec.lean ====
/-
  The vocabulary both programs' dense layers are stated in, over arrays of extended reals:
  `lin A B p q` is entry (p, q) of the matrix product A · B, `at2 A p q` an entry of a matrix and `at1 v q`
  an entry of a vector.
-/
import Idealize.ShloMosaic.Lib.ValueIdx

noncomputable section

namespace Cert.Spec

open Idealize.ShloMosaic Idealize.ShloMosaic.ValueIdx

/-- Entry (p, q) of the product of an n × K matrix with a K × w matrix. -/
def lin {n K w : ℕ} (A : (⟨2, ![n, K]⟩ : Shape).Idx → EReal) (B : (⟨2, ![K, w]⟩ : Shape).Idx → EReal)
    (p : Fin n) (q : Fin w) : EReal := ∑ k : Fin K, A (ix2 p k) * B (ix2 k q)

/-- Entry (p, q) of a matrix. -/
def at2 {n w : ℕ} (A : (⟨2, ![n, w]⟩ : Shape).Idx → EReal) (p : Fin n) (q : Fin w) : EReal := A (ix2 p q)

/-- Entry q of a vector. -/
def at1 {b : ℕ} (v : (⟨1, ![b]⟩ : Shape).Idx → EReal) (q : Fin b) : EReal := v (ix1 q)

theorem lin_def {n K w : ℕ} (A : (⟨2, ![n, K]⟩ : Shape).Idx → EReal) (B : (⟨2, ![K, w]⟩ : Shape).Idx → EReal)
    (p : Fin n) (q : Fin w) : lin A B p q = ∑ k : Fin K, A (ix2 p k) * B (ix2 k q) := rfl

/-- A matrix is determined by its entries. -/
theorem ext2 {n w : ℕ} {A B : (⟨2, ![n, w]⟩ : Shape).Idx → EReal} (h : ∀ p q, at2 A p q = at2 B p q) : A = B := by
  funext j
  rw [eq_ix2 j]
  exact h (j 0) (j 1)

end Cert.Spec

end
-- ==== Proof.KLin0.lean ====
/-
  Layer 0 of the kernel read entry by entry: the region's output array, after the run of its grid, holds at (p, q)
  the contraction of row p of the features entering the region with column q of the transposed weight.
  The arrays the region reads are what the last host stretch before it leaves: the features and the transposed
  weight rounded to a narrower format (the identity on the extended reals) and the bias row (a zero constant).
-/
import proofs.«100723_j10694468567643_1_alg».proof.Proof.Gen.KernelIdeal.Frame
import proofs.«100723_j10694468567643_1_alg».proof.Proof.Region0
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and a zero bias row, entry (p, q) is
    the contraction of row p with column q. -/
theorem pure0 (V : Valuation τ sig (Elt Ideal)) (p : Fin 200000) (q : Fin 128) :
    RegVal.val0 (truncf .bf16 (V (Proc.devRef .tc main_arg0)) bitsLt_bf16_f32 : FVec Ideal S200000x40 .bf16)
        (truncf .bf16 (transpose S40x128 [1, 0] (V (Proc.devRef .tc main_arg2)) transposes_S128x40_S40x128_1_0) bitsLt_bf16_f32 : FVec Ideal S40x128 .bf16)
        (broadcastInDim S1x128 ![] bcast_S_S1x128 (constant (F := Ideal) S_ .f32 0x00000000#32) : FVec Ideal S1x128 .f32) p q
      = Spec.lin (V (Proc.devRef .tc main_arg0)) (transpose S40x128 [1, 0] (V (Proc.devRef .tc main_arg2)) transposes_S128x40_S40x128_1_0) p q := by
  rw [RegVal.val0_def]
  have hb : (broadcastInDim S1x128 ![] bcast_S_S1x128 (constant (F := Ideal) S_ .f32 0x00000000#32)) (ix2 (0 : Fin 1) q) = (0 : EReal) :=
    (broadcastInDim_scalar_apply bcast_S_S1x128 _ _).trans Ideal.ofBits_zero_f32
  rw [hb, add_zero]
  exact Finset.sum_congr rfl fun k _ => rfl

/-- Layer 0: the region's output array at entry (p, q), over the buffer contents before the last host stretch. -/
theorem out0 (c : Dev nD) (p : Fin 200000) (q : Fin 128) :
    Spec.at2 (W2 m ρ c (Proc.devRef .tc main_v15)) p q
      = Spec.lin (W0 m ρ c (Proc.devRef .tc main_arg0)) (transpose S40x128 [1, 0] (W0 m ρ c (Proc.devRef .tc main_arg2)) transposes_S128x40_S40x128_1_0) p q := by
  have e : W2 m ρ c (Proc.devRef .tc main_v15) = (dat0 (V1 m ρ) c).arrAt 3 cfg0.N := W2_arr m ρ c 3
  have x0 : (V1 m ρ c (Pipeline.arrRef spec0 0) : (⟨S200000x40, .bf16⟩ : BufTy).Contents (Elt Ideal)) = (truncf .bf16 (W0 m ρ c (Proc.devRef .tc main_arg0)) bitsLt_bf16_f32 : FVec Ideal S200000x40 .bf16) := by
    show after hostOps0 (W0 m ρ c) (Proc.devRef .tc main_v11) = _
    after_results_simp
  have x1 : (V1 m ρ c (Pipeline.arrRef spec0 1) : (⟨S40x128, .bf16⟩ : BufTy).Contents (Elt Ideal)) = (truncf .bf16 (transpose S40x128 [1, 0] (W0 m ρ c (Proc.devRef .tc main_arg2)) transposes_S128x40_S40x128_1_0) bitsLt_bf16_f32 : FVec Ideal S40x128 .bf16) := by
    show after hostOps0 (W0 m ρ c) (Proc.devRef .tc main_v13) = _
    after_results_simp
  have x2 : (V1 m ρ c (Pipeline.arrRef spec0 2) : (⟨S1x128, .f32⟩ : BufTy).Contents (Elt Ideal)) = (broadcastInDim S1x128 ![] bcast_S_S1x128 (constant (F := Ideal) S_ .f32 0x00000000#32) : FVec Ideal S1x128 .f32) := by
    show after hostOps0 (W0 m ρ c) (Proc.devRef .tc main_v14) = _
    after_results_simp
  exact (congrFun e (ix2 p q)).trans ((RegVal.final0 (V1 m ρ) c p q).trans
    ((congr (congr (congrArg (fun a b d => RegVal.val0 a b d p q) x0) x1) x2).trans (pure0 (W0 m ρ c) p q)))

end Cert.KernelIdeal.KLin

end
-- ==== Proof.Region1.lean ====
/-
  Region 1 of the kernel, one dense layer  y = x * w + b  on row blocks of 2000 rows: what its output array
  [200000, 256] holds after the region, entry by entry, as a function of the three arrays the region reads (the rows x
  [200000, 128], the weight [128, 256] and the bias row [1, 256]) as the region finds them.  Entry (p, q) is
  sum over k < 128 of x(p, k) * w(k, q), plus b(0, q).

  The steps: the body's stored value at entry (p', q) of a block, from the three loaded blocks (the product into a zero
  accumulator is the sum over k; the bias row is broadcast down the rows); each loaded block read back
  to its array (row p' of the row block at grid point t is row t * 2000 + p' of x; the weight and the bias are whole);
  what point t writes back is block t of the whole-array function; the 100 row blocks cover the array (row r lies in
  block r / 2000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr1_0 : Pipeline.arrRef spec1 0 = main_v53 := rfl
theorem arr1_1 : Pipeline.arrRef spec1 1 = main_v55 := rfl
theorem arr1_2 : Pipeline.arrRef spec1 2 = main_v56 := rfl
theorem arr1_3 : Pipeline.arrRef spec1 3 = main_v57 := rfl

theorem hz1 : (![0, 0] : Fin 2 → Nat) = fun _ => 0 := funext fun a => by fin_cases a <;> rfl

/-! ## The layer as one function of the three arrays -/

/-- Entry (p, q) of the layer's result. -/
def val1 (A0 : S200000x128.Idx → EReal) (A1 : S128x256.Idx → EReal) (A2 : S1x256.Idx → EReal) (p : Fin 200000) (q : Fin 256) : EReal :=
  (∑ k : Fin 128, A0 (ix2 p k) * A1 (ix2 k q)) + A2 (ix2 (0 : Fin 1) q)

/-- The layer's whole result array. -/
def res1 (A0 : S200000x128.Idx → EReal) (A1 : S128x256.Idx → EReal) (A2 : S1x256.Idx → EReal) : S200000x256.Idx → EReal :=
  fun i => val1 A0 A1 A2 (i 0) (i 1)

theorem val1_def (A0 : S200000x128.Idx → EReal) (A1 : S128x256.Idx → EReal) (A2 : S1x256.Idx → EReal) (p : Fin 200000) (q : Fin 256) :
    val1 A0 A1 A2 p q = (∑ k : Fin 128, A0 (ix2 p k) * A1 (ix2 k q)) + A2 (ix2 (0 : Fin 1) q) := rfl

/-! ## The body's stored value at an entry of a block -/

/-- The stored value at entry (p, q) of a block: the product into the zero accumulator is the sum over k, the bias row is
    broadcast down the rows. -/
theorem pay1_at (x0 : Vec Ideal S2000x128 .bf16) (x1 : Vec Ideal S128x256 .bf16) (x2 : Vec Ideal S1x256 .f32)
    (y : S2000x256.Idx) (p : Fin 2000) (q : Fin 256) (hp : (y 0).val = p.val) (hq : (y 1).val = q.val) :
    k1_pay1 x0 x1 x2 y = (∑ k : Fin 128, x0 (ix2 p k) * x1 (ix2 k q)) + x2 (ix2 (0 : Fin 1) q) := by
  obtain rfl : y = ix2 p q := funext fun a => Fin.ext (by
    match a with
    | ⟨0, _⟩ => exact hp
    | ⟨1, _⟩ => exact hq)
  unfold k1_pay1
  simp only [shapeCast_self]
  refine (addf_apply _ _ _).trans ?_
  refine congrArg₂ (· + ·) ?_ ?_
  · exact Cert.LibMatmulSum.matmul_zero_at (Cert.LibMatmulSum.Plain.of_lists dot_S2000x128_S128x256_S2000x256_1_0_0_1_n_n rfl rfl rfl rfl rfl rfl)
      (φ₁ := .bf16) (φ₂ := .bf16) none x0 x1 p q
  · exact broadcastTo_1b_ab_apply x2 broadcasts_S1x256_S2000x256 p q

/-! ## The loaded blocks, read back to their arrays -/

/-- The printed index maps over the grid: the row blocks of x and of the result move with the point, the weight and the
    bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- Row p' of the row block of x at point t is row t * 2000 + p' of x. -/
theorem blk1_0_apply (c : Dev nD) (t : Fin cfg1.N) (p' : Fin 2000) (k : Fin 128) (P : Fin 200000) (h : P.val = t.val * 2000 + p'.val) :
    (iblk1 V c 0 t : Vec Ideal S2000x128 .bf16) (ix2 p' k) = (V c (Pipeline.arrRef spec1 0) : S200000x128.Idx → EReal) (ix2 P k) := by
  obtain ⟨e0, e1, -⟩ := idx_facts1 t
  unfold iblk1
  rw [View.read_apply]
  show V c main_v53 _ = V c main_v53 _
  congr 1
  funext a
  apply Fin.ext
  match a with
  | ⟨0, _⟩ => show win1_0.index t (0 : Fin 2) * 2000 + 1 * p'.val = P.val; rw [e0, h]; omega
  | ⟨1, _⟩ => show win1_0.index t (1 : Fin 2) * 128 + 1 * k.val = k.val; rw [e1]; omega

/-- The weight's block is the weight. -/
theorem blk1_1_apply (c : Dev nD) (t : Fin cfg1.N) (k : Fin 128) (q Q : Fin 256) (h : Q.val = q.val) :
    (iblk1 V c 1 t : Vec Ideal S128x256 .bf16) (ix2 k q) = (V c (Pipeline.arrRef spec1 1) : S128x256.Idx → EReal) (ix2 k Q) := by
  obtain rfl : Q = q := Fin.ext h
  obtain ⟨-, -, e0, e1, -⟩ := idx_facts1 t
  unfold iblk1
  rw [View.read_apply]
  show V c main_v55 _ = V c main_v55 _
  congr 1
  funext a
  apply Fin.ext
  match a with
  | ⟨0, _⟩ => show win1_1.index t (0 : Fin 2) * 128 + 1 * k.val = k.val; rw [e0]; omega
  | ⟨1, _⟩ => show win1_1.index t (1 : Fin 2) * 256 + 1 * Q.val = Q.val; rw [e1]; omega

/-- The bias row's block is the bias row. -/
theorem blk1_2_apply (c : Dev nD) (t : Fin cfg1.N) (q Q : Fin 256) (h : Q.val = q.val) :
    (iblk1 V c 2 t : Vec Ideal S1x256 .f32) (ix2 (0 : Fin 1) q) = (V c (Pipeline.arrRef spec1 2) : S1x256.Idx → EReal) (ix2 (0 : Fin 1) Q) := by
  obtain rfl : Q = q := Fin.ext h
  obtain ⟨-, -, -, -, e0, e1, -⟩ := idx_facts1 t
  unfold iblk1
  rw [View.read_apply]
  show V c main_v56 _ = V c main_v56 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 256 + 1 * Q.val = Q.val; rw [e1]; omega

/-! ## What a point writes back, and the array after the region -/

/-- What point t writes back is block t of the layer's result on the arrays as the region finds them. -/
theorem flushed1_eq (c : Dev nD) (t : Fin cfg1.N) :
    (dat1 V c).flushed 3 t = ((cfg1.win 3).blk t).view.read (Elt Ideal)
      (res1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x256) hz1, View.ld_unit_zero (S := S1x256) hz1]
  obtain ⟨-, -, -, -, -, -, e30, e31⟩ := idx_facts1 t
  funext j
  have hj0 : (j 0).val < 2000 := (j 0).isLt
  have hj1 : (j 1).val < 256 := (j 1).isLt
  have hP : ((((cfg1.win 3).blk t).view.emb j) 0).val = t.val * 2000 + (j 0).val := by
    show win1_3.index t (0 : Fin 2) * 2000 + 1 * (j 0).val = _; rw [e30]; omega
  have hQ : ((((cfg1.win 3).blk t).view.emb j) 1).val = (j 1).val := by
    show win1_3.index t (1 : Fin 2) * 256 + 1 * (j 1).val = _; rw [e31]; omega
  refine (pay1_at (iblk1 V c 0 t) (iblk1 V c 1 t) (iblk1 V c 2 t) ((cfg1.win 3).xinj (grid1.coords t) j)
    ⟨(j 0).val, hj0⟩ ⟨(j 1).val, hj1⟩ rfl rfl).trans ?_
  show _ = val1 (V c (Pipeline.arrRef spec1 0)) (V c (Pipeline.arrRef spec1 1)) (V c (Pipeline.arrRef spec1 2))
    ((((cfg1.win 3).blk t).view.emb j) 0) ((((cfg1.win 3).blk t).view.emb j) 1)
  unfold val1
  refine congrArg₂ (· + ·) (Finset.sum_congr rfl fun k _ => congrArg₂ (· * ·) ?_ ?_) ?_
  · exact blk1_0_apply V c t ⟨(j 0).val, hj0⟩ k _ hP
  · exact blk1_1_apply V c t k ⟨(j 1).val, hj1⟩ _ hQ
  · exact blk1_2_apply V c t ⟨(j 1).val, hj1⟩ _ hQ

/-- An index of the result array is in point t's block iff each coordinate is in the block's range on its axis. -/
theorem mem_blk1 (t : Fin cfg1.N) (i : S200000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v57).slice (win1_3.rect t)).set ↔ _
  rw [View.set_slice_whole, Rect.mem_set_unit]
  exact Iff.rfl

/-- The row blocks cover the result array: row r lies in block r / 2000. -/
theorem cover1 (i : S200000x256.Idx) : ∃ t : Fin cfg1.N, (cfg1.win 3).flush t = true ∧ i ∈ ((cfg1.win 3).blk t).view.set := by
  have hi0 : (i 0).val < 200000 := idx2_lt0 i
  have hi1 : (i 1).val < 256 := idx2_lt1 i
  have hN : cfg1.N = 100 := N_1
  obtain ⟨t, ht⟩ : ∃ t : Fin cfg1.N, t.val = (i 0).val / 2000 := ⟨⟨(i 0).val / 2000, by rw [hN]; omega⟩, rfl⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e30, ht]; omega
  | ⟨1, _⟩ =>
    show win1_3.index t (1 : Fin 2) * 256 ≤ (i 1).val ∧ (i 1).val < win1_3.index t (1 : Fin 2) * 256 + 256
    rw [e31]; omega

/-- The result array after the region is the layer's result on the arrays as the region finds them. -/
theorem final1_arr (c : Dev nD) :
    (dat1 V c).arrAt 3 cfg1.N
      = res1 (V c (Pipeline.arrRef spec1 0)) (V c (Pipeline.arrRef spec1 1)) (V c (Pipeline.arrRef spec1 2)) :=
  (dat1 V c).arrAt_eq_of_cover 3 _ (fun t _ => flushed1_eq V c t) cover1

end

/-- Entry (p, q) of the result array after the region. -/
theorem final1 (V : (c : Dev nD) → (b : Ref sig .tc) → Buf (Elt Ideal) ((c : Thread nD τ).loc b)) (c : Dev nD) (p : Fin 200000) (q : Fin 256) :
    (Gen.dat1 (F := Ideal) V c).arrAt 3 cfg1.N (ix2 p q)
      = val1 (V c (Pipeline.arrRef spec1 0)) (V c (Pipeline.arrRef spec1 1)) (V c (Pipeline.arrRef spec1 2)) p q :=
  (congrFun (final1_arr V c) (ix2 p q)).trans rfl

/-- The same, the three arrays named by their buffers. -/
theorem final1_v (V : (c : Dev nD) → (b : Ref sig .tc) → Buf (Elt Ideal) ((c : Thread nD τ).loc b)) (c : Dev nD) (p : Fin 200000) (q : Fin 256) :
    (Gen.dat1 (F := Ideal) V c).arrAt 3 cfg1.N (ix2 p q) = val1 (V c main_v53) (V c main_v55) (V c main_v56) p q :=
  final1 V c p q

end Cert.KernelIdeal.RegVal

end
-- ==== Proof.KLin1.lean ====
/-
  Layer 1 of the kernel read entry by entry: the region's output array, after the run of its grid, holds at (p, q)
  the contraction of row p of the features entering the region with column q of the transposed weight.
  The arrays the region reads are what the last host stretch before it leaves: the features and the transposed
  weight rounded to a narrower format (the identity on the extended reals) and the bias row (a zero constant).
-/
import proofs.«100723_j10694468567643_1_alg».proof.Proof.Gen.KernelIdeal.Frame
import proofs.«100723_j10694468567643_1_alg».proof.Proof.Region1
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and a zero bias row, entry (p, q) is
    the contraction of row p with column q. -/
theorem pure1 (V : Valuation τ sig (Elt Ideal)) (p : Fin 200000) (q : Fin 256) :
    RegVal.val1 (truncf .bf16 (V (Proc.devRef .tc main_v52)) bitsLt_bf16_f32 : FVec Ideal S200000x128 .bf16)
        (truncf .bf16 (transpose S128x256 [1, 0] (V (Proc.devRef .tc main_arg4)) transposes_S256x128_S128x256_1_0) bitsLt_bf16_f32 : FVec Ideal S128x256 .bf16)
        (broadcastInDim S1x256 ![] bcast_S_S1x256 (constant (F := Ideal) S_ .f32 0x00000000#32) : FVec Ideal S1x256 .f32) p q
      = Spec.lin (V (Proc.devRef .tc main_v52)) (transpose S128x256 [1, 0] (V (Proc.devRef .tc main_arg4)) transposes_S256x128_S128x256_1_0) p q := by
  rw [RegVal.val1_def]
  have hb : (broadcastInDim S1x256 ![] bcast_S_S1x256 (constant (F := Ideal) S_ .f32 0x00000000#32)) (ix2 (0 : Fin 1) q) = (0 : EReal) :=
    (broadcastInDim_scalar_apply bcast_S_S1x256 _ _).trans Ideal.ofBits_zero_f32
  rw [hb, add_zero]
  exact Finset.sum_congr rfl fun k _ => rfl

/-- Layer 1: the region's output array at entry (p, q), over the buffer contents before the last host stretch. -/
theorem out1 (c : Dev nD) (p : Fin 200000) (q : Fin 256) :
    Spec.at2 (W6 m ρ c (Proc.devRef .tc main_v57)) p q
      = Spec.lin (W4 m ρ c (Proc.devRef .tc main_v52)) (transpose S128x256 [1, 0] (W4 m ρ c (Proc.devRef .tc main_arg4)) transposes_S256x128_S128x256_1_0) p q := by
  have e : W6 m ρ c (Proc.devRef .tc main_v57) = (dat1 (V5 m ρ) c).arrAt 3 cfg1.N := W6_arr m ρ c 3
  have x0 : (V5 m ρ c (Pipeline.arrRef spec1 0) : (⟨S200000x128, .bf16⟩ : BufTy).Contents (Elt Ideal)) = (truncf .bf16 (W4 m ρ c (Proc.devRef .tc main_v52)) bitsLt_bf16_f32 : FVec Ideal S200000x128 .bf16) := by
    show after hostOps1_2 (W4 m ρ c) (Proc.devRef .tc main_v53) = _
    generalize W4 m ρ c = V
    after_results_simp
  have x1 : (V5 m ρ c (Pipeline.arrRef spec1 1) : (⟨S128x256, .bf16⟩ : BufTy).Contents (Elt Ideal)) = (truncf .bf16 (transpose S128x256 [1, 0] (W4 m ρ c (Proc.devRef .tc main_arg4)) transposes_S256x128_S128x256_1_0) bitsLt_bf16_f32 : FVec Ideal S128x256 .bf16) := by
    show after hostOps1_2 (W4 m ρ c) (Proc.devRef .tc main_v55) = _
    generalize W4 m ρ c = V
    after_results_simp
  have x2 : (V5 m ρ c (Pipeline.arrRef spec1 2) : (⟨S1x256, .f32⟩ : BufTy).Contents (Elt Ideal)) = (broadcastInDim S1x256 ![] bcast_S_S1x256 (constant (F := Ideal) S_ .f32 0x00000000#32) : FVec Ideal S1x256 .f32) := by
    show after hostOps1_2 (W4 m ρ c) (Proc.devRef .tc main_v56) = _
    generalize W4 m ρ c = V
    after_results_simp
  exact (congrFun e (ix2 p q)).trans ((RegVal.final1 (V5 m ρ) c p q).trans
    ((congr (congr (congrArg (fun a b d => RegVal.val1 a b d p q) x0) x1) x2).trans (pure1 (W4 m ρ c) p q)))

end Cert.KernelIdeal.KLin

end
-- ==== Proof.Region2.lean ====
/-
  Region 2 of the kernel, one dense layer  y = x * w + b  on row blocks of 2000 rows: what its output array
  [200000, 128] holds after the region, entry by entry, as a function of the three arrays the region reads (the rows x
  [200000, 256], the weight [256, 128] and the bias row [1, 128]) as the region finds them.  Entry (p, q) is
  sum over k < 256 of x(p, k) * w(k, q), plus b(0, q).

  The steps: the body's stored value at entry (p', q) of a block, from the three loaded blocks (the product into a zero
  accumulator is the sum over k; the bias row is broadcast down the rows); each loaded block read back
  to its array (row p' of the row block at grid point t is row t * 2000 + p' of x; the weight and the bias are whole);
  what point t writes back is block t of the whole-array function; the 100 row blocks cover the array (row r lies in
  block r / 2000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr2_0 : Pipeline.arrRef spec2 0 = main_v95 := rfl
theorem arr2_1 : Pipeline.arrRef spec2 1 = main_v97 := rfl
theorem arr2_2 : Pipeline.arrRef spec2 2 = main_v98 := rfl
theorem arr2_3 : Pipeline.arrRef spec2 3 = main_v99 := rfl

theorem hz2 : (![0, 0] : Fin 2 → Nat) = fun _ => 0 := funext fun a => by fin_cases a <;> rfl

/-! ## The layer as one function of the three arrays -/

/-- Entry (p, q) of the layer's result. -/
def val2 (A0 : S200000x256.Idx → EReal) (A1 : S256x128.Idx → EReal) (A2 : S1x128.Idx → EReal) (p : Fin 200000) (q : Fin 128) : EReal :=
  (∑ k : Fin 256, A0 (ix2 p k) * A1 (ix2 k q)) + A2 (ix2 (0 : Fin 1) q)

/-- The layer's whole result array. -/
def res2 (A0 : S200000x256.Idx → EReal) (A1 : S256x128.Idx → EReal) (A2 : S1x128.Idx → EReal) : S200000x128.Idx → EReal :=
  fun i => val2 A0 A1 A2 (i 0) (i 1)

theorem val2_def (A0 : S200000x256.Idx → EReal) (A1 : S256x128.Idx → EReal) (A2 : S1x128.Idx → EReal) (p : Fin 200000) (q : Fin 128) :
    val2 A0 A1 A2 p q = (∑ k : Fin 256, A0 (ix2 p k) * A1 (ix2 k q)) + A2 (ix2 (0 : Fin 1) q) := rfl

/-! ## The body's stored value at an entry of a block -/

/-- The stored value at entry (p, q) of a block: the product into the zero accumulator is the sum over k, the bias row is
    broadcast down the rows. -/
theorem pay2_at (x0 : Vec Ideal S2000x256 .bf16) (x1 : Vec Ideal S256x128 .bf16) (x2 : Vec Ideal S1x128 .f32)
    (y : S2000x128.Idx) (p : Fin 2000) (q : Fin 128) (hp : (y 0).val = p.val) (hq : (y 1).val = q.val) :
    k2_pay1 x0 x1 x2 y = (∑ k : Fin 256, x0 (ix2 p k) * x1 (ix2 k q)) + x2 (ix2 (0 : Fin 1) q) := by
  obtain rfl : y = ix2 p q := funext fun a => Fin.ext (by
    match a with
    | ⟨0, _⟩ => exact hp
    | ⟨1, _⟩ => exact hq)
  unfold k2_pay1
  simp only [shapeCast_self]
  refine (addf_apply _ _ _).trans ?_
  refine congrArg₂ (· + ·) ?_ ?_
  · exact Cert.LibMatmulSum.matmul_zero_at (Cert.LibMatmulSum.Plain.of_lists dot_S2000x256_S256x128_S2000x128_1_0_0_1_n_n rfl rfl rfl rfl rfl rfl)
      (φ₁ := .bf16) (φ₂ := .bf16) none x0 x1 p q
  · exact broadcastTo_1b_ab_apply x2 broadcasts_S1x128_S2000x128 p q

/-! ## The loaded blocks, read back to their arrays -/

/-- The printed index maps over the grid: the row blocks of x and of the result move with the point, the weight and the
    bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- Row p' of the row block of x at point t is row t * 2000 + p' of x. -/
theorem blk2_0_apply (c : Dev nD) (t : Fin cfg2.N) (p' : Fin 2000) (k : Fin 256) (P : Fin 200000) (h : P.val = t.val * 2000 + p'.val) :
    (iblk2 V c 0 t : Vec Ideal S2000x256 .bf16) (ix2 p' k) = (V c (Pipeline.arrRef spec2 0) : S200000x256.Idx → EReal) (ix2 P k) := by
  obtain ⟨e0, e1, -⟩ := idx_facts2 t
  unfold iblk2
  rw [View.read_apply]
  show V c main_v95 _ = V c main_v95 _
  congr 1
  funext a
  apply Fin.ext
  match a with
  | ⟨0, _⟩ => show win2_0.index t (0 : Fin 2) * 2000 + 1 * p'.val = P.val; rw [e0, h]; omega
  | ⟨1, _⟩ => show win2_0.index t (1 : Fin 2) * 256 + 1 * k.val = k.val; rw [e1]; omega

/-- The weight's block is the weight. -/
theorem blk2_1_apply (c : Dev nD) (t : Fin cfg2.N) (k : Fin 256) (q Q : Fin 128) (h : Q.val = q.val) :
    (iblk2 V c 1 t : Vec Ideal S256x128 .bf16) (ix2 k q) = (V c (Pipeline.arrRef spec2 1) : S256x128.Idx → EReal) (ix2 k Q) := by
  obtain rfl : Q = q := Fin.ext h
  obtain ⟨-, -, e0, e1, -⟩ := idx_facts2 t
  unfold iblk2
  rw [View.read_apply]
  show V c main_v97 _ = V c main_v97 _
  congr 1
  funext a
  apply Fin.ext
  match a with
  | ⟨0, _⟩ => show win2_1.index t (0 : Fin 2) * 256 + 1 * k.val = k.val; rw [e0]; omega
  | ⟨1, _⟩ => show win2_1.index t (1 : Fin 2) * 128 + 1 * Q.val = Q.val; rw [e1]; omega

/-- The bias row's block is the bias row. -/
theorem blk2_2_apply (c : Dev nD) (t : Fin cfg2.N) (q Q : Fin 128) (h : Q.val = q.val) :
    (iblk2 V c 2 t : Vec Ideal S1x128 .f32) (ix2 (0 : Fin 1) q) = (V c (Pipeline.arrRef spec2 2) : S1x128.Idx → EReal) (ix2 (0 : Fin 1) Q) := by
  obtain rfl : Q = q := Fin.ext h
  obtain ⟨-, -, -, -, e0, e1, -⟩ := idx_facts2 t
  unfold iblk2
  rw [View.read_apply]
  show V c main_v98 _ = V c main_v98 _
  congr 1
  funext a
  apply Fin.ext
  match a with
  | ⟨0, _⟩ => show win2_2.index t (0 : Fin 2) * 1 + 1 * (0 : Fin 1).val = (0 : Fin 1).val; rw [e0]; omega
  | ⟨1, _⟩ => show win2_2.index t (1 : Fin 2) * 128 + 1 * Q.val = Q.val; rw [e1]; omega

/-! ## What a point writes back, and the array after the region -/

/-- What point t writes back is block t of the layer's result on the arrays as the region finds them. -/
theorem flushed2_eq (c : Dev nD) (t : Fin cfg2.N) :
    (dat2 V c).flushed 3 t = ((cfg2.win 3).blk t).view.read (Elt Ideal)
      (res2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S256x128) hz2, View.ld_unit_zero (S := S1x128) hz2]
  obtain ⟨-, -, -, -, -, -, e30, e31⟩ := idx_facts2 t
  funext j
  have hj0 : (j 0).val < 2000 := (j 0).isLt
  have hj1 : (j 1).val < 128 := (j 1).isLt
  have hP : ((((cfg2.win 3).blk t).view.emb j) 0).val = t.val * 2000 + (j 0).val := by
    show win2_3.index t (0 : Fin 2) * 2000 + 1 * (j 0).val = _; rw [e30]; omega
  have hQ : ((((cfg2.win 3).blk t).view.emb j) 1).val = (j 1).val := by
    show win2_3.index t (1 : Fin 2) * 128 + 1 * (j 1).val = _; rw [e31]; omega
  refine (pay2_at (iblk2 V c 0 t) (iblk2 V c 1 t) (iblk2 V c 2 t) ((cfg2.win 3).xinj (grid2.coords t) j)
    ⟨(j 0).val, hj0⟩ ⟨(j 1).val, hj1⟩ rfl rfl).trans ?_
  show _ = val2 (V c (Pipeline.arrRef spec2 0)) (V c (Pipeline.arrRef spec2 1)) (V c (Pipeline.arrRef spec2 2))
    ((((cfg2.win 3).blk t).view.emb j) 0) ((((cfg2.win 3).blk t).view.emb j) 1)
  unfold val2
  refine congrArg₂ (· + ·) (Finset.sum_congr rfl fun k _ => congrArg₂ (· * ·) ?_ ?_) ?_
  · exact blk2_0_apply V c t ⟨(j 0).val, hj0⟩ k _ hP
  · exact blk2_1_apply V c t k ⟨(j 1).val, hj1⟩ _ hQ
  · exact blk2_2_apply V c t ⟨(j 1).val, hj1⟩ _ hQ

/-- An index of the result array is in point t's block iff each coordinate is in the block's range on its axis. -/
theorem mem_blk2 (t : Fin cfg2.N) (i : S200000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v99).slice (win2_3.rect t)).set ↔ _
  rw [View.set_slice_whole, Rect.mem_set_unit]
  exact Iff.rfl

/-- The row blocks cover the result array: row r lies in block r / 2000. -/
theorem cover2 (i : S200000x128.Idx) : ∃ t : Fin cfg2.N, (cfg2.win 3).flush t = true ∧ i ∈ ((cfg2.win 3).blk t).view.set := by
  have hi0 : (i 0).val < 200000 := idx2_lt0 i
  have hi1 : (i 1).val < 128 := idx2_lt1 i
  have hN : cfg2.N = 100 := N_2
  obtain ⟨t, ht⟩ : ∃ t : Fin cfg2.N, t.val = (i 0).val / 2000 := ⟨⟨(i 0).val / 2000, by rw [hN]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e30, ht]; omega
  | ⟨1, _⟩ =>
    show win2_3.index t (1 : Fin 2) * 128 ≤ (i 1).val ∧ (i 1).val < win2_3.index t (1 : Fin 2) * 128 + 128
    rw [e31]; omega

/-- The result array after the region is the layer's result on the arrays as the region finds them. -/
theorem final2_arr (c : Dev nD) :
    (dat2 V c).arrAt 3 cfg2.N
      = res2 (V c (Pipeline.arrRef spec2 0)) (V c (Pipeline.arrRef spec2 1)) (V c (Pipeline.arrRef spec2 2)) :=
  (dat2 V c).arrAt_eq_of_cover 3 _ (fun t _ => flushed2_eq V c t) cover2

end

/-- Entry (p, q) of the result array after the region. -/
theorem final2 (V : (c : Dev nD) → (b : Ref sig .tc) → Buf (Elt Ideal) ((c : Thread nD τ).loc b)) (c : Dev nD) (p : Fin 200000) (q : Fin 128) :
    (Gen.dat2 (F := Ideal) V c).arrAt 3 cfg2.N (ix2 p q)
      = val2 (V c (Pipeline.arrRef spec2 0)) (V c (Pipeline.arrRef spec2 1)) (V c (Pipeline.arrRef spec2 2)) p q :=
  (congrFun (final2_arr V c) (ix2 p q)).trans rfl

/-- The same, the three arrays named by their buffers. -/
theorem final2_v (V : (c : Dev nD) → (b : Ref sig .tc) → Buf (Elt Ideal) ((c : Thread nD τ).loc b)) (c : Dev nD) (p : Fin 200000) (q : Fin 128) :
    (Gen.dat2 (F := Ideal) V c).arrAt 3 cfg2.N (ix2 p q) = val2 (V c main_v95) (V c main_v97) (V c main_v98) p q :=
  final2 V c p q

end Cert.KernelIdeal.RegVal

end
-- ==== Proof.KLin2.lean ====
/-
  Layer 2 of the kernel read entry by entry: the region's output array, after the run of its grid, holds at (p, q)
  the contraction of row p of the features entering the region with column q of the transposed weight.
  The arrays the region reads are what the last host stretch before it leaves: the features and the transposed
  weight rounded to a narrower format (the identity on the extended reals) and the bias row (a zero constant).
-/
import proofs.«100723_j10694468567643_1_alg».proof.Proof.Gen.KernelIdeal.Frame
import proofs.«100723_j10694468567643_1_alg».proof.Proof.Region2
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and a zero bias row, entry (p, q) is
    the contraction of row p with column q. -/
theorem pure2 (V : Valuation τ sig (Elt Ideal)) (p : Fin 200000) (q : Fin 128) :
    RegVal.val2 (truncf .bf16 (V (Proc.devRef .tc main_v94)) bitsLt_bf16_f32 : FVec Ideal S200000x256 .bf16)
        (truncf .bf16 (transpose S256x128 [1, 0] (V (Proc.devRef .tc main_arg6)) transposes_S128x256_S256x128_1_0) bitsLt_bf16_f32 : FVec Ideal S256x128 .bf16)
        (broadcastInDim S1x128 ![] bcast_S_S1x128 (constant (F := Ideal) S_ .f32 0x00000000#32) : FVec Ideal S1x128 .f32) p q
      = Spec.lin (V (Proc.devRef .tc main_v94)) (transpose S256x128 [1, 0] (V (Proc.devRef .tc main_arg6)) transposes_S128x256_S256x128_1_0) p q := by
  rw [RegVal.val2_def]
  have hb : (broadcastInDim S1x128 ![] bcast_S_S1x128 (constant (F := Ideal) S_ .f32 0x00000000#32)) (ix2 (0 : Fin 1) q) = (0 : EReal) :=
    (broadcastInDim_scalar_apply bcast_S_S1x128 _ _).trans Ideal.ofBits_zero_f32
  rw [hb, add_zero]
  exact Finset.sum_congr rfl fun k _ => rfl

/-- Layer 2: the region's output array at entry (p, q), over the buffer contents before the last host stretch. -/
theorem out2 (c : Dev nD) (p : Fin 200000) (q : Fin 128) :
    Spec.at2 (W10 m ρ c (Proc.devRef .tc main_v99)) p q
      = Spec.lin (W8 m ρ c (Proc.devRef .tc main_v94)) (transpose S256x128 [1, 0] (W8 m ρ c (Proc.devRef .tc main_arg6)) transposes_S128x256_S256x128_1_0) p q := by
  have e : W10 m ρ c (Proc.devRef .tc main_v99) = (dat2 (V9 m ρ) c).arrAt 3 cfg2.N := W10_arr m ρ c 3
  have x0 : (V9 m ρ c (Pipeline.arrRef spec2 0) : (⟨S200000x256, .bf16⟩ : BufTy).Contents (Elt Ideal)) = (truncf .bf16 (W8 m ρ c (Proc.devRef .tc main_v94)) bitsLt_bf16_f32 : FVec Ideal S200000x256 .bf16) := by
    show after hostOps2_2 (W8 m ρ c) (Proc.devRef .tc main_v95) = _
    generalize W8 m ρ c = V
    after_results_simp
  have x1 : (V9 m ρ c (Pipeline.arrRef spec2 1) : (⟨S256x128, .bf16⟩ : BufTy).Contents (Elt Ideal)) = (truncf .bf16 (transpose S256x128 [1, 0] (W8 m ρ c (Proc.devRef .tc main_arg6)) transposes_S128x256_S256x128_1_0) bitsLt_bf16_f32 : FVec Ideal S256x128 .bf16) := by
    show after hostOps2_2 (W8 m ρ c) (Proc.devRef .tc main_v97) = _
    generalize W8 m ρ c = V
    after_results_simp
  have x2 : (V9 m ρ c (Pipeline.arrRef spec2 2) : (⟨S1x128, .f32⟩ : BufTy).Contents (Elt Ideal)) = (broadcastInDim S1x128 ![] bcast_S_S1x128 (constant (F := Ideal) S_ .f32 0x00000000#32) : FVec Ideal S1x128 .f32) := by
    show after hostOps2_2 (W8 m ρ c) (Proc.devRef .tc main_v98) = _
    generalize W8 m ρ c = V
    after_results_simp
  exact (congrFun e (ix2 p q)).trans ((RegVal.final2 (V9 m ρ) c p q).trans
    ((congr (congr (congrArg (fun a b d => RegVal.val2 a b d p q) x0) x1) x2).trans (pure2 (W8 m ρ c) p q)))

end Cert.KernelIdeal.KLin

end
-- ==== Proof.ActDefs.lean ====
/-
  The two activations of the kernel's dense layers, as functions on the extended reals, in the spelling the kernel body's
  operations give entry by entry: the leaky rectifier (compare with zero, scale by the slope, select) and the logistic
  function (one over one plus the exponential of zero minus y).
-/
import Idealize.ShloMosaic.PureOps.Ideal.Laws

noncomputable section

namespace Cert.KernelIdeal.RegVal

open Idealize.ShloMosaic

/-- The leaky rectifier: y where y is positive, y times the slope (the f32 word 0x3DCCCCCD read exactly) elsewhere. -/
def lrelu (y : EReal) : EReal := if 0 < y then y else y * Ideal.ofBits .f32 0x3DCCCCCD#32

/-- A select on the comparison "greater than zero" between y and y times the slope is the leaky rectifier. -/
theorem lrelu_eq (y : EReal) :
    Scalar.select (Ideal.cmp .ogt y (Ideal.ofBits .f32 0x00000000#32)) y (y * Ideal.ofBits .f32 0x3DCCCCCD#32) = lrelu y := by
  show (if BitVec.ofBool (decide (Ideal.ofBits .f32 0x00000000#32 < y)) = 1#1 then y else y * Ideal.ofBits .f32 0x3DCCCCCD#32)
    = if 0 < y then y else y * Ideal.ofBits .f32 0x3DCCCCCD#32
  rw [Ideal.ofBits_zero_f32]
  by_cases h : (0 : EReal) < y
  · rw [if_pos h, decide_eq_true h]; rfl
  · rw [if_neg h, decide_eq_false h]; rfl

/-- The logistic function as the body computes it: one over one plus the exponential of zero minus y (the f32 words for one
    and zero read exactly; the division and the exponential are the extended reals'). -/
def sigm (y : EReal) : EReal :=
  Ideal.div (Ideal.ofBits .f32 0x3F800000#32) (Ideal.ofBits .f32 0x3F800000#32 + Ideal.exp (Ideal.ofBits .f32 0x00000000#32 - y))

end Cert.KernelIdeal.RegVal

end
-- ==== Proof.Region3.lean ====
/-
  Region 3 of the kernel, one dense layer  y = act(x * w + b)  on row blocks of 1000 rows: what its output array
  [5000, 512] holds after the region, entry by entry, as a function of the three arrays the region reads (the rows x
  [5000, 5120], the weight [5120, 512] and the bias row [1, 512]) as the region finds them.  Entry (p, q) is
  act(sum over k < 5120 of x(p, k) * w(k, q), plus b(0, q)).

  The steps: the body's stored value at entry (p', q) of a block, from the three loaded blocks (the product into a zero
  accumulator is the sum over k; the bias row is broadcast down the rows; the activation is applied entry by entry); each loaded block read back
  to its array (row p' of the row block at grid point t is row t * 1000 + p' of x; the weight and the bias are whole);
  what point t writes back is block t of the whole-array function; the 5 row blocks cover the array (row r lies in
  block r / 1000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import proofs.«100723_j10694468567643_1_alg».proof.Proof.ActDefs
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr3_0 : Pipeline.arrRef spec3 0 = main_v138 := rfl
theorem arr3_1 : Pipeline.arrRef spec3 1 = main_v140 := rfl
theorem arr3_2 : Pipeline.arrRef spec3 2 = main_v141 := rfl
theorem arr3_3 : Pipeline.arrRef spec3 3 = main_v142 := rfl

theorem hz3 : (![0, 0] : Fin 2 → Nat) = fun _ => 0 := funext fun a => by fin_cases a <;> rfl

/-! ## The layer as one function of the three arrays -/

/-- Entry (p, q) of the layer's result. -/
def val3 (A0 : S5000x5120.Idx → EReal) (A1 : S5120x512.Idx → EReal) (A2 : S1x512.Idx → EReal) (p : Fin 5000) (q : Fin 512) : EReal :=
  lrelu ((∑ k : Fin 5120, A0 (ix2 p k) * A1 (ix2 k q)) + A2 (ix2 (0 : Fin 1) q))

/-- The layer's whole result array. -/
def res3 (A0 : S5000x5120.Idx → EReal) (A1 : S5120x512.Idx → EReal) (A2 : S1x512.Idx → EReal) : S5000x512.Idx → EReal :=
  fun i => val3 A0 A1 A2 (i 0) (i 1)

theorem val3_def (A0 : S5000x5120.Idx → EReal) (A1 : S5120x512.Idx → EReal) (A2 : S1x512.Idx → EReal) (p : Fin 5000) (q : Fin 512) :
    val3 A0 A1 A2 p q = lrelu ((∑ k : Fin 5120, A0 (ix2 p k) * A1 (ix2 k q)) + A2 (ix2 (0 : Fin 1) q)) := rfl

/-! ## The body's stored value at an entry of a block -/

/-- The body's compare, scale and select on a block, entry by entry, is the activation. -/
theorem lrelu_vec3 (v : FVec Ideal S1000x512 .f32) (i : S1000x512.Idx) :
    select (cmpf .ogt v (broadcast S1000x512 (Scalar.ofBits .f32 0x00000000#32 : Ideal .f32))) v
      (mulf v (broadcast S1000x512 (Scalar.ofBits .f32 0x3DCCCCCD#32 : Ideal .f32))) i = lrelu (v i) :=
  lrelu_eq (v i)

/-- The product into the zero accumulator plus the broadcast bias row, at entry (p, q) of a block. -/
theorem lin3_at (x0 : FVec Ideal S1000x5120 .bf16) (x1 : FVec Ideal S5120x512 .bf16) (x2 : FVec Ideal S1x512 .f32) (p : Fin 1000) (q : Fin 512) :
    (addf (matmul (F := Ideal) dot_S1000x5120_S5120x512_S1000x512_1_0_0_1_n_n none x0 x1 (constant (F := Ideal) S1000x512 .f32 0x00000000#32))
      (broadcastTo S1000x512 x2 broadcasts_S1x512_S1000x512) : FVec Ideal S1000x512 .f32) (ix2 p q)
      = (∑ k : Fin 5120, x0 (ix2 p k) * x1 (ix2 k q)) + x2 (ix2 (0 : Fin 1) q) := by
  refine (addf_apply _ _ _).trans ?_
  refine congrArg₂ (· + ·) ?_ ?_
  · exact Cert.LibMatmulSum.matmul_zero_at (Cert.LibMatmulSum.Plain.of_lists dot_S1000x5120_S5120x512_S1000x512_1_0_0_1_n_n rfl rfl rfl rfl rfl rfl)
      (φ₁ := .bf16) (φ₂ := .bf16) none x0 x1 p q
  · exact broadcastTo_1b_ab_apply x2 broadcasts_S1x512_S1000x512 p q

/-- The stored value at entry (p, q) of a block: the activation of the sum over k plus the bias. -/
theorem pay3_at (x0 : Vec Ideal S1000x5120 .bf16) (x1 : Vec Ideal S5120x512 .bf16) (x2 : Vec Ideal S1x512 .f32)
    (y : S1000x512.Idx) (p : Fin 1000) (q : Fin 512) (hp : (y 0).val = p.val) (hq : (y 1).val = q.val) :
    k3_pay1 x0 x1 x2 y = lrelu ((∑ k : Fin 5120, x0 (ix2 p k) * x1 (ix2 k q)) + x2 (ix2 (0 : Fin 1) q)) := by
  obtain rfl : y = ix2 p q := funext fun a => Fin.ext (by
    match a with
    | ⟨0, _⟩ => exact hp
    | ⟨1, _⟩ => exact hq)
  unfold k3_pay1
  simp only [shapeCast_self]
  refine (lrelu_vec3 _ _).trans ?_
  exact congrArg lrelu (lin3_at x0 x1 x2 p q)

/-! ## The loaded blocks, read back to their arrays -/

/-- The printed index maps over the grid: the row blocks of x and of the result move with the point, the weight and the
    bias stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- Row p' of the row block of x at point t is row t * 1000 + p' of x. -/
theorem blk3_0_apply (c : Dev nD) (t : Fin cfg3.N) (p' : Fin 1000) (k : Fin 5120) (P : Fin 5000) (h : P.val = t.val * 1000 + p'.val) :
    (iblk3 V c 0 t : Vec Ideal S1000x5120 .bf16) (ix2 p' k) = (V c (Pipeline.arrRef spec3 0) : S5000x5120.Idx → EReal) (ix2 P k) := by
  obtain ⟨e0, e1, -⟩ := idx_facts3 t
  unfold iblk3
  rw [View.read_apply]
  show V c main_v138 _ = V c main_v138 _
  congr 1
  funext a
  apply Fin.ext
  match a with
  | ⟨0, _⟩ => show win3_0.index t (0 : Fin 2) * 1000 + 1 * p'.val = P.val; rw [e0, h]; omega
  | ⟨1, _⟩ => show win3_0.index t (1 : Fin 2) * 5120 + 1 * k.val = k.val; rw [e1]; omega

/-- The weight's block is the weight. -/
theorem blk3_1_apply (c : Dev nD) (t : Fin cfg3.N) (k : Fin 5120) (q Q : Fin 512) (h : Q.val = q.val) :
    (iblk3 V c 1 t : Vec Ideal S5120x512 .bf16) (ix2 k q) = (V c (Pipeline.arrRef spec3 1) : S5120x512.Idx → EReal) (ix2 k Q) := by
  obtain rfl : Q = q := Fin.ext h
  obtain ⟨-, -, e0, e1, -⟩ := idx_facts3 t
  unfold iblk3
  rw [View.read_apply]
  show V c main_v140 _ = V c main_v140 _
  congr 1
  funext a
  apply Fin.ext
  match a with
  | ⟨0, _⟩ => show win3_1.index t (0 : Fin 2) * 5120 + 1 * k.val = k.val; rw [e0]; omega
  | ⟨1, _⟩ => show win3_1.index t (1 : Fin 2) * 512 + 1 * Q.val = Q.val; rw [e1]; omega

/-- The bias row's block is the bias row. -/
theorem blk3_2_apply (c : Dev nD) (t : Fin cfg3.N) (q Q : Fin 512) (h : Q.val = q.val) :
    (iblk3 V c 2 t : Vec Ideal S1x512 .f32) (ix2 (0 : Fin 1) q) = (V c (Pipeline.arrRef spec3 2) : S1x512.Idx → EReal) (ix2 (0 : Fin 1) Q) := by
  obtain rfl : Q = q := Fin.ext h
  obtain ⟨-, -, -, -, e0, e1, -⟩ := idx_facts3 t
  unfold iblk3
  rw [View.read_apply]
  show V c main_v141 _ = V c main_v141 _
  congr 1
  funext a
  apply Fin.ext
  match a with
  | ⟨0, _⟩ => show win3_2.index t (0 : Fin 2) * 1 + 1 * (0 : Fin 1).val = (0 : Fin 1).val; rw [e0]; omega
  | ⟨1, _⟩ => show win3_2.index t (1 : Fin 2) * 512 + 1 * Q.val = Q.val; rw [e1]; omega

/-! ## What a point writes back, and the array after the region -/

/-- What point t writes back is block t of the layer's result on the arrays as the region finds them. -/
theorem flushed3_eq (c : Dev nD) (t : Fin cfg3.N) :
    (dat3 V c).flushed 3 t = ((cfg3.win 3).blk t).view.read (Elt Ideal)
      (res3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S1000x5120) hz3, View.ld_unit_zero (S := S5120x512) hz3, View.ld_unit_zero (S := S1x512) hz3]
  obtain ⟨-, -, -, -, -, -, e30, e31⟩ := idx_facts3 t
  funext j
  have hj0 : (j 0).val < 1000 := (j 0).isLt
  have hj1 : (j 1).val < 512 := (j 1).isLt
  have hP : ((((cfg3.win 3).blk t).view.emb j) 0).val = t.val * 1000 + (j 0).val := by
    show win3_3.index t (0 : Fin 2) * 1000 + 1 * (j 0).val = _; rw [e30]; omega
  have hQ : ((((cfg3.win 3).blk t).view.emb j) 1).val = (j 1).val := by
    show win3_3.index t (1 : Fin 2) * 512 + 1 * (j 1).val = _; rw [e31]; omega
  refine (pay3_at (iblk3 V c 0 t) (iblk3 V c 1 t) (iblk3 V c 2 t) ((cfg3.win 3).xinj (grid3.coords t) j)
    ⟨(j 0).val, hj0⟩ ⟨(j 1).val, hj1⟩ rfl rfl).trans ?_
  show _ = val3 (V c (Pipeline.arrRef spec3 0)) (V c (Pipeline.arrRef spec3 1)) (V c (Pipeline.arrRef spec3 2))
    ((((cfg3.win 3).blk t).view.emb j) 0) ((((cfg3.win 3).blk t).view.emb j) 1)
  unfold val3
  refine congrArg lrelu (congrArg₂ (· + ·) (Finset.sum_congr rfl fun k _ => congrArg₂ (· * ·) ?_ ?_) ?_)
  · exact blk3_0_apply V c t ⟨(j 0).val, hj0⟩ k _ hP
  · exact blk3_1_apply V c t k ⟨(j 1).val, hj1⟩ _ hQ
  · exact blk3_2_apply V c t ⟨(j 1).val, hj1⟩ _ hQ

/-- An index of the result array is in point t's block iff each coordinate is in the block's range on its axis. -/
theorem mem_blk3 (t : Fin cfg3.N) (i : S5000x512.Idx) :
    i ∈ ((cfg3.win 3).blk t).view.set ↔ ∀ a : Fin 2, win3_3.index t a * S1000x512.size a ≤ (i a).val ∧ (i a).val < win3_3.index t a * S1000x512.size a + S1000x512.size a := by
  show i ∈ ((View.whole main_v142).slice (win3_3.rect t)).set ↔ _
  rw [View.set_slice_whole, Rect.mem_set_unit]
  exact Iff.rfl

/-- The row blocks cover the result array: row r lies in block r / 1000. -/
theorem cover3 (i : S5000x512.Idx) : ∃ t : Fin cfg3.N, (cfg3.win 3).flush t = true ∧ i ∈ ((cfg3.win 3).blk t).view.set := by
  have hi0 : (i 0).val < 5000 := idx2_lt0 i
  have hi1 : (i 1).val < 512 := idx2_lt1 i
  have hN : cfg3.N = 5 := N_3
  obtain ⟨t, ht⟩ : ∃ t : Fin cfg3.N, t.val = (i 0).val / 1000 := ⟨⟨(i 0).val / 1000, by rw [hN]; omega⟩, rfl⟩
  obtain ⟨-, -, -, -, -, -, e30, e31⟩ := idx_facts3 t
  refine ⟨t, flush3_3 t, ?_⟩
  rw [mem_blk3]
  intro a
  match a with
  | ⟨0, _⟩ =>
    show win3_3.index t (0 : Fin 2) * 1000 ≤ (i 0).val ∧ (i 0).val < win3_3.index t (0 : Fin 2) * 1000 + 1000
    rw [e30, ht]; omega
  | ⟨1, _⟩ =>
    show win3_3.index t (1 : Fin 2) * 512 ≤ (i 1).val ∧ (i 1).val < win3_3.index t (1 : Fin 2) * 512 + 512
    rw [e31]; omega

/-- The result array after the region is the layer's result on the arrays as the region finds them. -/
theorem final3_arr (c : Dev nD) :
    (dat3 V c).arrAt 3 cfg3.N
      = res3 (V c (Pipeline.arrRef spec3 0)) (V c (Pipeline.arrRef spec3 1)) (V c (Pipeline.arrRef spec3 2)) :=
  (dat3 V c).arrAt_eq_of_cover 3 _ (fun t _ => flushed3_eq V c t) cover3

end

/-- Entry (p, q) of the result array after the region. -/
theorem final3 (V : (c : Dev nD) → (b : Ref sig .tc) → Buf (Elt Ideal) ((c : Thread nD τ).loc b)) (c : Dev nD) (p : Fin 5000) (q : Fin 512) :
    (Gen.dat3 (F := Ideal) V c).arrAt 3 cfg3.N (ix2 p q)
      = val3 (V c (Pipeline.arrRef spec3 0)) (V c (Pipeline.arrRef spec3 1)) (V c (Pipeline.arrRef spec3 2)) p q :=
  (congrFun (final3_arr V c) (ix2 p q)).trans rfl

/-- The same, the three arrays named by their buffers. -/
theorem final3_v (V : (c : Dev nD) → (b : Ref sig .tc) → Buf (Elt Ideal) ((c : Thread nD τ).loc b)) (c : Dev nD) (p : Fin 5000) (q : Fin 512) :
    (Gen.dat3 (F := Ideal) V c).arrAt 3 cfg3.N (ix2 p q) = val3 (V c main_v138) (V c main_v140) (V c main_v141) p q :=
  final3 V c p q

end Cert.KernelIdeal.RegVal

end
-- ==== Proof.KLin3.lean ====
/-
  Layer 3 of the kernel read entry by entry: the region's output array, after the run of its grid, holds at (p, q)
  the contraction of row p of the features entering the region with column q of the transposed weight, plus the bias
  entry, through the activation.
  The arrays the region reads are what the last host stretch before it leaves: the features and the transposed
  weight rounded to a narrower format (the identity on the extended reals) and the bias row (the bias vector as a one-row matrix).
-/
import proofs.«100723_j10694468567643_1_alg».proof.Proof.Gen.KernelIdeal.Frame
import proofs.«100723_j10694468567643_1_alg».proof.Proof.Region3
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and the bias vector as a one-row matrix, entry (p, q) is
    the contraction of row p with column q plus the bias entry, through the activation. -/
theorem pure3 (V : Valuation τ sig (Elt Ideal)) (p : Fin 5000) (q : Fin 512) :
    RegVal.val3 (truncf .bf16 (shapeCast S5000x5120 (V (Proc.devRef .tc main_v136)) shapeCasts_S200000x128_S5000x5120) bitsLt_bf16_f32 : FVec Ideal S5000x5120 .bf16)
        (truncf .bf16 (transpose S5120x512 [1, 0] (V (Proc.devRef .tc main_arg8)) transposes_S512x5120_S5120x512_1_0) bitsLt_bf16_f32 : FVec Ideal S5120x512 .bf16)
        (shapeCast S1x512 (V (Proc.devRef .tc main_arg9)) shapeCasts_S512_S1x512 : FVec Ideal S1x512 .f32) p q
      = RegVal.lrelu (Spec.lin (shapeCast S5000x5120 (V (Proc.devRef .tc main_v136)) shapeCasts_S200000x128_S5000x5120) (transpose S5120x512 [1, 0] (V (Proc.devRef .tc main_arg8)) transposes_S512x5120_S5120x512_1_0) p q + Spec.at1 (V (Proc.devRef .tc main_arg9)) q) := by
  rw [RegVal.val3_def]
  have hb : (shapeCast S1x512 (V (Proc.devRef .tc main_arg9)) shapeCasts_S512_S1x512) (ix2 (0 : Fin 1) q)
      = Spec.at1 (V (Proc.devRef .tc main_arg9)) q := shapeCast_a_1a_apply _ _ _ _
  rw [hb]
  exact congrArg RegVal.lrelu (congrArg (· + _) (Finset.sum_congr rfl fun k _ => rfl))

/-- Layer 3: the region's output array at entry (p, q), over the buffer contents before the last host stretch. -/
theorem out3 (c : Dev nD) (p : Fin 5000) (q : Fin 512) :
    Spec.at2 (W14 m ρ c (Proc.devRef .tc main_v142)) p q
      = RegVal.lrelu (Spec.lin (shapeCast S5000x5120 (W12 m ρ c (Proc.devRef .tc main_v136)) shapeCasts_S200000x128_S5000x5120) (transpose S5120x512 [1, 0] (W12 m ρ c (Proc.devRef .tc main_arg8)) transposes_S512x5120_S5120x512_1_0) p q + Spec.at1 (W12 m ρ c (Proc.devRef .tc main_arg9)) q) := by
  have e : W14 m ρ c (Proc.devRef .tc main_v142) = (dat3 (V13 m ρ) c).arrAt 3 cfg3.N := W14_arr m ρ c 3
  have x0 : (V13 m ρ c (Pipeline.arrRef spec3 0) : (⟨S5000x5120, .bf16⟩ : BufTy).Contents (Elt Ideal)) = (truncf .bf16 (shapeCast S5000x5120 (W12 m ρ c (Proc.devRef .tc main_v136)) shapeCasts_S200000x128_S5000x5120) bitsLt_bf16_f32 : FVec Ideal S5000x5120 .bf16) := by
    show after hostOps3_2 (W12 m ρ c) (Proc.devRef .tc main_v138) = _
    generalize W12 m ρ c = V
    after_results_simp
    rfl
  have x1 : (V13 m ρ c (Pipeline.arrRef spec3 1) : (⟨S5120x512, .bf16⟩ : BufTy).Contents (Elt Ideal)) = (truncf .bf16 (transpose S5120x512 [1, 0] (W12 m ρ c (Proc.devRef .tc main_arg8)) transposes_S512x5120_S5120x512_1_0) bitsLt_bf16_f32 : FVec Ideal S5120x512 .bf16) := by
    show after hostOps3_2 (W12 m ρ c) (Proc.devRef .tc main_v140) = _
    generalize W12 m ρ c = V
    after_results_simp
  have x2 : (V13 m ρ c (Pipeline.arrRef spec3 2) : (⟨S1x512, .f32⟩ : BufTy).Contents (Elt Ideal)) = (shapeCast S1x512 (W12 m ρ c (Proc.devRef .tc main_arg9)) shapeCasts_S512_S1x512 : FVec Ideal S1x512 .f32) := by
    show after hostOps3_2 (W12 m ρ c) (Proc.devRef .tc main_v141) = _
    generalize W12 m ρ c = V
    after_results_simp
    rfl
  exact (congrFun e (ix2 p q)).trans ((RegVal.final3 (V13 m ρ) c p q).trans
    ((congr (congr (congrArg (fun a b d => RegVal.val3 a b d p q) x0) x1) x2).trans (pure3 (W12 m ρ c) p q)))

end Cert.KernelIdeal.KLin

end
-- ==== Proof.Region4.lean ====
/-
  Region 4 of the kernel, one dense layer  y = act(x * w + b)  on row blocks of 1000 rows: what its output array
  [5000, 128] holds after the region, entry by entry, as a function of the three arrays the region reads (the rows x
  [5000, 512], the weight [512, 128] and the bias row [1, 128]) as the region finds them.  Entry (p, q) is
  act(sum over k < 512 of x(p, k) * w(k, q), plus b(0, q)).

  The steps: the body's stored value at entry (p', q) of a block, from the three loaded blocks (the product into a zero
  accumulator is the sum over k; the bias row is broadcast down the rows; the activation is applied entry by entry); each loaded block read back
  to its array (row p' of the row block at grid point t is row t * 1000 + p' of x; the weight and the bias are whole);
  what point t writes back is block t of the whole-array function; the 5 row blocks cover the array (row r lies in
  block r / 1000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import proofs.«100723_j10694468567643_1_alg».proof.Proof.ActDefs
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr4_0 : Pipeline.arrRef spec4 0 = main_v143 := rfl
theorem arr4_1 : Pipeline.arrRef spec4 1 = main_v145 := rfl
theorem arr4_2 : Pipeline.arrRef spec4 2 = main_v146 := rfl
theorem arr4_3 : Pipeline.arrRef spec4 3 = main_v147 := rfl

theorem hz4 : (![0, 0] : Fin 2 → Nat) = fun _ => 0 := funext fun a => by fin_cases a <;> rfl

/-! ## The layer as one function of the three arrays -/

/-- Entry (p, q) of the layer's result. -/
def val4 (A0 : S5000x512.Idx → EReal) (A1 : S512x128.Idx → EReal) (A2 : S1x128.Idx → EReal) (p : Fin 5000) (q : Fin 128) : EReal :=
  lrelu ((∑ k : Fin 512, A0 (ix2 p k) * A1 (ix2 k q)) + A2 (ix2 (0 : Fin 1) q))

/-- The layer's whole result array. -/
def res4 (A0 : S5000x512.Idx → EReal) (A1 : S512x128.Idx → EReal) (A2 : S1x128.Idx → EReal) : S5000x128.Idx → EReal :=
  fun i => val4 A0 A1 A2 (i 0) (i 1)

theorem val4_def (A0 : S5000x512.Idx → EReal) (A1 : S512x128.Idx → EReal) (A2 : S1x128.Idx → EReal) (p : Fin 5000) (q : Fin 128) :
    val4 A0 A1 A2 p q = lrelu ((∑ k : Fin 512, A0 (ix2 p k) * A1 (ix2 k q)) + A2 (ix2 (0 : Fin 1) q)) := rfl

/-! ## The body's stored value at an entry of a block -/

/-- The body's compare, scale and select on a block, entry by entry, is the activation. -/
theorem lrelu_vec4 (v : FVec Ideal S1000x128 .f32) (i : S1000x128.Idx) :
    select (cmpf .ogt v (broadcast S1000x128 (Scalar.ofBits .f32 0x00000000#32 : Ideal .f32))) v
      (mulf v (broadcast S1000x128 (Scalar.ofBits .f32 0x3DCCCCCD#32 : Ideal .f32))) i = lrelu (v i) :=
  lrelu_eq (v i)

/-- The product into the zero accumulator plus the broadcast bias row, at entry (p, q) of a block. -/
theorem lin4_at (x0 : FVec Ideal S1000x512 .bf16) (x1 : FVec Ideal S512x128 .bf16) (x2 : FVec Ideal S1x128 .f32) (p : Fin 1000) (q : Fin 128) :
    (addf (matmul (F := Ideal) dot_S1000x512_S512x128_S1000x128_1_0_0_1_n_n none x0 x1 (constant (F := Ideal) S1000x128 .f32 0x00000000#32))
      (broadcastTo S1000x128 x2 broadcasts_S1x128_S1000x128) : FVec Ideal S1000x128 .f32) (ix2 p q)
      = (∑ k : Fin 512, x0 (ix2 p k) * x1 (ix2 k q)) + x2 (ix2 (0 : Fin 1) q) := by
  refine (addf_apply _ _ _).trans ?_
  refine congrArg₂ (· + ·) ?_ ?_
  · exact Cert.LibMatmulSum.matmul_zero_at (Cert.LibMatmulSum.Plain.of_lists dot_S1000x512_S512x128_S1000x128_1_0_0_1_n_n rfl rfl rfl rfl rfl rfl)
      (φ₁ := .bf16) (φ₂ := .bf16) none x0 x1 p q
  · exact broadcastTo_1b_ab_apply x2 broadcasts_S1x128_S1000x128 p q

/-- The stored value at entry (p, q) of a block: the activation of the sum over k plus the bias. -/
theorem pay4_at (x0 : Vec Ideal S1000x512 .bf16) (x1 : Vec Ideal S512x128 .bf16) (x2 : Vec Ideal S1x128 .f32)
    (y : S1000x128.Idx) (p : Fin 1000) (q : Fin 128) (hp : (y 0).val = p.val) (hq : (y 1).val = q.val) :
    k4_pay1 x0 x1 x2 y = lrelu ((∑ k : Fin 512, x0 (ix2 p k) * x1 (ix2 k q)) + x2 (ix2 (0 : Fin 1) q)) := by
  obtain rfl : y = ix2 p q := funext fun a => Fin.ext (by
    match a with
    | ⟨0, _⟩ => exact hp
    | ⟨1, _⟩ => exact hq)
  unfold k4_pay1
  simp only [shapeCast_self]
  refine (lrelu_vec4 _ _).trans ?_
  exact congrArg lrelu (lin4_at x0 x1 x2 p q)

/-! ## The loaded blocks, read back to their arrays -/

/-- The printed index maps over the grid: the row blocks of x and of the result move with the point, the weight and the
    bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- Row p' of the row block of x at point t is row t * 1000 + p' of x. -/
theorem blk4_0_apply (c : Dev nD) (t : Fin cfg4.N) (p' : Fin 1000) (k : Fin 512) (P : Fin 5000) (h : P.val = t.val * 1000 + p'.val) :
    (iblk4 V c 0 t : Vec Ideal S1000x512 .bf16) (ix2 p' k) = (V c (Pipeline.arrRef spec4 0) : S5000x512.Idx → EReal) (ix2 P k) := by
  obtain ⟨e0, e1, -⟩ := idx_facts4 t
  unfold iblk4
  rw [View.read_apply]
  show V c main_v143 _ = V c main_v143 _
  congr 1
  funext a
  apply Fin.ext
  match a with
  | ⟨0, _⟩ => show win4_0.index t (0 : Fin 2) * 1000 + 1 * p'.val = P.val; rw [e0, h]; omega
  | ⟨1, _⟩ => show win4_0.index t (1 : Fin 2) * 512 + 1 * k.val = k.val; rw [e1]; omega

/-- The weight's block is the weight. -/
theorem blk4_1_apply (c : Dev nD) (t : Fin cfg4.N) (k : Fin 512) (q Q : Fin 128) (h : Q.val = q.val) :
    (iblk4 V c 1 t : Vec Ideal S512x128 .bf16) (ix2 k q) = (V c (Pipeline.arrRef spec4 1) : S512x128.Idx → EReal) (ix2 k Q) := by
  obtain rfl : Q = q := Fin.ext h
  obtain ⟨-, -, e0, e1, -⟩ := idx_facts4 t
  unfold iblk4
  rw [View.read_apply]
  show V c main_v145 _ = V c main_v145 _
  congr 1
  funext a
  apply Fin.ext
  match a with
  | ⟨0, _⟩ => show win4_1.index t (0 : Fin 2) * 512 + 1 * k.val = k.val; rw [e0]; omega
  | ⟨1, _⟩ => show win4_1.index t (1 : Fin 2) * 128 + 1 * Q.val = Q.val; rw [e1]; omega

/-- The bias row's block is the bias row. -/
theorem blk4_2_apply (c : Dev nD) (t : Fin cfg4.N) (q Q : Fin 128) (h : Q.val = q.val) :
    (iblk4 V c 2 t : Vec Ideal S1x128 .f32) (ix2 (0 : Fin 1) q) = (V c (Pipeline.arrRef spec4 2) : S1x128.Idx → EReal) (ix2 (0 : Fin 1) Q) := by
  obtain rfl : Q = q := Fin.ext h
  obtain ⟨-, -, -, -, e0, e1, -⟩ := idx_facts4 t
  unfold iblk4
  rw [View.read_apply]
  show V c main_v146 _ = V c main_v146 _
  congr 1
  funext a
  apply Fin.ext
  match a with
  | ⟨0, _⟩ => show win4_2.index t (0 : Fin 2) * 1 + 1 * (0 : Fin 1).val = (0 : Fin 1).val; rw [e0]; omega
  | ⟨1, _⟩ => show win4_2.index t (1 : Fin 2) * 128 + 1 * Q.val = Q.val; rw [e1]; omega

/-! ## What a point writes back, and the array after the region -/

/-- What point t writes back is block t of the layer's result on the arrays as the region finds them. -/
theorem flushed4_eq (c : Dev nD) (t : Fin cfg4.N) :
    (dat4 V c).flushed 3 t = ((cfg4.win 3).blk t).view.read (Elt Ideal)
      (res4 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S1000x512) hz4, View.ld_unit_zero (S := S512x128) hz4, View.ld_unit_zero (S := S1x128) hz4]
  obtain ⟨-, -, -, -, -, -, e30, e31⟩ := idx_facts4 t
  funext j
  have hj0 : (j 0).val < 1000 := (j 0).isLt
  have hj1 : (j 1).val < 128 := (j 1).isLt
  have hP : ((((cfg4.win 3).blk t).view.emb j) 0).val = t.val * 1000 + (j 0).val := by
    show win4_3.index t (0 : Fin 2) * 1000 + 1 * (j 0).val = _; rw [e30]; omega
  have hQ : ((((cfg4.win 3).blk t).view.emb j) 1).val = (j 1).val := by
    show win4_3.index t (1 : Fin 2) * 128 + 1 * (j 1).val = _; rw [e31]; omega
  refine (pay4_at (iblk4 V c 0 t) (iblk4 V c 1 t) (iblk4 V c 2 t) ((cfg4.win 3).xinj (grid4.coords t) j)
    ⟨(j 0).val, hj0⟩ ⟨(j 1).val, hj1⟩ rfl rfl).trans ?_
  show _ = val4 (V c (Pipeline.arrRef spec4 0)) (V c (Pipeline.arrRef spec4 1)) (V c (Pipeline.arrRef spec4 2))
    ((((cfg4.win 3).blk t).view.emb j) 0) ((((cfg4.win 3).blk t).view.emb j) 1)
  unfold val4
  refine congrArg lrelu (congrArg₂ (· + ·) (Finset.sum_congr rfl fun k _ => congrArg₂ (· * ·) ?_ ?_) ?_)
  · exact blk4_0_apply V c t ⟨(j 0).val, hj0⟩ k _ hP
  · exact blk4_1_apply V c t k ⟨(j 1).val, hj1⟩ _ hQ
  · exact blk4_2_apply V c t ⟨(j 1).val, hj1⟩ _ hQ

/-- An index of the result array is in point t's block iff each coordinate is in the block's range on its axis. -/
theorem mem_blk4 (t : Fin cfg4.N) (i : S5000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v147).slice (win4_3.rect t)).set ↔ _
  rw [View.set_slice_whole, Rect.mem_set_unit]
  exact Iff.rfl

/-- The row blocks cover the result array: row r lies in block r / 1000. -/
theorem cover4 (i : S5000x128.Idx) : ∃ t : Fin cfg4.N, (cfg4.win 3).flush t = true ∧ i ∈ ((cfg4.win 3).blk t).view.set := by
  have hi0 : (i 0).val < 5000 := idx2_lt0 i
  have hi1 : (i 1).val < 128 := idx2_lt1 i
  have hN : cfg4.N = 5 := N_4
  obtain ⟨t, ht⟩ : ∃ t : Fin cfg4.N, t.val = (i 0).val / 1000 := ⟨⟨(i 0).val / 1000, by rw [hN]; omega⟩, rfl⟩
  obtain ⟨-, -, -, -, -, -, e30, e31⟩ := idx_facts4 t
  refine ⟨t, flush4_3 t, ?_⟩
  rw [mem_blk4]
  intro a
  match a with
  | ⟨0, _⟩ =>
    show win4_3.index t (0 : Fin 2) * 1000 ≤ (i 0).val ∧ (i 0).val < win4_3.index t (0 : Fin 2) * 1000 + 1000
    rw [e30, ht]; omega
  | ⟨1, _⟩ =>
    show win4_3.index t (1 : Fin 2) * 128 ≤ (i 1).val ∧ (i 1).val < win4_3.index t (1 : Fin 2) * 128 + 128
    rw [e31]; omega

/-- The result array after the region is the layer's result on the arrays as the region finds them. -/
theorem final4_arr (c : Dev nD) :
    (dat4 V c).arrAt 3 cfg4.N
      = res4 (V c (Pipeline.arrRef spec4 0)) (V c (Pipeline.arrRef spec4 1)) (V c (Pipeline.arrRef spec4 2)) :=
  (dat4 V c).arrAt_eq_of_cover 3 _ (fun t _ => flushed4_eq V c t) cover4

end

/-- Entry (p, q) of the result array after the region. -/
theorem final4 (V : (c : Dev nD) → (b : Ref sig .tc) → Buf (Elt Ideal) ((c : Thread nD τ).loc b)) (c : Dev nD) (p : Fin 5000) (q : Fin 128) :
    (Gen.dat4 (F := Ideal) V c).arrAt 3 cfg4.N (ix2 p q)
      = val4 (V c (Pipeline.arrRef spec4 0)) (V c (Pipeline.arrRef spec4 1)) (V c (Pipeline.arrRef spec4 2)) p q :=
  (congrFun (final4_arr V c) (ix2 p q)).trans rfl

/-- The same, the three arrays named by their buffers. -/
theorem final4_v (V : (c : Dev nD) → (b : Ref sig .tc) → Buf (Elt Ideal) ((c : Thread nD τ).loc b)) (c : Dev nD) (p : Fin 5000) (q : Fin 128) :
    (Gen.dat4 (F := Ideal) V c).arrAt 3 cfg4.N (ix2 p q) = val4 (V c main_v143) (V c main_v145) (V c main_v146) p q :=
  final4 V c p q

end Cert.KernelIdeal.RegVal

end
-- ==== Proof.KLin4.lean ====
/-
  Layer 4 of the kernel read entry by entry: the region's output array, after the run of its grid, holds at (p, q)
  the contraction of row p of the features entering the region with column q of the transposed weight, plus the bias
  entry, through the activation.
  The arrays the region reads are what the last host stretch before it leaves: the features and the transposed
  weight rounded to a narrower format (the identity on the extended reals) and the bias row (the bias vector as a one-row matrix).
-/
import proofs.«100723_j10694468567643_1_alg».proof.Proof.Gen.KernelIdeal.Frame
import proofs.«100723_j10694468567643_1_alg».proof.Proof.Region4
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and the bias vector as a one-row matrix, entry (p, q) is
    the contraction of row p with column q plus the bias entry, through the activation. -/
theorem pure4 (V : Valuation τ sig (Elt Ideal)) (p : Fin 5000) (q : Fin 128) :
    RegVal.val4 (truncf .bf16 (V (Proc.devRef .tc main_v142)) bitsLt_bf16_f32 : FVec Ideal S5000x512 .bf16)
        (truncf .bf16 (transpose S512x128 [1, 0] (V (Proc.devRef .tc main_arg10)) transposes_S128x512_S512x128_1_0) bitsLt_bf16_f32 : FVec Ideal S512x128 .bf16)
        (shapeCast S1x128 (V (Proc.devRef .tc main_arg11)) shapeCasts_S128_S1x128 : FVec Ideal S1x128 .f32) p q
      = RegVal.lrelu (Spec.lin (V (Proc.devRef .tc main_v142)) (transpose S512x128 [1, 0] (V (Proc.devRef .tc main_arg10)) transposes_S128x512_S512x128_1_0) p q + Spec.at1 (V (Proc.devRef .tc main_arg11)) q) := by
  rw [RegVal.val4_def]
  have hb : (shapeCast S1x128 (V (Proc.devRef .tc main_arg11)) shapeCasts_S128_S1x128) (ix2 (0 : Fin 1) q)
      = Spec.at1 (V (Proc.devRef .tc main_arg11)) q := shapeCast_a_1a_apply _ _ _ _
  rw [hb]
  exact congrArg RegVal.lrelu (congrArg (· + _) (Finset.sum_congr rfl fun k _ => rfl))

/-- Layer 4: the region's output array at entry (p, q), over the buffer contents before the last host stretch. -/
theorem out4 (c : Dev nD) (p : Fin 5000) (q : Fin 128) :
    Spec.at2 (W16 m ρ c (Proc.devRef .tc main_v147)) p q
      = RegVal.lrelu (Spec.lin (W14 m ρ c (Proc.devRef .tc main_v142)) (transpose S512x128 [1, 0] (W14 m ρ c (Proc.devRef .tc main_arg10)) transposes_S128x512_S512x128_1_0) p q + Spec.at1 (W14 m ρ c (Proc.devRef .tc main_arg11)) q) := by
  have e : W16 m ρ c (Proc.devRef .tc main_v147) = (dat4 (V15 m ρ) c).arrAt 3 cfg4.N := W16_arr m ρ c 3
  have x0 : (V15 m ρ c (Pipeline.arrRef spec4 0) : (⟨S5000x512, .bf16⟩ : BufTy).Contents (Elt Ideal)) = (truncf .bf16 (W14 m ρ c (Proc.devRef .tc main_v142)) bitsLt_bf16_f32 : FVec Ideal S5000x512 .bf16) := by
    show after hostOps4 (W14 m ρ c) (Proc.devRef .tc main_v143) = _
    generalize W14 m ρ c = V
    after_results_simp
  have x1 : (V15 m ρ c (Pipeline.arrRef spec4 1) : (⟨S512x128, .bf16⟩ : BufTy).Contents (Elt Ideal)) = (truncf .bf16 (transpose S512x128 [1, 0] (W14 m ρ c (Proc.devRef .tc main_arg10)) transposes_S128x512_S512x128_1_0) bitsLt_bf16_f32 : FVec Ideal S512x128 .bf16) := by
    show after hostOps4 (W14 m ρ c) (Proc.devRef .tc main_v145) = _
    generalize W14 m ρ c = V
    after_results_simp
  have x2 : (V15 m ρ c (Pipeline.arrRef spec4 2) : (⟨S1x128, .f32⟩ : BufTy).Contents (Elt Ideal)) = (shapeCast S1x128 (W14 m ρ c (Proc.devRef .tc main_arg11)) shapeCasts_S128_S1x128 : FVec Ideal S1x128 .f32) := by
    show after hostOps4 (W14 m ρ c) (Proc.devRef .tc main_v146) = _
    generalize W14 m ρ c = V
    after_results_simp
    rfl
  exact (congrFun e (ix2 p q)).trans ((RegVal.final4 (V15 m ρ) c p q).trans
    ((congr (congr (congrArg (fun a b d => RegVal.val4 a b d p q) x0) x1) x2).trans (pure4 (W14 m ρ c) p q)))

end Cert.KernelIdeal.KLin

end
-- ==== Proof.Region5.lean ====
/-
  Region 5 of the kernel, one dense layer  y = act(x * w + b)  on row blocks of 1000 rows: what its output array
  [5000, 1] holds after the region, entry by entry, as a function of the three arrays the region reads (the rows x
  [5000, 128], the weight [128, 1] and the bias row [1, 1]) as the region finds them.  Entry (p, q) is
  act(sum over k < 128 of x(p, k) * w(k, q), plus b(0, q)).

  The steps: the body's stored value at entry (p', q) of a block, from the three loaded blocks (the product into a zero
  accumulator is the sum over k; the bias row is broadcast down the rows; the activation is applied entry by entry); each loaded block read back
  to its array (row p' of the row block at grid point t is row t * 1000 + p' of x; the weight and the bias are whole);
  what point t writes back is block t of the whole-array function; the 5 row blocks cover the array (row r lies in
  block r / 1000); hence the array after the region is that function.
-/
import proofs.«100723_j10694468567643_1_alg».proof.Proof.Gen.KernelIdeal.Frame
import proofs.«100723_j10694468567643_1_alg».proof.Proof.LibMatmulSum
import proofs.«100723_j10694468567643_1_alg».proof.Proof.LibPlainLists
import proofs.«100723_j10694468567643_1_alg».proof.Proof.ActDefs
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The four arrays of the region -/

theorem arr5_0 : Pipeline.arrRef spec5 0 = main_v148 := rfl
theorem arr5_1 : Pipeline.arrRef spec5 1 = main_v150 := rfl
theorem arr5_2 : Pipeline.arrRef spec5 2 = main_v151 := rfl
theorem arr5_3 : Pipeline.arrRef spec5 3 = main_v152 := rfl

theorem hz5 : (![0, 0] : Fin 2 → Nat) = fun _ => 0 := funext fun a => by fin_cases a <;> rfl

/-! ## The layer as one function of the three arrays -/

/-- Entry (p, q) of the layer's result. -/
def val5 (A0 : S5000x128.Idx → EReal) (A1 : S128x1.Idx → EReal) (A2 : S1x1.Idx → EReal) (p : Fin 5000) (q : Fin 1) : EReal :=
  sigm ((∑ k : Fin 128, A0 (ix2 p k) * A1 (ix2 k q)) + A2 (ix2 (0 : Fin 1) q))

/-- The layer's whole result array. -/
def res5 (A0 : S5000x128.Idx → EReal) (A1 : S128x1.Idx → EReal) (A2 : S1x1.Idx → EReal) : S5000x1.Idx → EReal :=
  fun i => val5 A0 A1 A2 (i 0) (i 1)

theorem val5_def (A0 : S5000x128.Idx → EReal) (A1 : S128x1.Idx → EReal) (A2 : S1x1.Idx → EReal) (p : Fin 5000) (q : Fin 1) :
    val5 A0 A1 A2 p q = sigm ((∑ k : Fin 128, A0 (ix2 p k) * A1 (ix2 k q)) + A2 (ix2 (0 : Fin 1) q)) := rfl

/-! ## The body's stored value at an entry of a block -/

/-- The body's negate, exponential, add one and divide on a block, entry by entry, is the activation. -/
theorem sigm_vec5 (v : FVec Ideal S1000x1 .f32) (i : S1000x1.Idx) :
    divf (broadcast S1000x1 (Scalar.ofBits .f32 0x3F800000#32 : Ideal .f32))
      (addf (broadcast S1000x1 (Scalar.ofBits .f32 0x3F800000#32 : Ideal .f32))
        (exp (subf (broadcast S1000x1 (Scalar.ofBits .f32 0x00000000#32 : Ideal .f32)) v))) i = sigm (v i) :=
  rfl

/-- The product into the zero accumulator plus the broadcast bias row, at entry (p, q) of a block. -/
theorem lin5_at (x0 : FVec Ideal S1000x128 .bf16) (x1 : FVec Ideal S128x1 .bf16) (x2 : FVec Ideal S1x1 .f32) (p : Fin 1000) (q : Fin 1) :
    (addf (matmul (F := Ideal) dot_S1000x128_S128x1_S1000x1_1_0_0_1_n_n none x0 x1 (constant (F := Ideal) S1000x1 .f32 0x00000000#32))
      (broadcastTo S1000x1 x2 broadcasts_S1x1_S1000x1) : FVec Ideal S1000x1 .f32) (ix2 p q)
      = (∑ k : Fin 128, x0 (ix2 p k) * x1 (ix2 k q)) + x2 (ix2 (0 : Fin 1) q) := by
  refine (addf_apply _ _ _).trans ?_
  refine congrArg₂ (· + ·) ?_ ?_
  · exact Cert.LibMatmulSum.matmul_zero_at (Cert.LibMatmulSum.Plain.of_lists dot_S1000x128_S128x1_S1000x1_1_0_0_1_n_n rfl rfl rfl rfl rfl rfl)
      (φ₁ := .bf16) (φ₂ := .bf16) none x0 x1 p q
  · exact broadcastTo_1b_ab_apply x2 broadcasts_S1x1_S1000x1 p q

/-- The stored value at entry (p, q) of a block: the activation of the sum over k plus the bias. -/
theorem pay5_at (x0 : Vec Ideal S1000x128 .bf16) (x1 : Vec Ideal S128x1 .bf16) (x2 : Vec Ideal S1x1 .f32)
    (y : S1000x1.Idx) (p : Fin 1000) (q : Fin 1) (hp : (y 0).val = p.val) (hq : (y 1).val = q.val) :
    k5_pay1 x0 x1 x2 y = sigm ((∑ k : Fin 128, x0 (ix2 p k) * x1 (ix2 k q)) + x2 (ix2 (0 : Fin 1) q)) := by
  obtain rfl : y = ix2 p q := funext fun a => Fin.ext (by
    match a with
    | ⟨0, _⟩ => exact hp
    | ⟨1, _⟩ => exact hq)
  unfold k5_pay1
  simp only [shapeCast_self]
  refine (sigm_vec5 _ _).trans ?_
  exact congrArg sigm (lin5_at x0 x1 x2 p q)

/-! ## The loaded blocks, read back to their arrays -/

/-- The printed index maps over the grid: the row blocks of x and of the result move with the point, the weight and the
    bias stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
variable (V : (c : Dev nD) → (b : Ref sig .tc) → Buf (Elt Ideal) ((c : Thread nD τ).loc b))

/-- Row p' of the row block of x at point t is row t * 1000 + p' of x. -/
theorem blk5_0_apply (c : Dev nD) (t : Fin cfg5.N) (p' : Fin 1000) (k : Fin 128) (P : Fin 5000) (h : P.val = t.val * 1000 + p'.val) :
    (iblk5 V c 0 t : Vec Ideal S1000x128 .bf16) (ix2 p' k) = (V c (Pipeline.arrRef spec5 0) : S5000x128.Idx → EReal) (ix2 P k) := by
  obtain ⟨e0, e1, -⟩ := idx_facts5 t
  unfold iblk5
  rw [View.read_apply]
  show V c main_v148 _ = V c main_v148 _
  congr 1
  funext a
  apply Fin.ext
  match a with
  | ⟨0, _⟩ => show win5_0.index t (0 : Fin 2) * 1000 + 1 * p'.val = P.val; rw [e0, h]; omega
  | ⟨1, _⟩ => show win5_0.index t (1 : Fin 2) * 128 + 1 * k.val = k.val; rw [e1]; omega

/-- The weight's block is the weight. -/
theorem blk5_1_apply (c : Dev nD) (t : Fin cfg5.N) (k : Fin 128) (q Q : Fin 1) (h : Q.val = q.val) :
    (iblk5 V c 1 t : Vec Ideal S128x1 .bf16) (ix2 k q) = (V c (Pipeline.arrRef spec5 1) : S128x1.Idx → EReal) (ix2 k Q) := by
  obtain rfl : Q = q := Fin.ext h
  obtain ⟨-, -, e0, e1, -⟩ := idx_facts5 t
  unfold iblk5
  rw [View.read_apply]
  show V c main_v150 _ = V c main_v150 _
  congr 1
  funext a
  apply Fin.ext
  match a with
  | ⟨0, _⟩ => show win5_1.index t (0 : Fin 2) * 128 + 1 * k.val = k.val; rw [e0]; omega
  | ⟨1, _⟩ => show win5_1.index t (1 : Fin 2) * 1 + 1 * Q.val = Q.val; rw [e1]; omega

/-- The bias row's block is the bias row. -/
theorem blk5_2_apply (c : Dev nD) (t : Fin cfg5.N) (q Q : Fin 1) (h : Q.val = q.val) :
    (iblk5 V c 2 t : Vec Ideal S1x1 .f32) (ix2 (0 : Fin 1) q) = (V c (Pipeline.arrRef spec5 2) : S1x1.Idx → EReal) (ix2 (0 : Fin 1) Q) := by
  obtain rfl : Q = q := Fin.ext h
  obtain ⟨-, -, -, -, e0, e1, -⟩ := idx_facts5 t
  unfold iblk5
  rw [View.read_apply]
  show V c main_v151 _ = V c main_v151 _
  congr 1
  funext a
  apply Fin.ext
  match a with
  | ⟨0, _⟩ => show win5_2.index t (0 : Fin 2) * 1 + 1 * (0 : Fin 1).val = (0 : Fin 1).val; rw [e0]; omega
  | ⟨1, _⟩ => show win5_2.index t (1 : Fin 2) * 1 + 1 * Q.val = Q.val; rw [e1]; omega

/-! ## What a point writes back, and the array after the region -/

/-- What point t writes back is block t of the layer's result on the arrays as the region finds them. -/
theorem flushed5_eq (c : Dev nD) (t : Fin cfg5.N) :
    (dat5 V c).flushed 3 t = ((cfg5.win 3).blk t).view.read (Elt Ideal)
      (res5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S1000x128) hz5, View.ld_unit_zero (S := S128x1) hz5, View.ld_unit_zero (S := S1x1) hz5]
  obtain ⟨-, -, -, -, -, -, e30, e31⟩ := idx_facts5 t
  funext j
  have hj0 : (j 0).val < 1000 := (j 0).isLt
  have hj1 : (j 1).val < 1 := (j 1).isLt
  have hP : ((((cfg5.win 3).blk t).view.emb j) 0).val = t.val * 1000 + (j 0).val := by
    show win5_3.index t (0 : Fin 2) * 1000 + 1 * (j 0).val = _; rw [e30]; omega
  have hQ : ((((cfg5.win 3).blk t).view.emb j) 1).val = (j 1).val := by
    show win5_3.index t (1 : Fin 2) * 1 + 1 * (j 1).val = _; rw [e31]; omega
  refine (pay5_at (iblk5 V c 0 t) (iblk5 V c 1 t) (iblk5 V c 2 t) ((cfg5.win 3).xinj (grid5.coords t) j)
    ⟨(j 0).val, hj0⟩ ⟨(j 1).val, hj1⟩ rfl rfl).trans ?_
  show _ = val5 (V c (Pipeline.arrRef spec5 0)) (V c (Pipeline.arrRef spec5 1)) (V c (Pipeline.arrRef spec5 2))
    ((((cfg5.win 3).blk t).view.emb j) 0) ((((cfg5.win 3).blk t).view.emb j) 1)
  unfold val5
  refine congrArg sigm (congrArg₂ (· + ·) (Finset.sum_congr rfl fun k _ => congrArg₂ (· * ·) ?_ ?_) ?_)
  · exact blk5_0_apply V c t ⟨(j 0).val, hj0⟩ k _ hP
  · exact blk5_1_apply V c t k ⟨(j 1).val, hj1⟩ _ hQ
  · exact blk5_2_apply V c t ⟨(j 1).val, hj1⟩ _ hQ

/-- An index of the result array is in point t's block iff each coordinate is in the block's range on its axis. -/
theorem mem_blk5 (t : Fin cfg5.N) (i : S5000x1.Idx) :
    i ∈ ((cfg5.win 3).blk t).view.set ↔ ∀ a : Fin 2, win5_3.index t a * S1000x1.size a ≤ (i a).val ∧ (i a).val < win5_3.index t a * S1000x1.size a + S1000x1.size a := by
  show i ∈ ((View.whole main_v152).slice (win5_3.rect t)).set ↔ _
  rw [View.set_slice_whole, Rect.mem_set_unit]
  exact Iff.rfl

/-- The row blocks cover the result array: row r lies in block r / 1000. -/
theorem cover5 (i : S5000x1.Idx) : ∃ t : Fin cfg5.N, (cfg5.win 3).flush t = true ∧ i ∈ ((cfg5.win 3).blk t).view.set := by
  have hi0 : (i 0).val < 5000 := idx2_lt0 i
  have hi1 : (i 1).val < 1 := idx2_lt1 i
  have hN : cfg5.N = 5 := N_5
  obtain ⟨t, ht⟩ : ∃ t : Fin cfg5.N, t.val = (i 0).val / 1000 := ⟨⟨(i 0).val / 1000, by rw [hN]; omega⟩, rfl⟩
  obtain ⟨-, -, -, -, -, -, e30, e31⟩ := idx_facts5 t
  refine ⟨t, flush5_3 t, ?_⟩
  rw [mem_blk5]
  intro a
  match a with
  | ⟨0, _⟩ =>
    show win5_3.index t (0 : Fin 2) * 1000 ≤ (i 0).val ∧ (i 0).val < win5_3.index t (0 : Fin 2) * 1000 + 1000
    rw [e30, ht]; omega
  | ⟨1, _⟩ =>
    show win5_3.index t (1 : Fin 2) * 1 ≤ (i 1).val ∧ (i 1).val < win5_3.index t (1 : Fin 2) * 1 + 1
    rw [e31]; omega

/-- The result array after the region is the layer's result on the arrays as the region finds them. -/
theorem final5_arr (c : Dev nD) :
    (dat5 V c).arrAt 3 cfg5.N
      = res5 (V c (Pipeline.arrRef spec5 0)) (V c (Pipeline.arrRef spec5 1)) (V c (Pipeline.arrRef spec5 2)) :=
  (dat5 V c).arrAt_eq_of_cover 3 _ (fun t _ => flushed5_eq V c t) cover5

end

/-- Entry (p, q) of the result array after the region. -/
theorem final5 (V : (c : Dev nD) → (b : Ref sig .tc) → Buf (Elt Ideal) ((c : Thread nD τ).loc b)) (c : Dev nD) (p : Fin 5000) (q : Fin 1) :
    (Gen.dat5 (F := Ideal) V c).arrAt 3 cfg5.N (ix2 p q)
      = val5 (V c (Pipeline.arrRef spec5 0)) (V c (Pipeline.arrRef spec5 1)) (V c (Pipeline.arrRef spec5 2)) p q :=
  (congrFun (final5_arr V c) (ix2 p q)).trans rfl

/-- The same, the three arrays named by their buffers. -/
theorem final5_v (V : (c : Dev nD) → (b : Ref sig .tc) → Buf (Elt Ideal) ((c : Thread nD τ).loc b)) (c : Dev nD) (p : Fin 5000) (q : Fin 1) :
    (Gen.dat5 (F := Ideal) V c).arrAt 3 cfg5.N (ix2 p q) = val5 (V c main_v148) (V c main_v150) (V c main_v151) p q :=
  final5 V c p q

end Cert.KernelIdeal.RegVal

end
-- ==== Proof.KLin5.lean ====
/-
  Layer 5 of the kernel read entry by entry: the region's output array, after the run of its grid, holds at (p, q)
  the contraction of row p of the features entering the region with column q of the transposed weight, plus the bias
  entry, through the activation.
  The arrays the region reads are what the last host stretch before it leaves: the features and the transposed
  weight rounded to a narrower format (the identity on the extended reals) and the bias row (the bias vector as a one-row matrix).
-/
import proofs.«100723_j10694468567643_1_alg».proof.Proof.Gen.KernelIdeal.Frame
import proofs.«100723_j10694468567643_1_alg».proof.Proof.Region5
import proofs.«100723_j10694468567643_1_alg».proof.Proof.Spec
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.KLin

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The layer's arithmetic over any buffer contents `V`: with the features and the transposed weight through a
    change of float format (the identity on the extended reals) and the bias vector as a one-row matrix, entry (p, q) is
    the contraction of row p with column q plus the bias entry, through the activation. -/
theorem pure5 (V : Valuation τ sig (Elt Ideal)) (p : Fin 5000) (q : Fin 1) :
    RegVal.val5 (truncf .bf16 (V (Proc.devRef .tc main_v147)) bitsLt_bf16_f32 : FVec Ideal S5000x128 .bf16)
        (truncf .bf16 (transpose S128x1 [1, 0] (V (Proc.devRef .tc main_arg12)) transposes_S1x128_S128x1_1_0) bitsLt_bf16_f32 : FVec Ideal S128x1 .bf16)
        (shapeCast S1x1 (V (Proc.devRef .tc main_arg13)) shapeCasts_S1_S1x1 : FVec Ideal S1x1 .f32) p q
      = RegVal.sigm (Spec.lin (V (Proc.devRef .tc main_v147)) (transpose S128x1 [1, 0] (V (Proc.devRef .tc main_arg12)) transposes_S1x128_S128x1_1_0) p q + Spec.at1 (V (Proc.devRef .tc main_arg13)) q) := by
  rw [RegVal.val5_def]
  have hb : (shapeCast S1x1 (V (Proc.devRef .tc main_arg13)) shapeCasts_S1_S1x1) (ix2 (0 : Fin 1) q)
      = Spec.at1 (V (Proc.devRef .tc main_arg13)) q := shapeCast_a_1a_apply _ _ _ _
  rw [hb]
  exact congrArg RegVal.sigm (congrArg (· + _) (Finset.sum_congr rfl fun k _ => rfl))

/-- Layer 5: the region's output array at entry (p, q), over the buffer contents before the last host stretch. -/
theorem out5 (c : Dev nD) (p : Fin 5000) (q : Fin 1) :
    Spec.at2 (W18 m ρ c (Proc.devRef .tc main_v152)) p q
      = RegVal.sigm (Spec.lin (W16 m ρ c (Proc.devRef .tc main_v147)) (transpose S128x1 [1, 0] (W16 m ρ c (Proc.devRef .tc main_arg12)) transposes_S1x128_S128x1_1_0) p q + Spec.at1 (W16 m ρ c (Proc.devRef .tc main_arg13)) q) := by
  have e : W18 m ρ c (Proc.devRef .tc main_v152) = (dat5 (V17 m ρ) c).arrAt 3 cfg5.N := W18_arr m ρ c 3
  have x0 : (V17 m ρ c (Pipeline.arrRef spec5 0) : (⟨S5000x128, .bf16⟩ : BufTy).Contents (Elt Ideal)) = (truncf .bf16 (W16 m ρ c (Proc.devRef .tc main_v147)) bitsLt_bf16_f32 : FVec Ideal S5000x128 .bf16) := by
    show after hostOps5 (W16 m ρ c) (Proc.devRef .tc main_v148) = _
    generalize W16 m ρ c = V
    after_results_simp
  have x1 : (V17 m ρ c (Pipeline.arrRef spec5 1) : (⟨S128x1, .bf16⟩ : BufTy).Contents (Elt Ideal)) = (truncf .bf16 (transpose S128x1 [1, 0] (W16 m ρ c (Proc.devRef .tc main_arg12)) transposes_S1x128_S128x1_1_0) bitsLt_bf16_f32 : FVec Ideal S128x1 .bf16) := by
    show after hostOps5 (W16 m ρ c) (Proc.devRef .tc main_v150) = _
    generalize W16 m ρ c = V
    after_results_simp
  have x2 : (V17 m ρ c (Pipeline.arrRef spec5 2) : (⟨S1x1, .f32⟩ : BufTy).Contents (Elt Ideal)) = (shapeCast S1x1 (W16 m ρ c (Proc.devRef .tc main_arg13)) shapeCasts_S1_S1x1 : FVec Ideal S1x1 .f32) := by
    show after hostOps5 (W16 m ρ c) (Proc.devRef .tc main_v151) = _
    generalize W16 m ρ c = V
    after_results_simp
    rfl
  exact (congrFun e (ix2 p q)).trans ((RegVal.final5 (V17 m ρ) c p q).trans
    ((congr (congr (congrArg (fun a b d => RegVal.val5 a b d p q) x0) x1) x2).trans (pure5 (W16 m ρ c) p q)))

end Cert.KernelIdeal.KLin

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«100723_j10694468567643_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibHostRow.lean ====
/-
  A bias vector on the host, read at an entry, for any sizes and element type: a one-row matrix [1, b] repeated down
  a rows by broadcast_in_dim (dims [0, 1]) reads at (p, c) the row's entry c; a length-b vector laid as a [1, b] row by
  broadcast_in_dim (dims [1]) reads at (u, c) the vector's entry c; and a length-b vector CAST (reshaped) to a [1, b]
  row is that same row, so a kernel fed `b.reshape(1, d)` and a reference that broadcasts `b` see one array.
-/
import Idealize.ShloMosaic.Lib.Pipeline.Value
import Idealize.ShloMosaic.Lib.ValueIdx
import Idealize.ShloMosaic.Lib.ValueLayout

namespace Cert.LibHostRow

open Idealize.ShloMosaic Idealize.ShloMosaic.ValueIdx

variable {α : Type}

/-- A `[1, b]` array repeated down `a` rows by the host reads, at `(p, c)`, the one row at `c`. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector laid as a `[1, b]` row by the host reads, at `(u, c)`, the vector's entry `c`. -/
theorem bcastRow_apply {b : ℕ} (v : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A length-`b` vector cast to a `[1, b]` row is the host's laying of it as a row: both read the vector's entry in
    that column. -/
theorem castRow_eq_bcastRow {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, bcastRow_apply]

end Cert.LibHostRow
-- ==== Proof.RefPoint.lean ====
/-
  The reference's dense layers read entry by entry on the extended reals.
  * Each of its six matrix products contracts the left operand's columns with the right operand's rows, so its
    entry (p, q) is the sum over k of l(p, k) · r(k, q).
  * A bias vector b, made a one-row matrix and repeated down the rows, reads b(q) at (p, q).
  * Its leaky rectifier is `if 0 ≤ y then y else s · y` entry by entry, and its logistic is `1 / (1 + exp (-y))`.
-/
import proofs.«100723_j10694468567643_1_alg».proof.Proof.Gen.ReferenceIdeal
import proofs.«100723_j10694468567643_1_alg».proof.Proof.LibHostDotSum
import proofs.«100723_j10694468567643_1_alg».proof.Proof.LibPlainLists
import proofs.«100723_j10694468567643_1_alg».proof.Proof.LibHostRow
import Idealize.ShloMosaic.Lib.IdealHost
import Idealize.ShloMosaic.Lib.ValueLayout

noncomputable section

namespace Cert.RefPoint

open Idealize.ShloMosaic Idealize.ShloMosaic.ValueIdx Cert.LibMatmulSum Cert.ReferenceIdeal

theorem plain0 : Plain dot_S200000x40_S40x128_S200000x128_1_0_0_1_n_n := Plain.of_lists _ rfl rfl rfl rfl rfl rfl
theorem plain1 : Plain dot_S200000x128_S128x256_S200000x256_1_0_0_1_n_n := Plain.of_lists _ rfl rfl rfl rfl rfl rfl
theorem plain2 : Plain dot_S200000x256_S256x128_S200000x128_1_0_0_1_n_n := Plain.of_lists _ rfl rfl rfl rfl rfl rfl
theorem plain3 : Plain dot_S5000x5120_S5120x512_S5000x512_1_0_0_1_n_n := Plain.of_lists _ rfl rfl rfl rfl rfl rfl
theorem plain4 : Plain dot_S5000x512_S512x128_S5000x128_1_0_0_1_n_n := Plain.of_lists _ rfl rfl rfl rfl rfl rfl
theorem plain5 : Plain dot_S5000x128_S128x1_S5000x1_1_0_0_1_n_n := Plain.of_lists _ rfl rfl rfl rfl rfl rfl

/-- A scalar constant repeated over any shape reads the constant everywhere. -/
theorem splat_apply {S : Shape} (h : (⟨0, ![]⟩ : Shape).BroadcastsInDim S ![]) (w : BitVec 32) (i : S.Idx) :
    broadcastInDim S ![] h (constant (F := Ideal) ⟨0, ![]⟩ .f32 w) i = Ideal.ofBits .f32 w :=
  broadcastInDim_scalar_apply h _ i

/-- The reference's leaky rectifier at an entry. -/
theorem leaky_apply {S : Shape} (h : (⟨0, ![]⟩ : Shape).BroadcastsInDim S ![]) (y : FVec Ideal S .f32) (i : S.Idx) :
    select (cmpf .oge y (broadcastInDim S ![] h (constant (F := Ideal) ⟨0, ![]⟩ .f32 0x00000000#32))) y
        (mulf (broadcastInDim S ![] h (id (constant (F := Ideal) ⟨0, ![]⟩ .f32 0x3DCCCCCD#32))) y) i
      = Scalar.select (Ideal.cmp .oge (y i) 0) (y i) (Ideal.ofBits .f32 0x3DCCCCCD#32 * y i) := by
  rw [select_apply, cmpf_apply, mulf_apply, id, splat_apply, splat_apply, Ideal.cmpf_def, Ideal.ofBits_zero_f32]

/-- The reference's logistic at an entry. -/
theorem logistic_apply {S : Shape} (h : (⟨0, ![]⟩ : Shape).BroadcastsInDim S ![]) (y : FVec Ideal S .f32) (i : S.Idx) :
    Host.divf (broadcastInDim S ![] h (constant (F := Ideal) ⟨0, ![]⟩ .f32 0x3F800000#32))
        (addf (broadcastInDim S ![] h (constant (F := Ideal) ⟨0, ![]⟩ .f32 0x3F800000#32)) (Host.exp (Host.negf y))) i
      = Ideal.div (Ideal.ofBits .f32 0x3F800000#32) (Ideal.ofBits .f32 0x3F800000#32 + Ideal.exp (-(y i))) := by
  show Ideal.div (broadcastInDim S ![] h (constant (F := Ideal) ⟨0, ![]⟩ .f32 0x3F800000#32) i)
      (broadcastInDim S ![] h (constant (F := Ideal) ⟨0, ![]⟩ .f32 0x3F800000#32) i + Ideal.exp (-(y i))) = _
  rw [splat_apply]

/-- A bias vector made a one-row matrix and repeated down `a` rows reads the vector's entry `q` at `(p, q)`. -/
theorem biasRows_apply {a b : ℕ} (v : (⟨1, ![b]⟩ : Shape).Idx → EReal)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) := by
  rw [Cert.LibHostRow.bcastRows_apply, Cert.LibHostRow.bcastRow_apply]

end Cert.RefPoint

end
-- ==== Proof.RLin.lean ====
/-
  The reference's dense layers read entry by entry: the product of the incoming features with the transposed
  weight is, at (p, q), the sum over k of feature(p, k) · weightᵀ(k, q); the head's layers add the bias entry b(q)
  and apply the leaky rectifier (the last one the logistic).
-/
import proofs.«100723_j10694468567643_1_alg».proof.Proof.RefRun
import proofs.«100723_j10694468567643_1_alg».proof.Proof.RefPoint
import proofs.«100723_j10694468567643_1_alg».proof.Proof.Spec

noncomputable section

namespace Cert.ReferenceIdeal.RLin

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.RefRun Cert.LibMatmulSum

/-- Layer 0 of the reference at entry (p, q). -/
theorem rlin0 (Vr : Valuation τ sig (Elt Ideal)) (p : Fin 200000) (q : Fin 128) :
    Spec.at2 (after (rops0l (F := Ideal)) Vr (Proc.devRef .tc main_v12)) p q
      = Spec.lin (Vr (Proc.devRef .tc main_arg0)) (transpose S40x128 [1, 0] (Vr (Proc.devRef .tc main_arg2)) transposes_S128x40_S40x128_1_0) p q := by
  unfold Spec.at2 Spec.lin
  after_results_simp
  exact hostDot_at RefPoint.plain0 none _ _ p q

/-- Layer 1 of the reference at entry (p, q). -/
theorem rlin1 (Vr : Valuation τ sig (Elt Ideal)) (p : Fin 200000) (q : Fin 256) :
    Spec.at2 (after (rops1l (F := Ideal)) Vr (Proc.devRef .tc main_v51)) p q
      = Spec.lin (Vr (Proc.devRef .tc main_v49)) (transpose S128x256 [1, 0] (Vr (Proc.devRef .tc main_arg4)) transposes_S256x128_S128x256_1_0) p q := by
  unfold Spec.at2 Spec.lin
  after_results_simp
  exact hostDot_at RefPoint.plain1 none _ _ p q

/-- Layer 2 of the reference at entry (p, q). -/
theorem rlin2 (Vr : Valuation τ sig (Elt Ideal)) (p : Fin 200000) (q : Fin 128) :
    Spec.at2 (after (rops2l (F := Ideal)) Vr (Proc.devRef .tc main_v90)) p q
      = Spec.lin (Vr (Proc.devRef .tc main_v88)) (transpose S256x128 [1, 0] (Vr (Proc.devRef .tc main_arg6)) transposes_S128x256_S256x128_1_0) p q := by
  unfold Spec.at2 Spec.lin
  after_results_simp
  exact hostDot_at RefPoint.plain2 none _ _ p q

/-- Layer 3 of the reference at entry (p, q). -/
theorem rlin3 (Vr : Valuation τ sig (Elt Ideal)) (p : Fin 5000) (q : Fin 512) :
    Spec.at2 (after (rops3l (F := Ideal)) Vr (Proc.devRef .tc main_v134)) p q
      = Scalar.select (Ideal.cmp .oge (Spec.lin (shapeCast S5000x5120 (Vr (Proc.devRef .tc main_v127)) shapeCasts_S200000x128_S5000x5120) (transpose S5120x512 [1, 0] (Vr (Proc.devRef .tc main_arg8)) transposes_S512x5120_S5120x512_1_0) p q + Spec.at1 (Vr (Proc.devRef .tc main_arg9)) q) 0) (Spec.lin (shapeCast S5000x5120 (Vr (Proc.devRef .tc main_v127)) shapeCasts_S200000x128_S5000x5120) (transpose S5120x512 [1, 0] (Vr (Proc.devRef .tc main_arg8)) transposes_S512x5120_S5120x512_1_0) p q + Spec.at1 (Vr (Proc.devRef .tc main_arg9)) q) (Ideal.ofBits .f32 0x3DCCCCCD#32 * (Spec.lin (shapeCast S5000x5120 (Vr (Proc.devRef .tc main_v127)) shapeCasts_S200000x128_S5000x5120) (transpose S5120x512 [1, 0] (Vr (Proc.devRef .tc main_arg8)) transposes_S512x5120_S5120x512_1_0) p q + Spec.at1 (Vr (Proc.devRef .tc main_arg9)) q)) := by
  unfold Spec.at2 Spec.lin Spec.at1
  after_results_simp
  simp only [TRef.toBuf, TRef.ofBuf, cast_cast, cast_eq]
  rw [RefPoint.leaky_apply, addf_apply, hostDot_at RefPoint.plain3, RefPoint.biasRows_apply]
  rfl

/-- Layer 4 of the reference at entry (p, q). -/
theorem rlin4 (Vr : Valuation τ sig (Elt Ideal)) (p : Fin 5000) (q : Fin 128) :
    Spec.at2 (after (rops4 (F := Ideal)) Vr (Proc.devRef .tc main_v140)) p q
      = Scalar.select (Ideal.cmp .oge (Spec.lin (Vr (Proc.devRef .tc main_v134)) (transpose S512x128 [1, 0] (Vr (Proc.devRef .tc main_arg10)) transposes_S128x512_S512x128_1_0) p q + Spec.at1 (Vr (Proc.devRef .tc main_arg11)) q) 0) (Spec.lin (Vr (Proc.devRef .tc main_v134)) (transpose S512x128 [1, 0] (Vr (Proc.devRef .tc main_arg10)) transposes_S128x512_S512x128_1_0) p q + Spec.at1 (Vr (Proc.devRef .tc main_arg11)) q) (Ideal.ofBits .f32 0x3DCCCCCD#32 * (Spec.lin (Vr (Proc.devRef .tc main_v134)) (transpose S512x128 [1, 0] (Vr (Proc.devRef .tc main_arg10)) transposes_S128x512_S512x128_1_0) p q + Spec.at1 (Vr (Proc.devRef .tc main_arg11)) q)) := by
  unfold Spec.at2 Spec.lin Spec.at1
  after_results_simp
  simp only [TRef.toBuf, TRef.ofBuf, cast_cast, cast_eq]
  rw [RefPoint.leaky_apply, addf_apply, hostDot_at RefPoint.plain4, RefPoint.biasRows_apply]

/-- Layer 5 of the reference at entry (p, q). -/
theorem rlin5 (Vr : Valuation τ sig (Elt Ideal)) (p : Fin 5000) (q : Fin 1) :
    Spec.at2 (after (rops5 (F := Ideal)) Vr (Proc.devRef .tc main_v151)) p q
      = Ideal.div (Ideal.ofBits .f32 0x3F800000#32) (Ideal.ofBits .f32 0x3F800000#32 + Ideal.exp (-(Spec.lin (Vr (Proc.devRef .tc main_v140)) (transpose S128x1 [1, 0] (Vr (Proc.devRef .tc main_arg12)) transposes_S1x128_S128x1_1_0) p q + Spec.at1 (Vr (Proc.devRef .tc main_arg13)) q))) := by
  unfold Spec.at2 Spec.lin Spec.at1
  after_results_simp
  rw [RefPoint.logistic_apply, addf_apply, hostDot_at RefPoint.plain5, RefPoint.biasRows_apply]

end Cert.ReferenceIdeal.RLin

end
-- ==== Proof.Glue0.lean ====
/-
  The two programs' prologues in lockstep. Both begin with the same fourteen operations on the edge table: its two
  rows sliced out and flattened (sources and targets), the in-degree counted by scattering ones over the targets, one
  added for the self loop, and the inverse square root taken. From equal edge tables the two programs therefore hold
  equal sources, equal targets and equal normalizing factors.
-/
import proofs.«100723_j10694468567643_1_alg».proof.Proof.Gen.KernelIdeal.Launch
import proofs.«100723_j10694468567643_1_alg».proof.Proof.RefRun
import Idealize.ShloMosaic.Lib.StableHlo.Run
import Idealize.ShloMosaic.PureOps.Ideal

noncomputable section

namespace Cert.Glue

open Idealize.ShloMosaic Idealize.ShloMosaic.TcCoe Idealize.ShloMosaic.StableHlo Idealize.SL.Sem

/-- From equal edge tables, after the prologue: equal source indices (`main_v1`), equal target indices (`main_v3`)
    and equal inverse square roots of the degrees (`main_v10`). Each buffer's contents is the same pure term of the
    edge table on both sides: the operations agree one by one, and the shapes and the scatter's dimension record,
    named separately by the two programs, are the same literals. -/
theorem glue0 (Vk : Valuation Cert.KernelIdeal.τ Cert.KernelIdeal.sig (Elt Ideal)) (Vr : Valuation Cert.ReferenceIdeal.τ Cert.ReferenceIdeal.sig (Elt Ideal))
    (ha1 : Vk (Proc.devRef .tc Cert.KernelIdeal.main_arg1) = Vr (Proc.devRef .tc Cert.ReferenceIdeal.main_arg1)) :
    after (Cert.KernelIdeal.Gen.hostOps0 (F := Ideal)) Vk (Proc.devRef .tc Cert.KernelIdeal.main_v1) = after (Cert.ReferenceIdeal.RefRun.rops0g (F := Ideal)) Vr (Proc.devRef .tc Cert.ReferenceIdeal.main_v1)
    ∧ after (Cert.KernelIdeal.Gen.hostOps0 (F := Ideal)) Vk (Proc.devRef .tc Cert.KernelIdeal.main_v3) = after (Cert.ReferenceIdeal.RefRun.rops0g (F := Ideal)) Vr (Proc.devRef .tc Cert.ReferenceIdeal.main_v3)
    ∧ after (Cert.KernelIdeal.Gen.hostOps0 (F := Ideal)) Vk (Proc.devRef .tc Cert.KernelIdeal.main_v10) = after (Cert.ReferenceIdeal.RefRun.rops0g (F := Ideal)) Vr (Proc.devRef .tc Cert.ReferenceIdeal.main_v10) := by
  refine ⟨?_, ?_, ?_⟩
  · after_results_simp
    rw [ha1]
    rfl
  · after_results_simp
    rw [ha1]
    rfl
  · after_results_simp
    rw [ha1]
    rfl

end Cert.Glue

end
-- ==== Proof.RefCut.lean ====
/- Each glue piece of the reference's @main cut at its call: the operations before the leaky rectifier, and the
   rectifier's own seven (the zero and its broadcast, the comparison, the slope converted and broadcast, the product,
   the select). -/
import proofs.«100723_j10694468567643_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `rops1g`'s first 44 operations, from `%c` through `%cst_8`: the first layer's gather–scatter over the edges, its self term and bias, and the slope constant: everything before `main_call0`'s seven. -/
abbrev rops1z : List (HloOp τ sig (Elt F)) :=
  ( StableHlo.nullary main_c (constantI S_ 32 0#32)
  :: StableHlo.unary main_c main_v13 (broadcastInDim S1000000 ![] bcast_S_S1000000 : (⟨S_, .i32⟩ : BufTy).Contents (Elt F) → (⟨S1000000, .i32⟩ : BufTy).Contents (Elt F))
  :: StableHlo.binary main_v1 main_v13 main_v14 (cmpi .slt : (⟨S1000000, .i32⟩ : BufTy).Contents (Elt F) → (⟨S1000000, .i32⟩ : BufTy).Contents (Elt F) → (⟨S1000000, .i1⟩ : BufTy).Contents (Elt F))
  :: StableHlo.nullary main_c_2 (constantI S_ 32 200000#32)
  :: StableHlo.unary main_c_2 main_v15 (broadcastInDim S1000000 ![] bcast_S_S1000000 : (⟨S_, .i32⟩ : BufTy).Contents (Elt F) → (⟨S1000000, .i32⟩ : BufTy).Contents (Elt F))
  :: StableHlo.binary main_v1 main_v15 main_v16 (addi : (⟨S1000000, .i32⟩ : BufTy).Contents (Elt F) → (⟨S1000000, .i32⟩ : BufTy).Contents (Elt F) → (⟨S1000000, .i32⟩ : BufTy).Contents (Elt F))
  :: StableHlo.ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v17 main_v18 (broadcastInDim S1000000x1 ![0] bcast_S1000000_S1000000x1_0 : (⟨S1000000, .i32⟩ : BufTy).Contents (Elt F) → (⟨S1000000x1, .i32⟩ : BufTy).Contents (Elt F))
  :: StableHlo.binary main_v10 main_v18 main_v19 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_3 (constantI S_ 32 0#32)
  :: StableHlo.unary main_c_3 main_v20 (broadcastInDim S1000000 ![] bcast_S_S1000000 : (⟨S_, .i32⟩ : BufTy).Contents (Elt F) → (⟨S1000000, .i32⟩ : BufTy).Contents (Elt F))
  :: StableHlo.binary main_v3 main_v20 main_v21 (cmpi .slt : (⟨S1000000, .i32⟩ : BufTy).Contents (Elt F) → (⟨S1000000, .i32⟩ : BufTy).Contents (Elt F) → (⟨S1000000, .i1⟩ : BufTy).Contents (Elt F))
  :: StableHlo.nullary main_c_4 (constantI S_ 32 200000#32)
  :: StableHlo.unary main_c_4 main_v22 (broadcastInDim S1000000 ![] bcast_S_S1000000 : (⟨S_, .i32⟩ : BufTy).Contents (Elt F) → (⟨S1000000, .i32⟩ : BufTy).Contents (Elt F))
  :: StableHlo.binary main_v3 main_v22 main_v23 (addi : (⟨S1000000, .i32⟩ : BufTy).Contents (Elt F) → (⟨S1000000, .i32⟩ : BufTy).Contents (Elt F) → (⟨S1000000, .i32⟩ : BufTy).Contents (Elt F))
  :: StableHlo.ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v24 main_v25 (broadcastInDim S1000000x1 ![0] bcast_S1000000_S1000000x1_0 : (⟨S1000000, .i32⟩ : BufTy).Contents (Elt F) → (⟨S1000000x1, .i32⟩ : BufTy).Contents (Elt F))
  :: StableHlo.binary main_v10 main_v25 main_v26 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v19 main_v26 main_v27 (mulf : (⟨S1000000, .f32⟩ : BufTy).Contents (Elt F) → (⟨S1000000, .f32⟩ : BufTy).Contents (Elt F) → (⟨S1000000, .f32⟩ : BufTy).Contents (Elt F))
  :: StableHlo.nullary main_c_5 (constantI S_ 32 0#32)
  :: StableHlo.unary main_c_5 main_v28 (broadcastInDim S1000000 ![] bcast_S_S1000000 : (⟨S_, .i32⟩ : BufTy).Contents (Elt F) → (⟨S1000000, .i32⟩ : BufTy).Contents (Elt F))
  :: StableHlo.binary main_v1 main_v28 main_v29 (cmpi .slt : (⟨S1000000, .i32⟩ : BufTy).Contents (Elt F) → (⟨S1000000, .i32⟩ : BufTy).Contents (Elt F) → (⟨S1000000, .i1⟩ : BufTy).Contents (Elt F))
  :: StableHlo.nullary main_c_6 (constantI S_ 32 200000#32)
  :: StableHlo.unary main_c_6 main_v30 (broadcastInDim S1000000 ![] bcast_S_S1000000 : (⟨S_, .i32⟩ : BufTy).Contents (Elt F) → (⟨S1000000, .i32⟩ : BufTy).Contents (Elt F))
  :: StableHlo.binary main_v1 main_v30 main_v31 (addi : (⟨S1000000, .i32⟩ : BufTy).Contents (Elt F) → (⟨S1000000, .i32⟩ : BufTy).Contents (Elt F) → (⟨S1000000, .i32⟩ : BufTy).Contents (Elt F))
  :: StableHlo.ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v32 main_v33 (broadcastInDim S1000000x1 ![0] bcast_S1000000_S1000000x1_0 : (⟨S1000000, .i32⟩ : BufTy).Contents (Elt F) → (⟨S1000000x1, .i32⟩ : BufTy).Contents (Elt F))
  :: StableHlo.binary main_v12 main_v33 main_v34 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v27 main_v35 (broadcastInDim S1000000x1 ![0] bcast_S1000000_S1000000x1_0 : (⟨S1000000, .f32⟩ : BufTy).Contents (Elt F) → (⟨S1000000x1, .f32⟩ : BufTy).Contents (Elt F))
  :: StableHlo.unary main_v35 main_v36 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v34 main_v36 main_v37 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_7 (constant S_ .f32 0x00000000#32)
  :: StableHlo.unary main_cst_7 main_v38 (broadcastInDim S200000x128 ![] bcast_S_S200000x128 : (⟨S_, .f32⟩ : BufTy).Contents (Elt F) → (⟨S200000x128, .f32⟩ : BufTy).Contents (Elt F))
  :: StableHlo.unary main_v3 main_v39 (broadcastInDim S1000000x1 ![0] bcast_S1000000_S1000000x1_0 : (⟨S1000000, .i32⟩ : BufTy).Contents (Elt F) → (⟨S1000000x1, .i32⟩ : BufTy).Contents (Elt F))
  :: StableHlo.ternary main_v38 main_v39 main_v37 main_v40 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v41 (mulf : (⟨S200000, .f32⟩ : BufTy).Contents (Elt F) → (⟨S200000, .f32⟩ : BufTy).Contents (Elt F) → (⟨S200000, .f32⟩ : BufTy).Contents (Elt F))
  :: StableHlo.unary main_v41 main_v42 (broadcastInDim S200000x1 ![0] bcast_S200000_S200000x1_0 : (⟨S200000, .f32⟩ : BufTy).Contents (Elt F) → (⟨S200000x1, .f32⟩ : BufTy).Contents (Elt F))
  :: StableHlo.unary main_v42 main_v43 (broadcastInDim S200000x128 ![0, 1] bcast_S200000x1_S200000x128_0_1 : (⟨S200000x1, .f32⟩ : BufTy).Contents (Elt F) → (⟨S200000x128, .f32⟩ : BufTy).Contents (Elt F))
  :: StableHlo.binary main_v12 main_v43 main_v44 (mulf : (⟨S200000x128, .f32⟩ : BufTy).Contents (Elt F) → (⟨S200000x128, .f32⟩ : BufTy).Contents (Elt F) → (⟨S200000x128, .f32⟩ : BufTy).Contents (Elt F))
  :: StableHlo.binary main_v40 main_v44 main_v45 (addf : (⟨S200000x128, .f32⟩ : BufTy).Contents (Elt F) → (⟨S200000x128, .f32⟩ : BufTy).Contents (Elt F) → (⟨S200000x128, .f32⟩ : BufTy).Contents (Elt F))
  :: StableHlo.unary main_arg3 main_v46 (broadcastInDim S1x128 ![1] bcast_S128_S1x128_1 : (⟨S128, .f32⟩ : BufTy).Contents (Elt F) → (⟨S1x128, .f32⟩ : BufTy).Contents (Elt F))
  :: StableHlo.unary main_v46 main_v47 (broadcastInDim S200000x128 ![0, 1] bcast_S1x128_S200000x128_0_1 : (⟨S1x128, .f32⟩ : BufTy).Contents (Elt F) → (⟨S200000x128, .f32⟩ : BufTy).Contents (Elt F))
  :: StableHlo.binary main_v45 main_v47 main_v48 (addf : (⟨S200000x128, .f32⟩ : BufTy).Contents (Elt F) → (⟨S200000x128, .f32⟩ : BufTy).Contents (Elt F) → (⟨S200000x128, .f32⟩ : BufTy).Contents (Elt F))
  :: StableHlo.nullary main_cst_8 (constant S_ .f32 0x3DCCCCCD#32)
  :: [] )

/-- `main_call0`'s seven operations, ending with the select into `main_v49`. -/
abbrev rops1a : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S200000x128, .f32⟩) (broadcastInDim S200000x128 ![] bcast_S_S200000x128)
  :: StableHlo.TRef.binary (.of main_v48 : StableHlo.TRef sig ⟨S200000x128, .f32⟩) (.of main_call0_v0 : StableHlo.TRef sig ⟨S200000x128, .f32⟩) (.of main_call0_v1 : StableHlo.TRef sig ⟨S200000x128, .i1⟩) (cmpf .oge)
  :: StableHlo.TRef.unary (.of main_cst_8 : StableHlo.TRef sig ⟨S_, .f32⟩) (.of main_call0_v2 : StableHlo.TRef sig ⟨S_, .f32⟩) id
  :: StableHlo.TRef.unary (.of main_call0_v2 : StableHlo.TRef sig ⟨S_, .f32⟩) (.of main_call0_v3 : StableHlo.TRef sig ⟨S200000x128, .f32⟩) (broadcastInDim S200000x128 ![] bcast_S_S200000x128)
  :: StableHlo.TRef.binary (.of main_call0_v3 : StableHlo.TRef sig ⟨S200000x128, .f32⟩) (.of main_v48 : StableHlo.TRef sig ⟨S200000x128, .f32⟩) (.of main_call0_v4 : StableHlo.TRef sig ⟨S200000x128, .f32⟩) mulf
  :: StableHlo.TRef.ternary (.of main_call0_v1 : StableHlo.TRef sig ⟨S200000x128, .i1⟩) (.of main_v48 : StableHlo.TRef sig ⟨S200000x128, .f32⟩) (.of main_call0_v4 : StableHlo.TRef sig ⟨S200000x128, .f32⟩) (.of main_v49 : StableHlo.TRef sig ⟨S200000x128, .f32⟩) select
  :: [] )

theorem rops1g_eq : (rops1g : List (HloOp τ sig (Elt F))) = rops1z ++ rops1a := rfl

/-- `rops2g`'s first 44 operations, from `%c_9` through `%cst_16`: the second layer's gather–scatter over the edges, its self term and bias, and the slope constant: everything before `main_call1`'s seven. -/
abbrev rops2z : List (HloOp τ sig (Elt F)) :=
  ( StableHlo.nullary main_c_9 (constantI S_ 32 0#32)
  :: StableHlo.unary main_c_9 main_v52 (broadcastInDim S1000000 ![] bcast_S_S1000000 : (⟨S_, .i32⟩ : BufTy).Contents (Elt F) → (⟨S1000000, .i32⟩ : BufTy).Contents (Elt F))
  :: StableHlo.binary main_v1 main_v52 main_v53 (cmpi .slt : (⟨S1000000, .i32⟩ : BufTy).Contents (Elt F) → (⟨S1000000, .i32⟩ : BufTy).Contents (Elt F) → (⟨S1000000, .i1⟩ : BufTy).Contents (Elt F))
  :: StableHlo.nullary main_c_10 (constantI S_ 32 200000#32)
  :: StableHlo.unary main_c_10 main_v54 (broadcastInDim S1000000 ![] bcast_S_S1000000 : (⟨S_, .i32⟩ : BufTy).Contents (Elt F) → (⟨S1000000, .i32⟩ : BufTy).Contents (Elt F))
  :: StableHlo.binary main_v1 main_v54 main_v55 (addi : (⟨S1000000, .i32⟩ : BufTy).Contents (Elt F) → (⟨S1000000, .i32⟩ : BufTy).Contents (Elt F) → (⟨S1000000, .i32⟩ : BufTy).Contents (Elt F))
  :: StableHlo.ternary main_v53 main_v55 main_v1 main_v56 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v56 main_v57 (broadcastInDim S1000000x1 ![0] bcast_S1000000_S1000000x1_0 : (⟨S1000000, .i32⟩ : BufTy).Contents (Elt F) → (⟨S1000000x1, .i32⟩ : BufTy).Contents (Elt F))
  :: StableHlo.binary main_v10 main_v57 main_v58 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_11 (constantI S_ 32 0#32)
  :: StableHlo.unary main_c_11 main_v59 (broadcastInDim S1000000 ![] bcast_S_S1000000 : (⟨S_, .i32⟩ : BufTy).Contents (Elt F) → (⟨S1000000, .i32⟩ : BufTy).Contents (Elt F))
  :: StableHlo.binary main_v3 main_v59 main_v60 (cmpi .slt : (⟨S1000000, .i32⟩ : BufTy).Contents (Elt F) → (⟨S1000000, .i32⟩ : BufTy).Contents (Elt F) → (⟨S1000000, .i1⟩ : BufTy).Contents (Elt F))
  :: StableHlo.nullary main_c_12 (constantI S_ 32 200000#32)
  :: StableHlo.unary main_c_12 main_v61 (broadcastInDim S1000000 ![] bcast_S_S1000000 : (⟨S_, .i32⟩ : BufTy).Contents (Elt F) → (⟨S1000000, .i32⟩ : BufTy).Contents (Elt F))
  :: StableHlo.binary main_v3 main_v61 main_v62 (addi : (⟨S1000000, .i32⟩ : BufTy).Contents (Elt F) → (⟨S1000000, .i32⟩ : BufTy).Contents (Elt F) → (⟨S1000000, .i32⟩ : BufTy).Contents (Elt F))
  :: StableHlo.ternary main_v60 main_v62 main_v3 main_v63 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v63 main_v64 (broadcastInDim S1000000x1 ![0] bcast_S1000000_S1000000x1_0 : (⟨S1000000, .i32⟩ : BufTy).Contents (Elt F) → (⟨S1000000x1, .i32⟩ : BufTy).Contents (Elt F))
  :: StableHlo.binary main_v10 main_v64 main_v65 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v58 main_v65 main_v66 (mulf : (⟨S1000000, .f32⟩ : BufTy).Contents (Elt F) → (⟨S1000000, .f32⟩ : BufTy).Contents (Elt F) → (⟨S1000000, .f32⟩ : BufTy).Contents (Elt F))
  :: StableHlo.nullary main_c_13 (constantI S_ 32 0#32)
  :: StableHlo.unary main_c_13 main_v67 (broadcastInDim S1000000 ![] bcast_S_S1000000 : (⟨S_, .i32⟩ : BufTy).Contents (Elt F) → (⟨S1000000, .i32⟩ : BufTy).Contents (Elt F))
  :: StableHlo.binary main_v1 main_v67 main_v68 (cmpi .slt : (⟨S1000000, .i32⟩ : BufTy).Contents (Elt F) → (⟨S1000000, .i32⟩ : BufTy).Contents (Elt F) → (⟨S1000000, .i1⟩ : BufTy).Contents (Elt F))
  :: StableHlo.nullary main_c_14 (constantI S_ 32 200000#32)
  :: StableHlo.unary main_c_14 main_v69 (broadcastInDim S1000000 ![] bcast_S_S1000000 : (⟨S_, .i32⟩ : BufTy).Contents (Elt F) → (⟨S1000000, .i32⟩ : BufTy).Contents (Elt F))
  :: StableHlo.binary main_v1 main_v69 main_v70 (addi : (⟨S1000000, .i32⟩ : BufTy).Contents (Elt F) → (⟨S1000000, .i32⟩ : BufTy).Contents (Elt F) → (⟨S1000000, .i32⟩ : BufTy).Contents (Elt F))
  :: StableHlo.ternary main_v68 main_v70 main_v1 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v71 main_v72 (broadcastInDim S1000000x1 ![0] bcast_S1000000_S1000000x1_0 : (⟨S1000000, .i32⟩ : BufTy).Contents (Elt F) → (⟨S1000000x1, .i32⟩ : BufTy).Contents (Elt F))
  :: StableHlo.binary main_v51 main_v72 main_v73 ((fun x i => Host.gather gather_S200000x256_S1000000x1_S1000000x256_1_0_n_n_0_1_1256 x i) : (⟨S200000x256, .f32⟩ : BufTy).Contents (Elt F) → (⟨S1000000x1, .i32⟩ : BufTy).Contents (Elt F) → (⟨S1000000x256, .f32⟩ : BufTy).Contents (Elt F))
  :: StableHlo.unary main_v66 main_v74 (broadcastInDim S1000000x1 ![0] bcast_S1000000_S1000000x1_0 : (⟨S1000000, .f32⟩ : BufTy).Contents (Elt F) → (⟨S1000000x1, .f32⟩ : BufTy).Contents (Elt F))
  :: StableHlo.unary main_v74 main_v75 (broadcastInDim S1000000x256 ![0, 1] bcast_S1000000x1_S1000000x256_0_1 : (⟨S1000000x1, .f32⟩ : BufTy).Contents (Elt F) → (⟨S1000000x256, .f32⟩ : BufTy).Contents (Elt F))
  :: StableHlo.binary main_v73 main_v75 main_v76 (mulf : (⟨S1000000x256, .f32⟩ : BufTy).Contents (Elt F) → (⟨S1000000x256, .f32⟩ : BufTy).Contents (Elt F) → (⟨S1000000x256, .f32⟩ : BufTy).Contents (Elt F))
  :: StableHlo.nullary main_cst_15 (constant S_ .f32 0x00000000#32)
  :: StableHlo.unary main_cst_15 main_v77 (broadcastInDim S200000x256 ![] bcast_S_S200000x256 : (⟨S_, .f32⟩ : BufTy).Contents (Elt F) → (⟨S200000x256, .f32⟩ : BufTy).Contents (Elt F))
  :: StableHlo.unary main_v3 main_v78 (broadcastInDim S1000000x1 ![0] bcast_S1000000_S1000000x1_0 : (⟨S1000000, .i32⟩ : BufTy).Contents (Elt F) → (⟨S1000000x1, .i32⟩ : BufTy).Contents (Elt F))
  :: StableHlo.ternary main_v77 main_v78 main_v76 main_v79 ((fun x i u => Host.scatterAdd scatter_S200000x256_S1000000x1_S1000000x256_1_0_0_1 x i u) : (⟨S200000x256, .f32⟩ : BufTy).Contents (Elt F) → (⟨S1000000x1, .i32⟩ : BufTy).Contents (Elt F) → (⟨S1000000x256, .f32⟩ : BufTy).Contents (Elt F) → (⟨S200000x256, .f32⟩ : BufTy).Contents (Elt F))
  :: StableHlo.binary main_v10 main_v10 main_v80 (mulf : (⟨S200000, .f32⟩ : BufTy).Contents (Elt F) → (⟨S200000, .f32⟩ : BufTy).Contents (Elt F) → (⟨S200000, .f32⟩ : BufTy).Contents (Elt F))
  :: StableHlo.unary main_v80 main_v81 (broadcastInDim S200000x1 ![0] bcast_S200000_S200000x1_0 : (⟨S200000, .f32⟩ : BufTy).Contents (Elt F) → (⟨S200000x1, .f32⟩ : BufTy).Contents (Elt F))
  :: StableHlo.unary main_v81 main_v82 (broadcastInDim S200000x256 ![0, 1] bcast_S200000x1_S200000x256_0_1 : (⟨S200000x1, .f32⟩ : BufTy).Contents (Elt F) → (⟨S200000x256, .f32⟩ : BufTy).Contents (Elt F))
  :: StableHlo.binary main_v51 main_v82 main_v83 (mulf : (⟨S200000x256, .f32⟩ : BufTy).Contents (Elt F) → (⟨S200000x256, .f32⟩ : BufTy).Contents (Elt F) → (⟨S200000x256, .f32⟩ : BufTy).Contents (Elt F))
  :: StableHlo.binary main_v79 main_v83 main_v84 (addf : (⟨S200000x256, .f32⟩ : BufTy).Contents (Elt F) → (⟨S200000x256, .f32⟩ : BufTy).Contents (Elt F) → (⟨S200000x256, .f32⟩ : BufTy).Contents (Elt F))
  :: StableHlo.unary main_arg5 main_v85 (broadcastInDim S1x256 ![1] bcast_S256_S1x256_1 : (⟨S256, .f32⟩ : BufTy).Contents (Elt F) → (⟨S1x256, .f32⟩ : BufTy).Contents (Elt F))
  :: StableHlo.unary main_v85 main_v86 (broadcastInDim S200000x256 ![0, 1] bcast_S1x256_S200000x256_0_1 : (⟨S1x256, .f32⟩ : BufTy).Contents (Elt F) → (⟨S200000x256, .f32⟩ : BufTy).Contents (Elt F))
  :: StableHlo.binary main_v84 main_v86 main_v87 (addf : (⟨S200000x256, .f32⟩ : BufTy).Contents (Elt F) → (⟨S200000x256, .f32⟩ : BufTy).Contents (Elt F) → (⟨S200000x256, .f32⟩ : BufTy).Contents (Elt F))
  :: StableHlo.nullary main_cst_16 (constant S_ .f32 0x3DCCCCCD#32)
  :: [] )

/-- `main_call1`'s seven operations, ending with the select into `main_v88`. -/
abbrev rops2a : List (HloOp τ sig (Elt F)) :=
  ( StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S200000x256, .f32⟩) (broadcastInDim S200000x256 ![] bcast_S_S200000x256)
  :: StableHlo.TRef.binary (.of main_v87 : StableHlo.TRef sig ⟨S200000x256, .f32⟩) (.of main_call1_v0 : StableHlo.TRef sig ⟨S200000x256, .f32⟩) (.of main_call1_v1 : StableHlo.TRef sig ⟨S200000x256, .i1⟩) (cmpf .oge)
  :: StableHlo.TRef.unary (.of main_cst_16 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S200000x256, .f32⟩) (broadcastInDim S200000x256 ![] bcast_S_S200000x256)
  :: StableHlo.TRef.binary (.of main_call1_v3 : StableHlo.TRef sig ⟨S200000x256, .f32⟩) (.of main_v87 : StableHlo.TRef sig ⟨S200000x256, .f32⟩) (.of main_call1_v4 : StableHlo.TRef sig ⟨S200000x256, .f32⟩) mulf
  :: StableHlo.TRef.ternary (.of main_call1_v1 : StableHlo.TRef sig ⟨S200000x256, .i1⟩) (.of main_v87 : StableHlo.TRef sig ⟨S200000x256, .f32⟩) (.of main_call1_v4 : StableHlo.TRef sig ⟨S200000x256, .f32⟩) (.of main_v88 : StableHlo.TRef sig ⟨S200000x256, .f32⟩) select
  :: [] )

theorem rops2g_eq : (rops2g : List (HloOp τ sig (Elt F))) = rops2z ++ rops2a := rfl

/-- `rops3g`'s first 44 operations, from `%c_17` through `%cst_24`: the third layer's gather–scatter over the edges, its self term and bias, and the slope constant: everything before `main_call2`'s seven. -/
abbrev rops3z : List (HloOp τ sig (Elt F)) :=
  ( StableHlo.nullary main_c_17 (constantI S_ 32 0#32)
  :: StableHlo.unary main_c_17 main_v91 (broadcastInDim S1000000 ![] bcast_S_S1000000 : (⟨S_, .i32⟩ : BufTy).Contents (Elt F) → (⟨S1000000, .i32⟩ : BufTy).Contents (Elt F))
  :: StableHlo.binary main_v1 main_v91 main_v92 (cmpi .slt : (⟨S1000000, .i32⟩ : BufTy).Contents (Elt F) → (⟨S1000000, .i32⟩ : BufTy).Contents (Elt F) → (⟨S1000000, .i1⟩ : BufTy).Contents (Elt F))
  :: StableHlo.nullary main_c_18 (constantI S_ 32 200000#32)
  :: StableHlo.unary main_c_18 main_v93 (broadcastInDim S1000000 ![] bcast_S_S1000000 : (⟨S_, .i32⟩ : BufTy).Contents (Elt F) → (⟨S1000000, .i32⟩ : BufTy).Contents (Elt F))
  :: StableHlo.binary main_v1 main_v93 main_v94 (addi : (⟨S1000000, .i32⟩ : BufTy).Contents (Elt F) → (⟨S1000000, .i32⟩ : BufTy).Contents (Elt F) → (⟨S1000000, .i32⟩ : BufTy).Contents (Elt F))
  :: StableHlo.ternary main_v92 main_v94 main_v1 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v95 main_v96 (broadcastInDim S1000000x1 ![0] bcast_S1000000_S1000000x1_0 : (⟨S1000000, .i32⟩ : BufTy).Contents (Elt F) → (⟨S1000000x1, .i32⟩ : BufTy).Contents (Elt F))
  :: StableHlo.binary main_v10 main_v96 main_v97 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.nullary main_c_19 (constantI S_ 32 0#32)
  :: StableHlo.unary main_c_19 main_v98 (broadcastInDim S1000000 ![] bcast_S_S1000000 : (⟨S_, .i32⟩ : BufTy).Contents (Elt F) → (⟨S1000000, .i32⟩ : BufTy).Contents (Elt F))
  :: StableHlo.binary main_v3 main_v98 main_v99 (cmpi .slt : (⟨S1000000, .i32⟩ : BufTy).Contents (Elt F) → (⟨S1000000, .i32⟩ : BufTy).Contents (Elt F) → (⟨S1000000, .i1⟩ : BufTy).Contents (Elt F))
  :: StableHlo.nullary main_c_20 (constantI S_ 32 200000#32)
  :: StableHlo.unary main_c_20 main_v100 (broadcastInDim S1000000 ![] bcast_S_S1000000 : (⟨S_, .i32⟩ : BufTy).Contents (Elt F) → (⟨S1000000, .i32⟩ : BufTy).Contents (Elt F))
  :: StableHlo.binary main_v3 main_v100 main_v101 (addi : (⟨S1000000, .i32⟩ : BufTy).Contents (Elt F) → (⟨S1000000, .i32⟩ : BufTy).Contents (Elt F) → (⟨S1000000, .i32⟩ : BufTy).Contents (Elt F))
  :: StableHlo.ternary main_v99 main_v101 main_v3 main_v102 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v102 main_v103 (broadcastInDim S1000000x1 ![0] bcast_S1000000_S1000000x1_0 : (⟨S1000000, .i32⟩ : BufTy).Contents (Elt F) → (⟨S1000000x1, .i32⟩ : BufTy).Contents (Elt F))
  :: StableHlo.binary main_v10 main_v103 main_v104 ((fun x i => Host.gather gather_S200000_S1000000x1_S1000000_n_0_n_n_0_1_1 x i) : (⟨S200000, .f32⟩ : BufTy).Contents (Elt F) → (⟨S1000000x1, .i32⟩ : BufTy).Contents (Elt F) → (⟨S1000000, .f32⟩ : BufTy).Contents (Elt F))
  :: StableHlo.binary main_v97 main_v104 main_v105 (mulf : (⟨S1000000, .f32⟩ : BufTy).Contents (Elt F) → (⟨S1000000, .f32⟩ : BufTy).Contents (Elt F) → (⟨S1000000, .f32⟩ : BufTy).Contents (Elt F))
  :: StableHlo.nullary main_c_21 (constantI S_ 32 0#32)
  :: StableHlo.unary main_c_21 main_v106 (broadcastInDim S1000000 ![] bcast_S_S1000000 : (⟨S_, .i32⟩ : BufTy).Contents (Elt F) → (⟨S1000000, .i32⟩ : BufTy).Contents (Elt F))
  :: StableHlo.binary main_v1 main_v106 main_v107 (cmpi .slt : (⟨S1000000, .i32⟩ : BufTy).Contents (Elt F) → (⟨S1000000, .i32⟩ : BufTy).Contents (Elt F) → (⟨S1000000, .i1⟩ : BufTy).Contents (Elt F))
  :: StableHlo.nullary main_c_22 (constantI S_ 32 200000#32)
  :: StableHlo.unary main_c_22 main_v108 (broadcastInDim S1000000 ![] bcast_S_S1000000 : (⟨S_, .i32⟩ : BufTy).Contents (Elt F) → (⟨S1000000, .i32⟩ : BufTy).Contents (Elt F))
  :: StableHlo.binary main_v1 main_v108 main_v109 (addi : (⟨S1000000, .i32⟩ : BufTy).Contents (Elt F) → (⟨S1000000, .i32⟩ : BufTy).Contents (Elt F) → (⟨S1000000, .i32⟩ : BufTy).Contents (Elt F))
  :: StableHlo.ternary main_v107 main_v109 main_v1 main_v110 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v110 main_v111 (broadcastInDim S1000000x1 ![0] bcast_S1000000_S1000000x1_0 : (⟨S1000000, .i32⟩ : BufTy).Contents (Elt F) → (⟨S1000000x1, .i32⟩ : BufTy).Contents (Elt F))
  :: StableHlo.binary main_v90 main_v111 main_v112 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F))
  :: StableHlo.unary main_v105 main_v113 (broadcastInDim S1000000x1 ![0] bcast_S1000000_S1000000x1_0 : (⟨S1000000, .f32⟩ : BufTy).Contents (Elt F) → (⟨S1000000x1, .f32⟩ : BufTy).Contents (Elt F))
  :: StableHlo.unary main_v113 main_v114 (broadcastInDim S1000000x128 ![0, 1] bcast_S1000000x1_S1000000x128_0_1 : (⟨S1000000x1, .f32⟩ : BufTy).Contents (Elt F) → (⟨S1000000x128, .f32⟩ : BufTy).Contents (Elt F))
  :: StableHlo.binary main_v112 main_v114 main_v115 (mulf : (⟨S1000000x128, .f32⟩ : BufTy).Contents (Elt F) → (⟨S1000000x128, .f32⟩ : BufTy).Contents (Elt F) → (⟨S1000000x128, .f32⟩ : BufTy).Contents (Elt F))
  :: StableHlo.nullary main_cst_23 (constant S_ .f32 0x00000000#32)
  :: StableHlo.unary main_cst_23 main_v116 (broadcastInDim S200000x128 ![] bcast_S_S200000x128 : (⟨S_, .f32⟩ : BufTy).Contents (Elt F) → (⟨S200000x128, .f32⟩ : BufTy).Contents (Elt F))
  :: StableHlo.unary main_v3 main_v117 (broadcastInDim S1000000x1 ![0] bcast_S1000000_S1000000x1_0 : (⟨S1000000, .i32⟩ : BufTy).Contents (Elt F) → (⟨S1000000x1, .i32⟩ : BufTy).Contents (Elt F))
  :: StableHlo.ternary main_v116 main_v117 main_v115 main_v118 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F))
  :: StableHlo.binary main_v10 main_v10 main_v119 (mulf : (⟨S200000, .f32⟩ : BufTy).Contents (Elt F) → (⟨S200000, .f32⟩ : BufTy).Contents (Elt F) → (⟨S200000, .f32⟩ : BufTy).Contents (Elt F))
  :: StableHlo.unary main_v119 main_v120 (broadcastInDim S200000x1 ![0] bcast_S200000_S200000x1_0 : (⟨S200000, .f32⟩ : BufTy).Contents (Elt F) → (⟨S200000x1, .f32⟩ : BufTy).Contents (Elt F))
  :: StableHlo.unary main_v120 main_v121 (broadcastInDim S200000x128 ![0, 1] bcast_S200000x1_S200000x128_0_1 : (⟨S200000x1, .f32⟩ : BufTy).Contents (Elt F) → (⟨S200000x128, .f32⟩ : BufTy).Contents (Elt F))
  :: StableHlo.binary main_v90 main_v121 main_v122 (mulf : (⟨S200000x128, .f32⟩ : BufTy).Contents (Elt F) → (⟨S200000x128, .f32⟩ : BufTy).Contents (Elt F) → (⟨S200000x128, .f32⟩ : BufTy).Contents (Elt F))
  :: StableHlo.binary main_v118 main_v122 main_v123 (addf : (⟨S200000x128, .f32⟩ : BufTy).Contents (Elt F) → (⟨S200000x128, .f32⟩ : BufTy).Contents (Elt F) → (⟨S200000x128, .f32⟩ : BufTy).Contents (Elt F))
  :: StableHlo.unary main_arg7 main_v124 (broadcastInDim S1x128 ![1] bcast_S128_S1x128_1 : (⟨S128, .f32⟩ : BufTy).Contents (Elt F) → (⟨S1x128, .f32⟩ : BufTy).Contents (Elt F))
  :: StableHlo.unary main_v124 main_v125 (broadcastInDim S200000x128 ![0, 1] bcast_S1x128_S200000x128_0_1 : (⟨S1x128, .f32⟩ : BufTy).Contents (Elt F) → (⟨S200000x128, .f32⟩ : BufTy).Contents (Elt F))
  :: StableHlo.binary main_v123 main_v125 main_v126 (addf : (⟨S200000x128, .f32⟩ : BufTy).Contents (Elt F) → (⟨S200000x128, .f32⟩ : BufTy).Contents (Elt F) → (⟨S200000x128, .f32⟩ : BufTy).Contents (Elt F))
  :: StableHlo.nullary main_cst_24 (constant S_ .f32 0x3DCCCCCD#32)
  :: [] )

/-- `main_call2`'s seven operations, ending with the select into `main_v127`. -/
abbrev rops3a : List (HloOp τ sig (Elt F)) :=
  ( StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S200000x128, .f32⟩) (broadcastInDim S200000x128 ![] bcast_S_S200000x128)
  :: StableHlo.TRef.binary (.of main_v126 : StableHlo.TRef sig ⟨S200000x128, .f32⟩) (.of main_call2_v0 : StableHlo.TRef sig ⟨S200000x128, .f32⟩) (.of main_call2_v1 : StableHlo.TRef sig ⟨S200000x128, .i1⟩) (cmpf .oge)
  :: StableHlo.TRef.unary (.of main_cst_24 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S200000x128, .f32⟩) (broadcastInDim S200000x128 ![] bcast_S_S200000x128)
  :: StableHlo.TRef.binary (.of main_call2_v3 : StableHlo.TRef sig ⟨S200000x128, .f32⟩) (.of main_v126 : StableHlo.TRef sig ⟨S200000x128, .f32⟩) (.of main_call2_v4 : StableHlo.TRef sig ⟨S200000x128, .f32⟩) mulf
  :: StableHlo.TRef.ternary (.of main_call2_v1 : StableHlo.TRef sig ⟨S200000x128, .i1⟩) (.of main_v126 : StableHlo.TRef sig ⟨S200000x128, .f32⟩) (.of main_call2_v4 : StableHlo.TRef sig ⟨S200000x128, .f32⟩) (.of main_v127 : StableHlo.TRef sig ⟨S200000x128, .f32⟩) select
  :: [] )

theorem rops3g_eq : (rops3g : List (HloOp τ sig (Elt F))) = rops3z ++ rops3a := rfl

end Cert.ReferenceIdeal.RefRun

end
-- ==== Proof.LibAfterAppend.lean ====
/-
  Running a list of host operations: the contents after `A ++ B` are the contents after `B`, started from the contents after `A`.
  (Lets a long operation list be cut at any place, the first part's contents then carried as one unknown.)
-/
import Idealize.ShloMosaic.Lib.StableHlo.Run

namespace Idealize.ShloMosaic.StableHlo

variable {τ : Topo} {sig : RefSig} {Val : EltTy → Type}

/-- The fold over an appended list is the fold over the second part of the fold over the first. -/
theorem after_append (A B : List (HloOp τ sig Val)) (M : Valuation τ sig Val) :
    after (A ++ B) M = after B (after A M) := by
  induction A generalizing M with
  | nil => rfl
  | cons a A ih => simp only [List.cons_append, after_cons, ih]

/-- Cut at position `n`: the first `n` operations, then the rest. -/
theorem after_take_drop (n : Nat) (L : List (HloOp τ sig Val)) (M : Valuation τ sig Val) :
    after L M = after (L.drop n) (after (L.take n) M) := by
  rw [← after_append, List.take_append_drop]

end Idealize.ShloMosaic.StableHlo
-- ==== Proof.Glue.lean ====
/- The host operations between the first and the second matrix product, in the two programs.

   Between its first and second products each program normalizes and aggregates over the edges: from the two rows
   of the edge table (with negative entries wrapped), the inverse square roots `d` of the degrees and the product
   `h`, it gathers `d` at both ends of every edge, multiplies, gathers the rows of `h` at the source ends, scales
   them, scatter-adds them at the target ends, adds the self term `d² · h` and the bias, and applies the leaky
   rectifier `x ↦ if x ≥ 0 then x else slope · x`. The two programs do this with the same operations in the same
   order over differently named buffers, so from valuations agreeing on the five inputs the two folds agree on the
   result. The comparison is cut at the rectifier: first everything before it (plain operations), then the
   rectifier's seven operations over the two values it reads. -/
import proofs.«100723_j10694468567643_1_alg».proof.Proof.Gen.KernelIdeal.Launch
import proofs.«100723_j10694468567643_1_alg».proof.Proof.RefCut
import proofs.«100723_j10694468567643_1_alg».proof.Proof.LibAfterAppend
import Idealize.ShloMosaic.Lib.StableHlo.Run
import Idealize.ShloMosaic.PureOps.Ideal

noncomputable section

namespace Cert.Glue

open Idealize.ShloMosaic Idealize.ShloMosaic.TcCoe Idealize.SL.Sem Idealize.ShloMosaic.StableHlo

attribute [local irreducible] Host.gather Host.scatterAdd in
set_option maxRecDepth 8192 in
set_option maxHeartbeats 1000000 in
/-- Before the rectifier: from valuations agreeing on the two edge rows, the inverse square roots of the degrees,
    the first product and the first bias, the two folds agree on the rectifier's argument and on its slope. Both
    sides are the same tree of gathers, scatter-adds, broadcasts, products, sums, comparisons and selects over the
    five inputs. -/
theorem glue1z (Vk : Valuation KernelIdeal.τ KernelIdeal.sig (Elt Ideal)) (Vr : Valuation ReferenceIdeal.τ ReferenceIdeal.sig (Elt Ideal))
    (h1 : Vk (Proc.devRef .tc KernelIdeal.main_v1) = Vr (Proc.devRef .tc ReferenceIdeal.main_v1))
    (h3 : Vk (Proc.devRef .tc KernelIdeal.main_v3) = Vr (Proc.devRef .tc ReferenceIdeal.main_v3))
    (h10 : Vk (Proc.devRef .tc KernelIdeal.main_v10) = Vr (Proc.devRef .tc ReferenceIdeal.main_v10))
    (hh : Vk (Proc.devRef .tc KernelIdeal.main_v15) = Vr (Proc.devRef .tc ReferenceIdeal.main_v12))
    (hb : Vk (Proc.devRef .tc KernelIdeal.main_arg3) = Vr (Proc.devRef .tc ReferenceIdeal.main_arg3)) :
    after KernelIdeal.Gen.hostOps1 Vk (Proc.devRef .tc KernelIdeal.main_v51)
        = after ReferenceIdeal.RefRun.rops1z Vr (Proc.devRef .tc ReferenceIdeal.main_v48)
      ∧ after KernelIdeal.Gen.hostOps1 Vk (Proc.devRef .tc KernelIdeal.main_cst_9)
        = after ReferenceIdeal.RefRun.rops1z Vr (Proc.devRef .tc ReferenceIdeal.main_cst_8) := by
  constructor
  · after_results_simp
    rw [h1, h3, h10, hh, hb]
    first | done | rfl
  · after_results_simp
    first | done | rfl

/-- The rectifier: from valuations agreeing on its argument and on its slope, the two folds of its seven
    operations agree on its result. -/
theorem glue1a (Wk : Valuation KernelIdeal.τ KernelIdeal.sig (Elt Ideal)) (Wr : Valuation ReferenceIdeal.τ ReferenceIdeal.sig (Elt Ideal))
    (hz : Wk (Proc.devRef .tc KernelIdeal.main_v51) = Wr (Proc.devRef .tc ReferenceIdeal.main_v48))
    (hs : Wk (Proc.devRef .tc KernelIdeal.main_cst_9) = Wr (Proc.devRef .tc ReferenceIdeal.main_cst_8)) :
    after KernelIdeal.Gen.hostOps1_1 Wk (Proc.devRef .tc KernelIdeal.main_v52)
      = after ReferenceIdeal.RefRun.rops1a Wr (Proc.devRef .tc ReferenceIdeal.main_v49) := by
  after_results_simp
  rw [hz, hs]
  first | done | rfl

/-- Between the first and the second product: from valuations agreeing on the two edge rows, the inverse square
    roots of the degrees, the first product and the first bias, the two programs' folds agree on the rectified
    first layer. -/
theorem glue1 (Vk : Valuation KernelIdeal.τ KernelIdeal.sig (Elt Ideal)) (Vr : Valuation ReferenceIdeal.τ ReferenceIdeal.sig (Elt Ideal))
    (h1 : Vk (Proc.devRef .tc KernelIdeal.main_v1) = Vr (Proc.devRef .tc ReferenceIdeal.main_v1))
    (h3 : Vk (Proc.devRef .tc KernelIdeal.main_v3) = Vr (Proc.devRef .tc ReferenceIdeal.main_v3))
    (h10 : Vk (Proc.devRef .tc KernelIdeal.main_v10) = Vr (Proc.devRef .tc ReferenceIdeal.main_v10))
    (hh : Vk (Proc.devRef .tc KernelIdeal.main_v15) = Vr (Proc.devRef .tc ReferenceIdeal.main_v12))
    (hb : Vk (Proc.devRef .tc KernelIdeal.main_arg3) = Vr (Proc.devRef .tc ReferenceIdeal.main_arg3)) :
    after KernelIdeal.Gen.hostOps1_1 (after KernelIdeal.Gen.hostOps1 Vk) (Proc.devRef .tc KernelIdeal.main_v52)
      = after ReferenceIdeal.RefRun.rops1g Vr (Proc.devRef .tc ReferenceIdeal.main_v49) := by
  rw [ReferenceIdeal.RefRun.rops1g_eq, after_append]
  exact glue1a _ _ (glue1z Vk Vr h1 h3 h10 hh hb).1 (glue1z Vk Vr h1 h3 h10 hh hb).2

end Cert.Glue

end
-- ==== Proof.Glue2.lean ====
/-
  The two programs between their second and third dense maps, in lockstep. Both apply the same operations to the second
  dense map's output: each edge's source row gathered and scaled by the two end points' normalizing factors, the
  scaled rows added up over the edges' targets, the node's own row scaled by its squared factor added, the bias row
  added, and then the leaky rectifier (compare with zero, scale by the slope, select). From equal inputs the two
  programs therefore hold equal pre-activation arrays, equal slope constants, and equal activated arrays.
-/
import proofs.«100723_j10694468567643_1_alg».proof.Proof.Gen.KernelIdeal.Launch
import proofs.«100723_j10694468567643_1_alg».proof.Proof.RefRun
import proofs.«100723_j10694468567643_1_alg».proof.Proof.RefCut
import proofs.«100723_j10694468567643_1_alg».proof.Proof.LibAfterAppend
import Idealize.ShloMosaic.Lib.StableHlo.Run
import Idealize.ShloMosaic.PureOps.Ideal

noncomputable section

namespace Cert.Glue

open Idealize.ShloMosaic Idealize.ShloMosaic.TcCoe Idealize.ShloMosaic.StableHlo Idealize.SL.Sem

set_option maxHeartbeats 4000000 in
/-- Before the rectifier. From equal source and target indices, equal normalizing factors, equal first-layer outputs of
    the dense map and equal bias vectors, the two programs hold equal pre-activation arrays (the neighbours' rows
    gathered, scaled by the two factors and added up over the targets, plus the node's own row scaled by its squared
    factor, plus the bias row) and equal slope constants: each is the same pure term of those five on both sides, the
    operations agreeing one by one, and the shapes and the gather's and scatter's dimension records, named separately
    by the two programs, being the same literals. -/
theorem glue2z (Vk : Valuation Cert.KernelIdeal.τ Cert.KernelIdeal.sig (Elt Ideal)) (Vr : Valuation Cert.ReferenceIdeal.τ Cert.ReferenceIdeal.sig (Elt Ideal))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (h10 : Vk (Proc.devRef .tc Cert.KernelIdeal.main_v10) = Vr (Proc.devRef .tc Cert.ReferenceIdeal.main_v10))
    (hh : Vk (Proc.devRef .tc Cert.KernelIdeal.main_v57) = Vr (Proc.devRef .tc Cert.ReferenceIdeal.main_v51))
    (hb : Vk (Proc.devRef .tc Cert.KernelIdeal.main_arg5) = Vr (Proc.devRef .tc Cert.ReferenceIdeal.main_arg5)) :
    after (Cert.KernelIdeal.Gen.hostOps2 (F := Ideal)) Vk (Proc.devRef .tc Cert.KernelIdeal.main_v93) = after (Cert.ReferenceIdeal.RefRun.rops2z (F := Ideal)) Vr (Proc.devRef .tc Cert.ReferenceIdeal.main_v87)
    ∧ after (Cert.KernelIdeal.Gen.hostOps2 (F := Ideal)) Vk (Proc.devRef .tc Cert.KernelIdeal.main_cst_18) = after (Cert.ReferenceIdeal.RefRun.rops2z (F := Ideal)) Vr (Proc.devRef .tc Cert.ReferenceIdeal.main_cst_16) := by
  refine ⟨?_, ?_⟩
  · after_results_simp
    rw [h1, h3, h10, hh, hb]
    rfl
  · after_results_simp <;> rfl

/-- The rectifier. From equal pre-activation arrays and equal slope constants the two programs hold equal activated
    arrays: compare with zero, scale by the slope, select, the same seven operations on both sides. -/
theorem glue2a (Wk : Valuation Cert.KernelIdeal.τ Cert.KernelIdeal.sig (Elt Ideal)) (Wr : Valuation Cert.ReferenceIdeal.τ Cert.ReferenceIdeal.sig (Elt Ideal))
    (hz : Wk (Proc.devRef .tc Cert.KernelIdeal.main_v93) = Wr (Proc.devRef .tc Cert.ReferenceIdeal.main_v87))
    (hs : Wk (Proc.devRef .tc Cert.KernelIdeal.main_cst_18) = Wr (Proc.devRef .tc Cert.ReferenceIdeal.main_cst_16)) :
    after (Cert.KernelIdeal.Gen.hostOps2_1 (F := Ideal)) Wk (Proc.devRef .tc Cert.KernelIdeal.main_v94) = after (Cert.ReferenceIdeal.RefRun.rops2a (F := Ideal)) Wr (Proc.devRef .tc Cert.ReferenceIdeal.main_v88) := by
  after_results_simp
  simp only [TRef.toBuf, TRef.ofBuf, cast_cast, cast_eq]
  rw [hz, hs]

/-- The whole stretch between the second and the third dense map: the two parts in sequence. -/
theorem glue2 (Vk : Valuation Cert.KernelIdeal.τ Cert.KernelIdeal.sig (Elt Ideal)) (Vr : Valuation Cert.ReferenceIdeal.τ Cert.ReferenceIdeal.sig (Elt Ideal))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (h10 : Vk (Proc.devRef .tc Cert.KernelIdeal.main_v10) = Vr (Proc.devRef .tc Cert.ReferenceIdeal.main_v10))
    (hh : Vk (Proc.devRef .tc Cert.KernelIdeal.main_v57) = Vr (Proc.devRef .tc Cert.ReferenceIdeal.main_v51))
    (hb : Vk (Proc.devRef .tc Cert.KernelIdeal.main_arg5) = Vr (Proc.devRef .tc Cert.ReferenceIdeal.main_arg5)) :
    after (Cert.KernelIdeal.Gen.hostOps2_1 (F := Ideal)) (after (Cert.KernelIdeal.Gen.hostOps2 (F := Ideal)) Vk) (Proc.devRef .tc Cert.KernelIdeal.main_v94)
      = after (Cert.ReferenceIdeal.RefRun.rops2g (F := Ideal)) Vr (Proc.devRef .tc Cert.ReferenceIdeal.main_v88) := by
  rw [Cert.ReferenceIdeal.RefRun.rops2g_eq (F := Ideal), after_append]
  exact glue2a _ _ (glue2z Vk Vr h1 h3 h10 hh hb).1 (glue2z Vk Vr h1 h3 h10 hh hb).2

end Cert.Glue

end
-- ==== Proof.Glue3.lean ====
/-
  The third graph layer's glue in lockstep, in two stages. Both programs, from the layer's product, gather it along the
  edges' sources, weight each edge by the two end points' normalizing factors, scatter-add over the targets, add the
  self term and the bias (first stage: forty-four plain operations on each side), and then apply the leaky rectifier
  (second stage: the outlined function's seven operations). From equal sources, targets, normalizing factors, products
  and biases the two programs hold equal pre-activations and equal slopes after the first stage, and from those equal
  activations after the second.
-/
import proofs.«100723_j10694468567643_1_alg».proof.Proof.Gen.KernelIdeal.Launch
import proofs.«100723_j10694468567643_1_alg».proof.Proof.RefRun
import proofs.«100723_j10694468567643_1_alg».proof.Proof.RefCut
import proofs.«100723_j10694468567643_1_alg».proof.Proof.LibAfterAppend
import Idealize.ShloMosaic.Lib.StableHlo.Run
import Idealize.ShloMosaic.PureOps.Ideal

noncomputable section

namespace Cert.Glue

open Idealize.ShloMosaic Idealize.ShloMosaic.TcCoe Idealize.ShloMosaic.StableHlo Idealize.SL.Sem

/-- First stage: the pre-activation and the slope. Each is the same pure term of the five leaves on both sides —
    the operations agree one by one, and the shapes and the gather's and scatter's dimension records, named
    separately by the two programs, are the same literals. -/
theorem glue3z (Vk : Valuation Cert.KernelIdeal.τ Cert.KernelIdeal.sig (Elt Ideal)) (Vr : Valuation Cert.ReferenceIdeal.τ Cert.ReferenceIdeal.sig (Elt Ideal))
    (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3))
    (h10 : Vk (Proc.devRef .tc Cert.KernelIdeal.main_v10) = Vr (Proc.devRef .tc Cert.ReferenceIdeal.main_v10)) (hh : Vk (Proc.devRef .tc Cert.KernelIdeal.main_v99) = Vr (Proc.devRef .tc Cert.ReferenceIdeal.main_v90))
    (hb : Vk (Proc.devRef .tc Cert.KernelIdeal.main_arg7) = Vr (Proc.devRef .tc Cert.ReferenceIdeal.main_arg7)) :
    after (Cert.KernelIdeal.Gen.hostOps3 (F := Ideal)) Vk (Proc.devRef .tc Cert.KernelIdeal.main_v135) = after (Cert.ReferenceIdeal.RefRun.rops3z (F := Ideal)) Vr (Proc.devRef .tc Cert.ReferenceIdeal.main_v126)
    ∧ after (Cert.KernelIdeal.Gen.hostOps3 (F := Ideal)) Vk (Proc.devRef .tc Cert.KernelIdeal.main_cst_27) = after (Cert.ReferenceIdeal.RefRun.rops3z (F := Ideal)) Vr (Proc.devRef .tc Cert.ReferenceIdeal.main_cst_24) := by
  refine ⟨?_, ?_⟩
  · after_results_simp
    rw [h1, h3, h10, hh, hb]
    rfl
  · after_results_simp

/-- Second stage: the leaky rectifier of equal pre-activations with equal slopes. -/
theorem glue3a (Wk : Valuation Cert.KernelIdeal.τ Cert.KernelIdeal.sig (Elt Ideal)) (Wr : Valuation Cert.ReferenceIdeal.τ Cert.ReferenceIdeal.sig (Elt Ideal))
    (hz : Wk (Proc.devRef .tc Cert.KernelIdeal.main_v135) = Wr (Proc.devRef .tc Cert.ReferenceIdeal.main_v126)) (hs : Wk (Proc.devRef .tc Cert.KernelIdeal.main_cst_27) = Wr (Proc.devRef .tc Cert.ReferenceIdeal.main_cst_24)) :
    after (Cert.KernelIdeal.Gen.hostOps3_1 (F := Ideal)) Wk (Proc.devRef .tc Cert.KernelIdeal.main_v136) = after (Cert.ReferenceIdeal.RefRun.rops3a (F := Ideal)) Wr (Proc.devRef .tc Cert.ReferenceIdeal.main_v127) := by
  after_results_simp
  simp only [TRef.toBuf, TRef.ofBuf, cast_cast, cast_eq]
  rw [hz, hs]

/-- The two stages one after the other: the reference's glue piece is its first forty-four operations followed by
    the rectifier's seven, and the contents after a concatenation are the contents after its second part started from
    the contents after its first. -/
theorem glue3 (Vk : Valuation Cert.KernelIdeal.τ Cert.KernelIdeal.sig (Elt Ideal)) (Vr : Valuation Cert.ReferenceIdeal.τ Cert.ReferenceIdeal.sig (Elt Ideal))
    (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3))
    (h10 : Vk (Proc.devRef .tc Cert.KernelIdeal.main_v10) = Vr (Proc.devRef .tc Cert.ReferenceIdeal.main_v10)) (hh : Vk (Proc.devRef .tc Cert.KernelIdeal.main_v99) = Vr (Proc.devRef .tc Cert.ReferenceIdeal.main_v90))
    (hb : Vk (Proc.devRef .tc Cert.KernelIdeal.main_arg7) = Vr (Proc.devRef .tc Cert.ReferenceIdeal.main_arg7)) :
    after (Cert.KernelIdeal.Gen.hostOps3_1 (F := Ideal)) (after (Cert.KernelIdeal.Gen.hostOps3 (F := Ideal)) Vk) (Proc.devRef .tc Cert.KernelIdeal.main_v136)
      = after (Cert.ReferenceIdeal.RefRun.rops3g (F := Ideal)) Vr (Proc.devRef .tc Cert.ReferenceIdeal.main_v127) := by
  rw [Cert.ReferenceIdeal.RefRun.rops3g_eq, after_append]
  exact glue3a _ _ (glue3z Vk Vr h1 h3 h10 hh hb).1 (glue3z Vk Vr h1 h3 h10 hh hb).2

end Cert.Glue

end
-- ==== Proof.KernelKeep.lean ====
import proofs.«100723_j10694468567643_1_alg».proof.Proof.Gen.KernelIdeal.Frame
import proofs.«100723_j10694468567643_1_alg».proof.Proof.Gen.KernelIdeal.Launch
import proofs.«100723_j10694468567643_1_alg».proof.Proof.Gen.KernelIdeal.Skeleton
import proofs.«100723_j10694468567643_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Buffers the run leaves alone

A buffer of index below 28 (an argument, or one of the first stretch's early results) is written by no host
operation after the first stretch and is none of a region's four arrays, so every later boundary valuation
reads at it what the first one does; a buffer of index below 14 (an argument) is not written by the first
stretch either, so the first boundary valuation reads the launch memory at it. -/

/-- Two references whose indices lie on either side of a bound differ. -/
theorem ne_of_idx_lt {b r : Ref sig .tc} {n : ℕ} (hb : b.idx.val < n) (hr : n ≤ r.idx.val) : b ≠ r := by
  rintro rfl; omega

/-! ## The host stretches -/

/-- No operation of `hostOps0` writes a buffer of index below 14: each result buffer's index is at least 14. -/
theorem keep_hostOps0 (V : Valuation τ sig (Elt F)) (b : Ref sig .tc) (hb : b.idx.val < 14) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps1` writes a buffer of index below 28: each result buffer's index is at least 28. -/
theorem keep_hostOps1 (V : Valuation τ sig (Elt F)) (b : Ref sig .tc) (hb : b.idx.val < 28) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps1_1` writes a buffer of index below 28: each result buffer's index is at least 28. -/
theorem keep_hostOps1_1 (V : Valuation τ sig (Elt F)) (b : Ref sig .tc) (hb : b.idx.val < 28) :
    StableHlo.after (hostOps1_1 (F := F)) V (Proc.devRef .tc b) = V (Proc.devRef .tc b) :=
  StableHlo.after_of_forall_not_mem (b := Proc.devRef .tc b) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps1_2` writes a buffer of index below 28: each result buffer's index is at least 28. -/
theorem keep_hostOps1_2 (V : Valuation τ sig (Elt F)) (b : Ref sig .tc) (hb : b.idx.val < 28) :
    StableHlo.after (hostOps1_2 (F := F)) V (Proc.devRef .tc b) = V (Proc.devRef .tc b) :=
  StableHlo.after_of_forall_not_mem (b := Proc.devRef .tc b) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps2` writes a buffer of index below 28: each result buffer's index is at least 28. -/
theorem keep_hostOps2 (V : Valuation τ sig (Elt F)) (b : Ref sig .tc) (hb : b.idx.val < 28) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps2_1` writes a buffer of index below 28: each result buffer's index is at least 28. -/
theorem keep_hostOps2_1 (V : Valuation τ sig (Elt F)) (b : Ref sig .tc) (hb : b.idx.val < 28) :
    StableHlo.after (hostOps2_1 (F := F)) V (Proc.devRef .tc b) = V (Proc.devRef .tc b) :=
  StableHlo.after_of_forall_not_mem (b := Proc.devRef .tc b) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps2_2` writes a buffer of index below 28: each result buffer's index is at least 28. -/
theorem keep_hostOps2_2 (V : Valuation τ sig (Elt F)) (b : Ref sig .tc) (hb : b.idx.val < 28) :
    StableHlo.after (hostOps2_2 (F := F)) V (Proc.devRef .tc b) = V (Proc.devRef .tc b) :=
  StableHlo.after_of_forall_not_mem (b := Proc.devRef .tc b) _ _ (List.forall_iff_forall_mem.mp (by
    simp only [hostOps2_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps3` writes a buffer of index below 28: each result buffer's index is at least 28. -/
theorem keep_hostOps3 (V : Valuation τ sig (Elt F)) (b : Ref sig .tc) (hb : b.idx.val < 28) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps3_1` writes a buffer of index below 28: each result buffer's index is at least 28. -/
theorem keep_hostOps3_1 (V : Valuation τ sig (Elt F)) (b : Ref sig .tc) (hb : b.idx.val < 28) :
    StableHlo.after (hostOps3_1 (F := F)) V (Proc.devRef .tc b) = V (Proc.devRef .tc b) :=
  StableHlo.after_of_forall_not_mem (b := Proc.devRef .tc b) _ _ (List.forall_iff_forall_mem.mp (by
    simp only [hostOps3_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps3_2` writes a buffer of index below 28: each result buffer's index is at least 28. -/
theorem keep_hostOps3_2 (V : Valuation τ sig (Elt F)) (b : Ref sig .tc) (hb : b.idx.val < 28) :
    StableHlo.after (hostOps3_2 (F := F)) V (Proc.devRef .tc b) = V (Proc.devRef .tc b) :=
  StableHlo.after_of_forall_not_mem (b := Proc.devRef .tc b) _ _ (List.forall_iff_forall_mem.mp (by
    simp only [hostOps3_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps4` writes a buffer of index below 28: each result buffer's index is at least 28. -/
theorem keep_hostOps4 (V : Valuation τ sig (Elt F)) (b : Ref sig .tc) (hb : b.idx.val < 28) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))
/-- No operation of `hostOps5` writes a buffer of index below 28: each result buffer's index is at least 28. -/
theorem keep_hostOps5 (V : Valuation τ sig (Elt F)) (b : Ref sig .tc) (hb : b.idx.val < 28) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_lt hb (by decide))))

/-! ## The regions -/

/-- None of region 0's four arrays has an index below 28, so the region leaves such a buffer as entered. -/
theorem keep_region0 (c : Dev nD) (b : Ref sig .tc) (hb : b.idx.val < 28) :
    Gen.W2 m ρ c (Proc.devRef .tc b) = Gen.W1 m ρ c (Proc.devRef .tc b) :=
  Gen.W2_of_ne m ρ c b fun w => by
    fin_cases w <;> exact (ne_of_idx_lt hb (by decide)).symm
/-- None of region 1's four arrays has an index below 28, so the region leaves such a buffer as entered. -/
theorem keep_region1 (c : Dev nD) (b : Ref sig .tc) (hb : b.idx.val < 28) :
    Gen.W6 m ρ c (Proc.devRef .tc b) = Gen.W5 m ρ c (Proc.devRef .tc b) :=
  Gen.W6_of_ne m ρ c b fun w => by
    fin_cases w <;> exact (ne_of_idx_lt hb (by decide)).symm
/-- None of region 2's four arrays has an index below 28, so the region leaves such a buffer as entered. -/
theorem keep_region2 (c : Dev nD) (b : Ref sig .tc) (hb : b.idx.val < 28) :
    Gen.W10 m ρ c (Proc.devRef .tc b) = Gen.W9 m ρ c (Proc.devRef .tc b) :=
  Gen.W10_of_ne m ρ c b fun w => by
    fin_cases w <;> exact (ne_of_idx_lt hb (by decide)).symm
/-- None of region 3's four arrays has an index below 28, so the region leaves such a buffer as entered. -/
theorem keep_region3 (c : Dev nD) (b : Ref sig .tc) (hb : b.idx.val < 28) :
    Gen.W14 m ρ c (Proc.devRef .tc b) = Gen.W13 m ρ c (Proc.devRef .tc b) :=
  Gen.W14_of_ne m ρ c b fun w => by
    fin_cases w <;> exact (ne_of_idx_lt hb (by decide)).symm
/-- None of region 4's four arrays has an index below 28, so the region leaves such a buffer as entered. -/
theorem keep_region4 (c : Dev nD) (b : Ref sig .tc) (hb : b.idx.val < 28) :
    Gen.W16 m ρ c (Proc.devRef .tc b) = Gen.W15 m ρ c (Proc.devRef .tc b) :=
  Gen.W16_of_ne m ρ c b fun w => by
    fin_cases w <;> exact (ne_of_idx_lt hb (by decide)).symm
/-- None of region 5's four arrays has an index below 28, so the region leaves such a buffer as entered. -/
theorem keep_region5 (c : Dev nD) (b : Ref sig .tc) (hb : b.idx.val < 28) :
    Gen.W18 m ρ c (Proc.devRef .tc b) = Gen.W17 m ρ c (Proc.devRef .tc b) :=
  Gen.W18_of_ne m ρ c b fun w => by
    fin_cases w <;> exact (ne_of_idx_lt hb (by decide)).symm

/-! ## The boundary valuations -/

/-- An argument buffer is read at the first boundary as launched. -/
theorem keep_args (c : Dev nD) (b : Ref sig .tc) (hb : b.idx.val < 14) :
    Gen.W1 m ρ c (Proc.devRef .tc b) = m ((c : Thread nD τ).loc b) :=
  keep_hostOps0 _ b hb

/-- Region 0's exit reads a buffer of index below 28 as its entry does. -/
theorem keep2 (c : Dev nD) (b : Ref sig .tc) (hb : b.idx.val < 28) :
    Gen.W2 m ρ c (Proc.devRef .tc b) = Gen.W1 m ρ c (Proc.devRef .tc b) :=
  keep_region0 m ρ c b hb

/-- Region 1's exit reads a buffer of index below 28 as region 0's entry does. -/
theorem keep6 (c : Dev nD) (b : Ref sig .tc) (hb : b.idx.val < 28) :
    Gen.W6 m ρ c (Proc.devRef .tc b) = Gen.W1 m ρ c (Proc.devRef .tc b) :=
  calc Gen.W6 m ρ c (Proc.devRef .tc b)
    _ = Gen.W5 m ρ c (Proc.devRef .tc b) := keep_region1 m ρ c b hb
    _ = Gen.W4 m ρ c (Proc.devRef .tc b) := keep_hostOps1_2 _ b hb
    _ = Gen.W3 m ρ c (Proc.devRef .tc b) := keep_hostOps1_1 _ b hb
    _ = Gen.W2 m ρ c (Proc.devRef .tc b) := keep_hostOps1 _ b hb
    _ = Gen.W1 m ρ c (Proc.devRef .tc b) := keep2 m ρ c b hb

/-- Region 2's exit reads a buffer of index below 28 as region 0's entry does. -/
theorem keep10 (c : Dev nD) (b : Ref sig .tc) (hb : b.idx.val < 28) :
    Gen.W10 m ρ c (Proc.devRef .tc b) = Gen.W1 m ρ c (Proc.devRef .tc b) :=
  calc Gen.W10 m ρ c (Proc.devRef .tc b)
    _ = Gen.W9 m ρ c (Proc.devRef .tc b) := keep_region2 m ρ c b hb
    _ = Gen.W8 m ρ c (Proc.devRef .tc b) := keep_hostOps2_2 _ b hb
    _ = Gen.W7 m ρ c (Proc.devRef .tc b) := keep_hostOps2_1 _ b hb
    _ = Gen.W6 m ρ c (Proc.devRef .tc b) := keep_hostOps2 _ b hb
    _ = Gen.W1 m ρ c (Proc.devRef .tc b) := keep6 m ρ c b hb

/-- Region 3's exit reads a buffer of index below 28 as region 0's entry does. -/
theorem keep14 (c : Dev nD) (b : Ref sig .tc) (hb : b.idx.val < 28) :
    Gen.W14 m ρ c (Proc.devRef .tc b) = Gen.W1 m ρ c (Proc.devRef .tc b) :=
  calc Gen.W14 m ρ c (Proc.devRef .tc b)
    _ = Gen.W13 m ρ c (Proc.devRef .tc b) := keep_region3 m ρ c b hb
    _ = Gen.W12 m ρ c (Proc.devRef .tc b) := keep_hostOps3_2 _ b hb
    _ = Gen.W11 m ρ c (Proc.devRef .tc b) := keep_hostOps3_1 _ b hb
    _ = Gen.W10 m ρ c (Proc.devRef .tc b) := keep_hostOps3 _ b hb
    _ = Gen.W1 m ρ c (Proc.devRef .tc b) := keep10 m ρ c b hb

/-- Region 4's exit reads a buffer of index below 28 as region 0's entry does. -/
theorem keep16 (c : Dev nD) (b : Ref sig .tc) (hb : b.idx.val < 28) :
    Gen.W16 m ρ c (Proc.devRef .tc b) = Gen.W1 m ρ c (Proc.devRef .tc b) :=
  calc Gen.W16 m ρ c (Proc.devRef .tc b)
    _ = Gen.W15 m ρ c (Proc.devRef .tc b) := keep_region4 m ρ c b hb
    _ = Gen.W14 m ρ c (Proc.devRef .tc b) := keep_hostOps4 _ b hb
    _ = Gen.W1 m ρ c (Proc.devRef .tc b) := keep14 m ρ c b hb

/-- Region 5's exit reads a buffer of index below 28 as region 0's entry does. -/
theorem keep18 (c : Dev nD) (b : Ref sig .tc) (hb : b.idx.val < 28) :
    Gen.W18 m ρ c (Proc.devRef .tc b) = Gen.W1 m ρ c (Proc.devRef .tc b) :=
  calc Gen.W18 m ρ c (Proc.devRef .tc b)
    _ = Gen.W17 m ρ c (Proc.devRef .tc b) := keep_region5 m ρ c b hb
    _ = Gen.W16 m ρ c (Proc.devRef .tc b) := keep_hostOps5 _ b hb
    _ = Gen.W1 m ρ c (Proc.devRef .tc b) := keep16 m ρ c b hb

end Cert.KernelIdeal.KRun

end
-- ==== Proof.RefKeep.lean ====
/- A buffer that no operation of a piece of the reference's @main writes holds, after the piece, what it held
   before: the arguments (indices 0 … 13) through every piece, and the edge tables and the inverse square root of the
   degrees (indices 14 … 27, written by the first piece only) through every later one. Buffers are told apart by their
   index alone: every result buffer of a piece has an index at or above the bound. -/
import proofs.«100723_j10694468567643_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two references whose indices lie on either side of a bound are different references. -/
theorem ref_ne_of_idx_lt {b r : Ref sig .tc} {n : ℕ} (hb : b.idx.val < n) (hr : n ≤ r.idx.val) : b ≠ r :=
  fun e => by subst e; omega

/-- No operation of `rops0g` writes a buffer of index below 14. -/
theorem keep0g (V : Valuation τ sig (Elt F)) (b : Ref sig .tc) (hb : b.idx.val < 14) :
    after rops0g V (b : DevRef τ sig) = V (b : DevRef τ sig) :=
  after_of_forall_not_mem (b := (b : DevRef τ sig)) _ _ (List.forall_iff_forall_mem.mp (by
    simp only [rops0g, List.Forall, nullary_writes, unary_writes, binary_writes, ternary_writes, reshape_writes,
      Finset.mem_singleton]
    repeat' apply And.intro
    all_goals exact devRef_ne_of_ne (ref_ne_of_idx_lt hb (by decide))))

/-- No operation of `rops0l` writes a buffer of index below 28. -/
theorem keep_rops0l (V : Valuation τ sig (Elt F)) (b : Ref sig .tc) (hb : b.idx.val < 28) :
    after rops0l V (b : DevRef τ sig) = V (b : DevRef τ sig) :=
  after_of_forall_not_mem (b := (b : DevRef τ sig)) _ _ (List.forall_iff_forall_mem.mp (by
    simp only [rops0l, List.Forall, nullary_writes, unary_writes, binary_writes, ternary_writes, reshape_writes,
      Finset.mem_singleton]
    repeat' apply And.intro
    all_goals exact devRef_ne_of_ne (ref_ne_of_idx_lt hb (by decide))))

/-- No operation of `rops1g` writes a buffer of index below 28. -/
theorem keep_rops1g (V : Valuation τ sig (Elt F)) (b : Ref sig .tc) (hb : b.idx.val < 28) :
    after rops1g V (b : DevRef τ sig) = V (b : DevRef τ sig) :=
  after_of_forall_not_mem (b := (b : DevRef τ sig)) _ _ (List.forall_iff_forall_mem.mp (by
    simp only [rops1g, List.Forall, nullary_writes, unary_writes, binary_writes, ternary_writes, reshape_writes,
      Finset.mem_singleton]
    repeat' apply And.intro
    all_goals exact devRef_ne_of_ne (ref_ne_of_idx_lt hb (by decide))))

/-- No operation of `rops1l` writes a buffer of index below 28. -/
theorem keep_rops1l (V : Valuation τ sig (Elt F)) (b : Ref sig .tc) (hb : b.idx.val < 28) :
    after rops1l V (b : DevRef τ sig) = V (b : DevRef τ sig) :=
  after_of_forall_not_mem (b := (b : DevRef τ sig)) _ _ (List.forall_iff_forall_mem.mp (by
    simp only [rops1l, List.Forall, nullary_writes, unary_writes, binary_writes, ternary_writes, reshape_writes,
      Finset.mem_singleton]
    repeat' apply And.intro
    all_goals exact devRef_ne_of_ne (ref_ne_of_idx_lt hb (by decide))))

/-- No operation of `rops2g` writes a buffer of index below 28. -/
theorem keep_rops2g (V : Valuation τ sig (Elt F)) (b : Ref sig .tc) (hb : b.idx.val < 28) :
    after rops2g V (b : DevRef τ sig) = V (b : DevRef τ sig) :=
  after_of_forall_not_mem (b := (b : DevRef τ sig)) _ _ (List.forall_iff_forall_mem.mp (by
    simp only [rops2g, List.Forall, nullary_writes, unary_writes, binary_writes, ternary_writes, reshape_writes,
      Finset.mem_singleton]
    repeat' apply And.intro
    all_goals exact devRef_ne_of_ne (ref_ne_of_idx_lt hb (by decide))))

/-- No operation of `rops2l` writes a buffer of index below 28. -/
theorem keep_rops2l (V : Valuation τ sig (Elt F)) (b : Ref sig .tc) (hb : b.idx.val < 28) :
    after rops2l V (b : DevRef τ sig) = V (b : DevRef τ sig) :=
  after_of_forall_not_mem (b := (b : DevRef τ sig)) _ _ (List.forall_iff_forall_mem.mp (by
    simp only [rops2l, List.Forall, nullary_writes, unary_writes, binary_writes, ternary_writes, reshape_writes,
      Finset.mem_singleton]
    repeat' apply And.intro
    all_goals exact devRef_ne_of_ne (ref_ne_of_idx_lt hb (by decide))))

/-- No operation of `rops3g` writes a buffer of index below 28. -/
theorem keep_rops3g (V : Valuation τ sig (Elt F)) (b : Ref sig .tc) (hb : b.idx.val < 28) :
    after rops3g V (b : DevRef τ sig) = V (b : DevRef τ sig) :=
  after_of_forall_not_mem (b := (b : DevRef τ sig)) _ _ (List.forall_iff_forall_mem.mp (by
    simp only [rops3g, List.Forall, nullary_writes, unary_writes, binary_writes, ternary_writes, reshape_writes,
      Finset.mem_singleton]
    repeat' apply And.intro
    all_goals exact devRef_ne_of_ne (ref_ne_of_idx_lt hb (by decide))))

/-- No operation of `rops3l` writes a buffer of index below 28. -/
theorem keep_rops3l (V : Valuation τ sig (Elt F)) (b : Ref sig .tc) (hb : b.idx.val < 28) :
    after rops3l V (b : DevRef τ sig) = V (b : DevRef τ sig) :=
  after_of_forall_not_mem (b := (b : DevRef τ sig)) _ _ (List.forall_iff_forall_mem.mp (by
    simp only [rops3l, List.Forall, nullary_writes, unary_writes, binary_writes, ternary_writes, reshape_writes,
      Finset.mem_singleton]
    repeat' apply And.intro
    all_goals exact devRef_ne_of_ne (ref_ne_of_idx_lt hb (by decide))))

/-- No operation of `rops4` writes a buffer of index below 28. -/
theorem keep_rops4 (V : Valuation τ sig (Elt F)) (b : Ref sig .tc) (hb : b.idx.val < 28) :
    after rops4 V (b : DevRef τ sig) = V (b : DevRef τ sig) :=
  after_of_forall_not_mem (b := (b : DevRef τ sig)) _ _ (List.forall_iff_forall_mem.mp (by
    simp only [rops4, List.Forall, nullary_writes, unary_writes, binary_writes, ternary_writes, reshape_writes,
      Finset.mem_singleton]
    repeat' apply And.intro
    all_goals exact devRef_ne_of_ne (ref_ne_of_idx_lt hb (by decide))))

/-- No operation of `rops5` writes a buffer of index below 28. -/
theorem keep_rops5 (V : Valuation τ sig (Elt F)) (b : Ref sig .tc) (hb : b.idx.val < 28) :
    after rops5 V (b : DevRef τ sig) = V (b : DevRef τ sig) :=
  after_of_forall_not_mem (b := (b : DevRef τ sig)) _ _ (List.forall_iff_forall_mem.mp (by
    simp only [rops5, List.Forall, nullary_writes, unary_writes, binary_writes, ternary_writes, reshape_writes,
      Finset.mem_singleton]
    repeat' apply And.intro
    all_goals exact devRef_ne_of_ne (ref_ne_of_idx_lt hb (by decide))))

end Cert.ReferenceIdeal.RefRun

end
-- ==== Proof.Act.lean ====
/-
  Two spellings of a leaky rectifier on the extended reals. One compares strictly and scales on the right,
  `if 0 < y then y else y * s`; the other compares weakly and scales on the left, `if 0 ≤ y then y else s * y`.
  They differ only in the branch taken at `y = 0`, where both branches give `0`.
  And two spellings of the logistic's exponent: `0 - y` and `-y` are the same extended real.
-/
import Idealize.ShloMosaic.PureOps.Ideal
import Idealize.ShloMosaic.PureOps.Ideal.Laws
import Idealize.ShloMosaic.Lib.ValueIdx

noncomputable section

namespace Cert.Act

open Idealize.ShloMosaic

/-- The strict, right-scaled rectifier equals the weak, left-scaled one at every extended real. -/
theorem leaky_eq (s y : EReal) :
    (if 0 < y then y else y * s) = Scalar.select (Ideal.cmp .oge y 0) y (s * y) := by
  unfold Ideal.cmp Scalar.select
  by_cases h : (0 : EReal) < y
  · have h' : (0 : EReal) ≤ y := le_of_lt h
    simp [h, h']
  · by_cases h0 : (0 : EReal) ≤ y
    · have e : y = 0 := le_antisymm (not_lt.mp h) h0
      subst e
      simp
    · simp [h, h0, mul_comm]

/-- Subtracting from the zero word is negating. -/
theorem zero_sub_eq (y : EReal) : Ideal.ofBits .f32 0x00000000#32 - y = -y := by
  rw [Ideal.ofBits_zero_f32, sub_eq_add_neg, zero_add]

end Cert.Act

end
-- ==== Proof.Bridge.lean ====
/-
  The two programs compared layer by layer. Both are the same network: a shared prologue (the edge list split
  into sources and targets, the degrees, their inverse square roots), three graph-convolution layers (a dense
  projection, then the same gather / scale / scatter-add / self-loop / bias / leaky-rectifier glue on both sides)
  and a three-layer dense head. The glue is operation for operation the same on both sides, so it preserves
  agreement of its inputs; a dense projection is, on both sides, entry (p, q) = Σ_k feature(p, k) · weightᵀ(k, q)
  (the kernel's zero bias row adds 0; its roundings to a narrower float format are the identity on the extended
  reals); the head's leaky rectifier is spelt with a strict comparison on one side and a weak one on the other,
  which differ only at 0 where both give 0; the logistic's exponent is 0 - y on one side and -y on the other.
  The invariant carried from layer to layer: sources, targets, inverse-square-root degrees and the current
  features agree, and every argument array still holds its launch contents.
-/
import proofs.«100723_j10694468567643_1_alg».proof.Proof.KLin0
import proofs.«100723_j10694468567643_1_alg».proof.Proof.KLin1
import proofs.«100723_j10694468567643_1_alg».proof.Proof.KLin2
import proofs.«100723_j10694468567643_1_alg».proof.Proof.KLin3
import proofs.«100723_j10694468567643_1_alg».proof.Proof.KLin4
import proofs.«100723_j10694468567643_1_alg».proof.Proof.KLin5
import proofs.«100723_j10694468567643_1_alg».proof.Proof.RLin
import proofs.«100723_j10694468567643_1_alg».proof.Proof.Glue0
import proofs.«100723_j10694468567643_1_alg».proof.Proof.Glue
import proofs.«100723_j10694468567643_1_alg».proof.Proof.Glue2
import proofs.«100723_j10694468567643_1_alg».proof.Proof.Glue3
import proofs.«100723_j10694468567643_1_alg».proof.Proof.KernelKeep
import proofs.«100723_j10694468567643_1_alg».proof.Proof.RefKeep
import proofs.«100723_j10694468567643_1_alg».proof.Proof.Act
import proofs.«100723_j10694468567643_1_alg».proof.Proof.LibAfterAppend

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories agree on the fourteen argument arrays. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-! ## The reference's buffer contents after each piece of its operation list -/

abbrev R0g : Valuation Cert.ReferenceIdeal.τ Cert.ReferenceIdeal.sig (Elt Ideal) := after Cert.ReferenceIdeal.RefRun.rops0g (launchContents m' c)
abbrev R0 : Valuation Cert.ReferenceIdeal.τ Cert.ReferenceIdeal.sig (Elt Ideal) := after Cert.ReferenceIdeal.RefRun.rops0l (R0g m' c)
abbrev R1g : Valuation Cert.ReferenceIdeal.τ Cert.ReferenceIdeal.sig (Elt Ideal) := after Cert.ReferenceIdeal.RefRun.rops1g (R0 m' c)
abbrev R1 : Valuation Cert.ReferenceIdeal.τ Cert.ReferenceIdeal.sig (Elt Ideal) := after Cert.ReferenceIdeal.RefRun.rops1l (R1g m' c)
abbrev R2g : Valuation Cert.ReferenceIdeal.τ Cert.ReferenceIdeal.sig (Elt Ideal) := after Cert.ReferenceIdeal.RefRun.rops2g (R1 m' c)
abbrev R2 : Valuation Cert.ReferenceIdeal.τ Cert.ReferenceIdeal.sig (Elt Ideal) := after Cert.ReferenceIdeal.RefRun.rops2l (R2g m' c)
abbrev R3g : Valuation Cert.ReferenceIdeal.τ Cert.ReferenceIdeal.sig (Elt Ideal) := after Cert.ReferenceIdeal.RefRun.rops3g (R2 m' c)
abbrev R3 : Valuation Cert.ReferenceIdeal.τ Cert.ReferenceIdeal.sig (Elt Ideal) := after Cert.ReferenceIdeal.RefRun.rops3l (R3g m' c)
abbrev R4 : Valuation Cert.ReferenceIdeal.τ Cert.ReferenceIdeal.sig (Elt Ideal) := after Cert.ReferenceIdeal.RefRun.rops4 (R3 m' c)
abbrev R5 : Valuation Cert.ReferenceIdeal.τ Cert.ReferenceIdeal.sig (Elt Ideal) := after Cert.ReferenceIdeal.RefRun.rops5 (R4 m' c)

/-- The fold over the whole list is the fold piece by piece. -/
theorem ops_fold : after (Cert.ReferenceIdeal.RefRun.ops (F := Ideal)) (launchContents m' c) = R5 m' c := by
  simp only [Cert.ReferenceIdeal.RefRun.ops, after_append]

/-! ## Argument arrays keep their launch contents -/

section Args
variable (b : Ref Cert.ReferenceIdeal.sig .tc) (hb : b.idx.val < 14)
include hb
theorem rarg0g : R0g m' c (Proc.devRef .tc b) = m' ((c.tc : Thread Cert.ReferenceIdeal.nD Cert.ReferenceIdeal.τ).loc b) := Cert.ReferenceIdeal.RefRun.keep0g _ b hb
theorem rarg0 : R0 m' c (Proc.devRef .tc b) = m' ((c.tc : Thread Cert.ReferenceIdeal.nD Cert.ReferenceIdeal.τ).loc b) :=
  (Cert.ReferenceIdeal.RefRun.keep_rops0l _ b (Nat.lt_of_lt_of_le hb (by decide))).trans (rarg0g m' c b hb)
theorem rarg1g : R1g m' c (Proc.devRef .tc b) = m' ((c.tc : Thread Cert.ReferenceIdeal.nD Cert.ReferenceIdeal.τ).loc b) :=
  (Cert.ReferenceIdeal.RefRun.keep_rops1g _ b (Nat.lt_of_lt_of_le hb (by decide))).trans (rarg0 m' c b hb)
theorem rarg1 : R1 m' c (Proc.devRef .tc b) = m' ((c.tc : Thread Cert.ReferenceIdeal.nD Cert.ReferenceIdeal.τ).loc b) :=
  (Cert.ReferenceIdeal.RefRun.keep_rops1l _ b (Nat.lt_of_lt_of_le hb (by decide))).trans (rarg1g m' c b hb)
theorem rarg2g : R2g m' c (Proc.devRef .tc b) = m' ((c.tc : Thread Cert.ReferenceIdeal.nD Cert.ReferenceIdeal.τ).loc b) :=
  (Cert.ReferenceIdeal.RefRun.keep_rops2g _ b (Nat.lt_of_lt_of_le hb (by decide))).trans (rarg1 m' c b hb)
theorem rarg2 : R2 m' c (Proc.devRef .tc b) = m' ((c.tc : Thread Cert.ReferenceIdeal.nD Cert.ReferenceIdeal.τ).loc b) :=
  (Cert.ReferenceIdeal.RefRun.keep_rops2l _ b (Nat.lt_of_lt_of_le hb (by decide))).trans (rarg2g m' c b hb)
theorem rarg3g : R3g m' c (Proc.devRef .tc b) = m' ((c.tc : Thread Cert.ReferenceIdeal.nD Cert.ReferenceIdeal.τ).loc b) :=
  (Cert.ReferenceIdeal.RefRun.keep_rops3g _ b (Nat.lt_of_lt_of_le hb (by decide))).trans (rarg2 m' c b hb)
theorem rarg3 : R3 m' c (Proc.devRef .tc b) = m' ((c.tc : Thread Cert.ReferenceIdeal.nD Cert.ReferenceIdeal.τ).loc b) :=
  (Cert.ReferenceIdeal.RefRun.keep_rops3l _ b (Nat.lt_of_lt_of_le hb (by decide))).trans (rarg3g m' c b hb)
theorem rarg4 : R4 m' c (Proc.devRef .tc b) = m' ((c.tc : Thread Cert.ReferenceIdeal.nD Cert.ReferenceIdeal.τ).loc b) :=
  (Cert.ReferenceIdeal.RefRun.keep_rops4 _ b (Nat.lt_of_lt_of_le hb (by decide))).trans (rarg3 m' c b hb)
end Args

section KArgs
variable (b : Ref Cert.KernelIdeal.sig .tc) (hb : b.idx.val < 14)
include hb
theorem karg2 : Cert.KernelIdeal.Gen.W2 m ρ c (Proc.devRef .tc b) = m ((c.tc : Thread Cert.KernelIdeal.nD Cert.KernelIdeal.τ).loc b) :=
  (Cert.KernelIdeal.KRun.keep2 m ρ c b (Nat.lt_of_lt_of_le hb (by decide))).trans (Cert.KernelIdeal.KRun.keep_args m ρ c b hb)
theorem karg4 : Cert.KernelIdeal.Gen.W4 m ρ c (Proc.devRef .tc b) = m ((c.tc : Thread Cert.KernelIdeal.nD Cert.KernelIdeal.τ).loc b) :=
  (Cert.KernelIdeal.KRun.keep_hostOps1_1 (Cert.KernelIdeal.Gen.W3 m ρ c) b (Nat.lt_of_lt_of_le hb (by decide))).trans
    ((Cert.KernelIdeal.KRun.keep_hostOps1 (Cert.KernelIdeal.Gen.W2 m ρ c) b (Nat.lt_of_lt_of_le hb (by decide))).trans (karg2 m ρ c b hb))
theorem karg6 : Cert.KernelIdeal.Gen.W6 m ρ c (Proc.devRef .tc b) = m ((c.tc : Thread Cert.KernelIdeal.nD Cert.KernelIdeal.τ).loc b) :=
  (Cert.KernelIdeal.KRun.keep6 m ρ c b (Nat.lt_of_lt_of_le hb (by decide))).trans (Cert.KernelIdeal.KRun.keep_args m ρ c b hb)
theorem karg8 : Cert.KernelIdeal.Gen.W8 m ρ c (Proc.devRef .tc b) = m ((c.tc : Thread Cert.KernelIdeal.nD Cert.KernelIdeal.τ).loc b) :=
  (Cert.KernelIdeal.KRun.keep_hostOps2_1 (Cert.KernelIdeal.Gen.W7 m ρ c) b (Nat.lt_of_lt_of_le hb (by decide))).trans
    ((Cert.KernelIdeal.KRun.keep_hostOps2 (Cert.KernelIdeal.Gen.W6 m ρ c) b (Nat.lt_of_lt_of_le hb (by decide))).trans (karg6 m ρ c b hb))
theorem karg10 : Cert.KernelIdeal.Gen.W10 m ρ c (Proc.devRef .tc b) = m ((c.tc : Thread Cert.KernelIdeal.nD Cert.KernelIdeal.τ).loc b) :=
  (Cert.KernelIdeal.KRun.keep10 m ρ c b (Nat.lt_of_lt_of_le hb (by decide))).trans (Cert.KernelIdeal.KRun.keep_args m ρ c b hb)
theorem karg12 : Cert.KernelIdeal.Gen.W12 m ρ c (Proc.devRef .tc b) = m ((c.tc : Thread Cert.KernelIdeal.nD Cert.KernelIdeal.τ).loc b) :=
  (Cert.KernelIdeal.KRun.keep_hostOps3_1 (Cert.KernelIdeal.Gen.W11 m ρ c) b (Nat.lt_of_lt_of_le hb (by decide))).trans
    ((Cert.KernelIdeal.KRun.keep_hostOps3 (Cert.KernelIdeal.Gen.W10 m ρ c) b (Nat.lt_of_lt_of_le hb (by decide))).trans (karg10 m ρ c b hb))
theorem karg14 : Cert.KernelIdeal.Gen.W14 m ρ c (Proc.devRef .tc b) = m ((c.tc : Thread Cert.KernelIdeal.nD Cert.KernelIdeal.τ).loc b) :=
  (Cert.KernelIdeal.KRun.keep14 m ρ c b (Nat.lt_of_lt_of_le hb (by decide))).trans (Cert.KernelIdeal.KRun.keep_args m ρ c b hb)
theorem karg16 : Cert.KernelIdeal.Gen.W16 m ρ c (Proc.devRef .tc b) = m ((c.tc : Thread Cert.KernelIdeal.nD Cert.KernelIdeal.τ).loc b) :=
  (Cert.KernelIdeal.KRun.keep16 m ρ c b (Nat.lt_of_lt_of_le hb (by decide))).trans (Cert.KernelIdeal.KRun.keep_args m ρ c b hb)
end KArgs

end Cert.Bridge

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ## Values computed in the prologue stay put -/

section Early
variable (b : Ref Cert.ReferenceIdeal.sig .tc) (hb : b.idx.val < 28)
include hb
theorem rearly0 : R0 m' c (Proc.devRef .tc b) = R0g m' c (Proc.devRef .tc b) := Cert.ReferenceIdeal.RefRun.keep_rops0l _ b hb
theorem rearly1 : R1 m' c (Proc.devRef .tc b) = R0g m' c (Proc.devRef .tc b) :=
  (Cert.ReferenceIdeal.RefRun.keep_rops1l _ b hb).trans ((Cert.ReferenceIdeal.RefRun.keep_rops1g _ b hb).trans (rearly0 m' c b hb))
theorem rearly2 : R2 m' c (Proc.devRef .tc b) = R0g m' c (Proc.devRef .tc b) :=
  (Cert.ReferenceIdeal.RefRun.keep_rops2l _ b hb).trans ((Cert.ReferenceIdeal.RefRun.keep_rops2g _ b hb).trans (rearly1 m' c b hb))
end Early

/-! ## The prologue: sources, targets and inverse-square-root degrees agree -/

theorem pro (hA : Agree m m' c) :
    Cert.KernelIdeal.Gen.W1 m ρ c (Proc.devRef .tc Cert.KernelIdeal.main_v1) = R0g m' c (Proc.devRef .tc Cert.ReferenceIdeal.main_v1)
    ∧ Cert.KernelIdeal.Gen.W1 m ρ c (Proc.devRef .tc Cert.KernelIdeal.main_v3) = R0g m' c (Proc.devRef .tc Cert.ReferenceIdeal.main_v3)
    ∧ Cert.KernelIdeal.Gen.W1 m ρ c (Proc.devRef .tc Cert.KernelIdeal.main_v10) = R0g m' c (Proc.devRef .tc Cert.ReferenceIdeal.main_v10) :=
  Cert.Glue.glue0 (Cert.KernelIdeal.Gen.W0 m ρ c) (launchContents m' c) hA.a1.symm

/-! ## Layer 0 -/

theorem lay0 (hA : Agree m m' c) : Cert.KernelIdeal.Gen.W2 m ρ c (Proc.devRef .tc Cert.KernelIdeal.main_v15) = R0 m' c (Proc.devRef .tc Cert.ReferenceIdeal.main_v12) := by
  refine Cert.Spec.ext2 (n := 200000) (w := 128) fun p q => ?_
  refine (Cert.KernelIdeal.KLin.out0 m ρ c p q).trans (Eq.trans ?_ (Cert.ReferenceIdeal.RLin.rlin0 (R0g m' c) p q).symm)
  rw [rarg0g m' c Cert.ReferenceIdeal.main_arg0 (by decide), rarg0g m' c Cert.ReferenceIdeal.main_arg2 (by decide), hA.a0, hA.a2]
  all_goals rfl

/-! ## Layer 1: the glue after layer 0, then the projection -/

theorem glu1 (hA : Agree m m' c) : Cert.KernelIdeal.Gen.W4 m ρ c (Proc.devRef .tc Cert.KernelIdeal.main_v52) = R1g m' c (Proc.devRef .tc Cert.ReferenceIdeal.main_v49) :=
  Cert.Glue.glue1 (Cert.KernelIdeal.Gen.W2 m ρ c) (R0 m' c)
    ((Cert.KernelIdeal.KRun.keep2 m ρ c Cert.KernelIdeal.main_v1 (by decide)).trans ((pro m ρ m' c hA).1.trans (rearly0 m' c Cert.ReferenceIdeal.main_v1 (by decide)).symm))
    ((Cert.KernelIdeal.KRun.keep2 m ρ c Cert.KernelIdeal.main_v3 (by decide)).trans ((pro m ρ m' c hA).2.1.trans (rearly0 m' c Cert.ReferenceIdeal.main_v3 (by decide)).symm))
    ((Cert.KernelIdeal.KRun.keep2 m ρ c Cert.KernelIdeal.main_v10 (by decide)).trans ((pro m ρ m' c hA).2.2.trans (rearly0 m' c Cert.ReferenceIdeal.main_v10 (by decide)).symm))
    (lay0 m ρ m' c hA)
    ((karg2 m ρ c Cert.KernelIdeal.main_arg3 (by decide)).trans (hA.a3.symm.trans (rarg0 m' c Cert.ReferenceIdeal.main_arg3 (by decide)).symm))

theorem lay1 (hA : Agree m m' c) : Cert.KernelIdeal.Gen.W6 m ρ c (Proc.devRef .tc Cert.KernelIdeal.main_v57) = R1 m' c (Proc.devRef .tc Cert.ReferenceIdeal.main_v51) := by
  refine Cert.Spec.ext2 (n := 200000) (w := 256) fun p q => ?_
  refine (Cert.KernelIdeal.KLin.out1 m ρ c p q).trans (Eq.trans ?_ (Cert.ReferenceIdeal.RLin.rlin1 (R1g m' c) p q).symm)
  rw [glu1 m ρ m' c hA, karg4 m ρ c Cert.KernelIdeal.main_arg4 (by decide), rarg1g m' c Cert.ReferenceIdeal.main_arg4 (by decide), hA.a4]
  all_goals rfl

/-! ## Layer 2 -/

theorem glu2 (hA : Agree m m' c) : Cert.KernelIdeal.Gen.W8 m ρ c (Proc.devRef .tc Cert.KernelIdeal.main_v94) = R2g m' c (Proc.devRef .tc Cert.ReferenceIdeal.main_v88) :=
  Cert.Glue.glue2 (Cert.KernelIdeal.Gen.W6 m ρ c) (R1 m' c)
    ((Cert.KernelIdeal.KRun.keep6 m ρ c Cert.KernelIdeal.main_v1 (by decide)).trans ((pro m ρ m' c hA).1.trans (rearly1 m' c Cert.ReferenceIdeal.main_v1 (by decide)).symm))
    ((Cert.KernelIdeal.KRun.keep6 m ρ c Cert.KernelIdeal.main_v3 (by decide)).trans ((pro m ρ m' c hA).2.1.trans (rearly1 m' c Cert.ReferenceIdeal.main_v3 (by decide)).symm))
    ((Cert.KernelIdeal.KRun.keep6 m ρ c Cert.KernelIdeal.main_v10 (by decide)).trans ((pro m ρ m' c hA).2.2.trans (rearly1 m' c Cert.ReferenceIdeal.main_v10 (by decide)).symm))
    (lay1 m ρ m' c hA)
    ((karg6 m ρ c Cert.KernelIdeal.main_arg5 (by decide)).trans (hA.a5.symm.trans (rarg1 m' c Cert.ReferenceIdeal.main_arg5 (by decide)).symm))

theorem lay2 (hA : Agree m m' c) : Cert.KernelIdeal.Gen.W10 m ρ c (Proc.devRef .tc Cert.KernelIdeal.main_v99) = R2 m' c (Proc.devRef .tc Cert.ReferenceIdeal.main_v90) := by
  refine Cert.Spec.ext2 (n := 200000) (w := 128) fun p q => ?_
  refine (Cert.KernelIdeal.KLin.out2 m ρ c p q).trans (Eq.trans ?_ (Cert.ReferenceIdeal.RLin.rlin2 (R2g m' c) p q).symm)
  rw [glu2 m ρ m' c hA, karg8 m ρ c Cert.KernelIdeal.main_arg6 (by decide), rarg2g m' c Cert.ReferenceIdeal.main_arg6 (by decide), hA.a6]
  all_goals rfl

/-! ## Layer 3: the glue after layer 2, the regrouping of forty nodes per graph, the head's first layer -/

theorem glu3 (hA : Agree m m' c) : Cert.KernelIdeal.Gen.W12 m ρ c (Proc.devRef .tc Cert.KernelIdeal.main_v136) = R3g m' c (Proc.devRef .tc Cert.ReferenceIdeal.main_v127) :=
  Cert.Glue.glue3 (Cert.KernelIdeal.Gen.W10 m ρ c) (R2 m' c)
    ((Cert.KernelIdeal.KRun.keep10 m ρ c Cert.KernelIdeal.main_v1 (by decide)).trans ((pro m ρ m' c hA).1.trans (rearly2 m' c Cert.ReferenceIdeal.main_v1 (by decide)).symm))
    ((Cert.KernelIdeal.KRun.keep10 m ρ c Cert.KernelIdeal.main_v3 (by decide)).trans ((pro m ρ m' c hA).2.1.trans (rearly2 m' c Cert.ReferenceIdeal.main_v3 (by decide)).symm))
    ((Cert.KernelIdeal.KRun.keep10 m ρ c Cert.KernelIdeal.main_v10 (by decide)).trans ((pro m ρ m' c hA).2.2.trans (rearly2 m' c Cert.ReferenceIdeal.main_v10 (by decide)).symm))
    (lay2 m ρ m' c hA)
    ((karg10 m ρ c Cert.KernelIdeal.main_arg7 (by decide)).trans (hA.a7.symm.trans (rarg2 m' c Cert.ReferenceIdeal.main_arg7 (by decide)).symm))

theorem lay3 (hA : Agree m m' c) : Cert.KernelIdeal.Gen.W14 m ρ c (Proc.devRef .tc Cert.KernelIdeal.main_v142) = R3 m' c (Proc.devRef .tc Cert.ReferenceIdeal.main_v134) := by
  refine Cert.Spec.ext2 (n := 5000) (w := 512) fun p q => ?_
  refine (Cert.KernelIdeal.KLin.out3 m ρ c p q).trans (Eq.trans ?_ (Cert.ReferenceIdeal.RLin.rlin3 (R3g m' c) p q).symm)
  rw [glu3 m ρ m' c hA, karg12 m ρ c Cert.KernelIdeal.main_arg8 (by decide), karg12 m ρ c Cert.KernelIdeal.main_arg9 (by decide),
    rarg3g m' c Cert.ReferenceIdeal.main_arg8 (by decide), rarg3g m' c Cert.ReferenceIdeal.main_arg9 (by decide), hA.a8, hA.a9]
  exact Cert.Act.leaky_eq _ _

/-! ## Layer 4 -/

theorem lay4 (hA : Agree m m' c) : Cert.KernelIdeal.Gen.W16 m ρ c (Proc.devRef .tc Cert.KernelIdeal.main_v147) = R4 m' c (Proc.devRef .tc Cert.ReferenceIdeal.main_v140) := by
  refine Cert.Spec.ext2 (n := 5000) (w := 128) fun p q => ?_
  refine (Cert.KernelIdeal.KLin.out4 m ρ c p q).trans (Eq.trans ?_ (Cert.ReferenceIdeal.RLin.rlin4 (R3 m' c) p q).symm)
  rw [lay3 m ρ m' c hA, karg14 m ρ c Cert.KernelIdeal.main_arg10 (by decide), karg14 m ρ c Cert.KernelIdeal.main_arg11 (by decide),
    rarg3 m' c Cert.ReferenceIdeal.main_arg10 (by decide), rarg3 m' c Cert.ReferenceIdeal.main_arg11 (by decide), hA.a10, hA.a11]
  exact Cert.Act.leaky_eq _ _

/-! ## Layer 5: the result -/

theorem lay5 (hA : Agree m m' c) : Cert.KernelIdeal.Gen.W18 m ρ c (Proc.devRef .tc Cert.KernelIdeal.main_v152) = R5 m' c (Proc.devRef .tc Cert.ReferenceIdeal.main_v151) := by
  refine Cert.Spec.ext2 (n := 5000) (w := 1) fun p q => ?_
  refine (Cert.KernelIdeal.KLin.out5 m ρ c p q).trans (Eq.trans ?_ (Cert.ReferenceIdeal.RLin.rlin5 (R4 m' c) p q).symm)
  rw [lay4 m ρ m' c hA, karg16 m ρ c Cert.KernelIdeal.main_arg12 (by decide), karg16 m ρ c Cert.KernelIdeal.main_arg13 (by decide),
    rarg4 m' c Cert.ReferenceIdeal.main_arg12 (by decide), rarg4 m' c Cert.ReferenceIdeal.main_arg13 (by decide), hA.a12, hA.a13]
  unfold Cert.KernelIdeal.RegVal.sigm
  rw [Cert.Act.zero_sub_eq]
  all_goals rfl

/-- The kernel's result array is the reference's. -/
theorem result_eq (hA : Agree m m' c) :
    Cert.KernelIdeal.Gen.W18 m ρ c (Proc.devRef .tc Cert.KernelIdeal.main_v152) = after (Cert.ReferenceIdeal.RefRun.ops (F := Ideal)) (launchContents m' c) (Proc.devRef .tc Cert.ReferenceIdeal.main_v151) := by
  rw [ops_fold]
  exact lay5 m ρ m' c hA

/-- The reference's argument arrays end as launched. -/
theorem ref_arg (b : Ref Cert.ReferenceIdeal.sig .tc) (hb : b.idx.val < 14) :
    after (Cert.ReferenceIdeal.RefRun.ops (F := Ideal)) (launchContents m' c) (Proc.devRef .tc b) = m' ((c.tc : Thread Cert.ReferenceIdeal.nD Cert.ReferenceIdeal.τ).loc b) := by
  rw [ops_fold]
  exact (Cert.ReferenceIdeal.RefRun.keep_rops5 _ b (Nat.lt_of_lt_of_le hb (by decide))).trans (rarg4 m' c b hb)

end Cert.Bridge

end
-- ==== Proof.lean ====
/-
  The kernel computes a three-layer graph convolution network followed by a three-layer dense head and a
  logistic, with its six dense projections as six grid-tiled matrix products and the gather / scatter-add message
  passing as array operations between them; the reference computes the same network with plain matrix products.
  On the extended reals the two results are equal for every input:
  * each tiled product leaves, in row block t of its output, the product of row block t of the features with the
    whole transposed weight, and the row blocks cover the output, so the output is the whole product
    (Region0 … Region5); the zero bias row of the convolution layers adds 0, and a change of float format is the
    identity (KLin0 … KLin5); the reference's products are the same sums (RLin);
  * the message-passing glue is the same sequence of operations on both sides (Glue);
  * the leaky rectifier compares strictly on one side and weakly on the other, and the two agree at 0 (Act);
  * layer by layer the features agree (Bridge).
  No precondition is used: only commutativity of the product, x + 0 = x and 0 - y = -y are needed, which hold at
  the infinities too. The idealized kernel is the kernel's own text read on the extended reals (no rewrite), so
  the preservation claim is trivial.
-/
import proofs.«100723_j10694468567643_1_alg».proof.Defs
import proofs.«100723_j10694468567643_1_alg».proof.Proof.Gen.Kernel
import proofs.«100723_j10694468567643_1_alg».proof.Proof.Gen.Kernel.Frame
import proofs.«100723_j10694468567643_1_alg».proof.Proof.Gen.KernelIdeal
import proofs.«100723_j10694468567643_1_alg».proof.Proof.Gen.KernelIdeal.Frame
import proofs.«100723_j10694468567643_1_alg».proof.Proof.Gen.ReferenceIdeal
import proofs.«100723_j10694468567643_1_alg».proof.Proof.Gen.Pre_finite_inputs
import proofs.«100723_j10694468567643_1_alg».proof.Proof.KernelRun
import proofs.«100723_j10694468567643_1_alg».proof.Proof.RefRun
import proofs.«100723_j10694468567643_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs, and no operation of it writes an argument array. -/
theorem frame_ri : Cert.frame_ReferenceIdeal := fun m ρ _ =>
  (θ_run Cert.ReferenceIdeal.defs _ _).mono (fun _ h c =>
      ⟨(h c Cert.ReferenceIdeal.main_arg0).trans (Cert.Bridge.ref_arg m c Cert.ReferenceIdeal.main_arg0 (by decide)),
        (h c Cert.ReferenceIdeal.main_arg1).trans (Cert.Bridge.ref_arg m c Cert.ReferenceIdeal.main_arg1 (by decide)),
        (h c Cert.ReferenceIdeal.main_arg2).trans (Cert.Bridge.ref_arg m c Cert.ReferenceIdeal.main_arg2 (by decide)),
        (h c Cert.ReferenceIdeal.main_arg3).trans (Cert.Bridge.ref_arg m c Cert.ReferenceIdeal.main_arg3 (by decide)),
        (h c Cert.ReferenceIdeal.main_arg4).trans (Cert.Bridge.ref_arg m c Cert.ReferenceIdeal.main_arg4 (by decide)),
        (h c Cert.ReferenceIdeal.main_arg5).trans (Cert.Bridge.ref_arg m c Cert.ReferenceIdeal.main_arg5 (by decide)),
        (h c Cert.ReferenceIdeal.main_arg6).trans (Cert.Bridge.ref_arg m c Cert.ReferenceIdeal.main_arg6 (by decide)),
        (h c Cert.ReferenceIdeal.main_arg7).trans (Cert.Bridge.ref_arg m c Cert.ReferenceIdeal.main_arg7 (by decide)),
        (h c Cert.ReferenceIdeal.main_arg8).trans (Cert.Bridge.ref_arg m c Cert.ReferenceIdeal.main_arg8 (by decide)),
        (h c Cert.ReferenceIdeal.main_arg9).trans (Cert.Bridge.ref_arg m c Cert.ReferenceIdeal.main_arg9 (by decide)),
        (h c Cert.ReferenceIdeal.main_arg10).trans (Cert.Bridge.ref_arg m c Cert.ReferenceIdeal.main_arg10 (by decide)),
        (h c Cert.ReferenceIdeal.main_arg11).trans (Cert.Bridge.ref_arg m c Cert.ReferenceIdeal.main_arg11 (by decide)),
        (h c Cert.ReferenceIdeal.main_arg12).trans (Cert.Bridge.ref_arg m c Cert.ReferenceIdeal.main_arg12 (by decide)),
        (h c Cert.ReferenceIdeal.main_arg13).trans (Cert.Bridge.ref_arg m c Cert.ReferenceIdeal.main_arg13 (by decide))⟩)
    (Cert.ReferenceIdeal.RefRun.run_main (F := Ideal) m ρ)

/-- From memories agreeing on the arguments both programs end with the same result array. -/
theorem algebraic : Cert.algebraic_KernelIdeal_ReferenceIdeal := by
  intro m ρ m' ρ' _ hagree
  have hA : ∀ c, Cert.Bridge.Agree m m' c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2⟩
  refine ⟨fun c => Cert.KernelIdeal.Gen.W18 m ρ c (Proc.devRef .tc Cert.KernelIdeal.main_v152), Cert.KernelIdeal.KRun.run_val (F := Ideal) m ρ, ?_⟩
  refine (θ_run Cert.ReferenceIdeal.defs _ _).mono (fun _ h c =>
      ⟨(h c Cert.ReferenceIdeal.main_v151).trans (Cert.Bridge.result_eq m ρ m' c (hA c)).symm,
        (h c Cert.ReferenceIdeal.main_arg0).trans (Cert.Bridge.ref_arg m' c Cert.ReferenceIdeal.main_arg0 (by decide)),
        (h c Cert.ReferenceIdeal.main_arg1).trans (Cert.Bridge.ref_arg m' c Cert.ReferenceIdeal.main_arg1 (by decide)),
        (h c Cert.ReferenceIdeal.main_arg2).trans (Cert.Bridge.ref_arg m' c Cert.ReferenceIdeal.main_arg2 (by decide)),
        (h c Cert.ReferenceIdeal.main_arg3).trans (Cert.Bridge.ref_arg m' c Cert.ReferenceIdeal.main_arg3 (by decide)),
        (h c Cert.ReferenceIdeal.main_arg4).trans (Cert.Bridge.ref_arg m' c Cert.ReferenceIdeal.main_arg4 (by decide)),
        (h c Cert.ReferenceIdeal.main_arg5).trans (Cert.Bridge.ref_arg m' c Cert.ReferenceIdeal.main_arg5 (by decide)),
        (h c Cert.ReferenceIdeal.main_arg6).trans (Cert.Bridge.ref_arg m' c Cert.ReferenceIdeal.main_arg6 (by decide)),
        (h c Cert.ReferenceIdeal.main_arg7).trans (Cert.Bridge.ref_arg m' c Cert.ReferenceIdeal.main_arg7 (by decide)),
        (h c Cert.ReferenceIdeal.main_arg8).trans (Cert.Bridge.ref_arg m' c Cert.ReferenceIdeal.main_arg8 (by decide)),
        (h c Cert.ReferenceIdeal.main_arg9).trans (Cert.Bridge.ref_arg m' c Cert.ReferenceIdeal.main_arg9 (by decide)),
        (h c Cert.ReferenceIdeal.main_arg10).trans (Cert.Bridge.ref_arg m' c Cert.ReferenceIdeal.main_arg10 (by decide)),
        (h c Cert.ReferenceIdeal.main_arg11).trans (Cert.Bridge.ref_arg m' c Cert.ReferenceIdeal.main_arg11 (by decide)),
        (h c Cert.ReferenceIdeal.main_arg12).trans (Cert.Bridge.ref_arg m' c Cert.ReferenceIdeal.main_arg12 (by decide)),
        (h c Cert.ReferenceIdeal.main_arg13).trans (Cert.Bridge.ref_arg m' c Cert.ReferenceIdeal.main_arg13 (by decide))⟩)
    (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
